-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x64 : Shape := ⟨3, ![256, 1024, 64]⟩
abbrev S128x64 : Shape := ⟨2, ![128, 64]⟩
abbrev S128 : Shape := ⟨1, ![128]⟩
abbrev S128x128 : Shape := ⟨2, ![128, 128]⟩
abbrev S512x128 : Shape := ⟨2, ![512, 128]⟩
abbrev S512 : Shape := ⟨1, ![512]⟩
abbrev S8x128 : Shape := ⟨2, ![8, 128]⟩
abbrev S8 : Shape := ⟨1, ![8]⟩
abbrev S1x128 : Shape := ⟨2, ![1, 128]⟩
abbrev S1 : Shape := ⟨1, ![1]⟩
abbrev S_ : Shape := ⟨0, ![]⟩

class Facts : Prop where
  bcast_S_S256x1024x64 : S_.BroadcastsInDim S256x1024x64 (![] : Fin 0 → Fin S256x1024x64.rank)
  reducesTo_S256x1024x64_S_d0_1_2 : S256x1024x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1x128 .f32) (main_arg22 : FVec F S1 .f32) (main_v98 : IVec S_ 1) (main_v101 : IVec S8 1) (main_c_39 : IVec S_ 1) : IVec S_ 1 :=
  let main_v102 : IVec S_ 1 := (fun x v => Host.reduce IntOp.andi x v reducesTo_S8_S_d0 h_S_) main_v101 main_c_39
  let main_v103 : IVec S_ 1 := andi main_v98 main_v102
  let main_v104 : FVec F S1x128 .f32 := Host.absf main_arg21
  let main_cst_40 : FVec F S_ .f32 := constant S_ .f32 0x7F800000#32
  let main_v105 : FVec F S1x128 .f32 := broadcastInDim S1x128 ![] bcast_S_S1x128 main_cst_40
  let main_v106 : IVec S1x128 1 := cmpf .olt main_v104 main_v105
  let main_c_41 : IVec S_ 1 := constantI S_ 1 1#1
  let main_v107 : IVec S_ 1 := (fun x v => Host.reduce IntOp.andi x v reducesTo_S1x128_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg18 : FVec F S8 .f32) (main_arg19 : FVec F S8x128 .f32) (main_arg20 : FVec F S8 .f32) (main_arg21 : FVec F S1x128 .f32) (main_arg22 : FVec F S1 .f32) (main_v83 : IVec S_ 1) (main_v84 : FVec F S8x128 .f32) (main_cst_32 : FVec F S_ .f32) : IVec S_ 1 :=
  let main_v85 : FVec F S8x128 .f32 := broadcastInDim S8x128 ![] bcast_S_S8x128 main_cst_32
  let main_v86 : IVec S8x128 1 := cmpf .olt main_v84 main_v85
  let main_c_33 : IVec S_ 1 := constantI S_ 1 1#1
  let main_v87 : IVec S_ 1 := (fun x v => Host.reduce IntOp.andi x v reducesTo_S8x128_S_d0_1 h_S_) main_v86 main_c_33
  let main_v88 : IVec S_ 1 := andi main_v83 main_v87
  let main_v89 : FVec F S8 .f32 := Host.absf main_arg18
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S8x128 .f32 := Host.absf main_arg19
  let main_cst_36 : FVec F S_ .f32 := constant S_ .f32 0x7F800000#32
  let main_v95 : FVec F S8x128 .f32 := broadcastInDim S8x128 ![] bcast_S_S8x128 main_cst_36
  let main_v96 : IVec S8x128 1 := cmpf .olt main_v94 main_v95
  let main_c_37 : IVec S_ 1 := constantI S_ 1 1#1
  let main_v97 : IVec S_ 1 := (fun x v => Host.reduce IntOp.andi x v reducesTo_S8x128_S_d0_1 h_S_) main_v96 main_c_37
  let main_v98 : IVec S_ 1 := andi main_v93 main_v97
  let main_v99 : FVec F S8 .f32 := Host.absf main_arg20
  let main_cst_38 : FVec F S_ .f32 := constant S_ .f32 0x7F800000#32
  let main_v100 : FVec F S8 .f32 := broadcastInDim S8 ![] bcast_S_S8 main_cst_38
  let main_v101 : IVec S8 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S512x128 .f32) (main_arg15 : FVec F S512 .f32) (main_arg16 : FVec F S512 .f32) (main_arg17 : FVec F S8x128 .f32) (main_arg18 : FVec F S8 .f32) (main_arg19 : FVec F S8x128 .f32) (main_arg20 : FVec F S8 .f32) (main_arg21 : FVec F S1x128 .f32) (main_arg22 : FVec F S1 .f32) (main_v63 : IVec S_ 1) (main_v67 : IVec S_ 1) : IVec S_ 1 :=
  let main_v68 : IVec S_ 1 := andi main_v63 main_v67
  let main_v69 : FVec F S512x128 .f32 := Host.absf main_arg14
  let main_cst_26 : FVec F S_ .f32 := constant S_ .f32 0x7F800000#32
  let main_v70 : FVec F S512x128 .f32 := broadcastInDim S512x128 ![] bcast_S_S512x128 main_cst_26
  let main_v71 : IVec S512x128 1 := cmpf .olt main_v69 main_v70
  let main_c_27 : IVec S_ 1 := constantI S_ 1 1#1
  let main_v72 : IVec S_ 1 := (fun x v => Host.reduce IntOp.andi x v reducesTo_S512x128_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S8x128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S512 .f32) (main_arg12 : FVec F S512 .f32) (main_arg13 : FVec F S512x128 .f32) (main_arg14 : FVec F S512x128 .f32) (main_arg15 : FVec F S512 .f32) (main_arg16 : FVec F S512 .f32) (main_arg17 : FVec F S8x128 .f32) (main_arg18 : FVec F S8 .f32) (main_arg19 : FVec F S8x128 .f32) (main_arg20 : FVec F S8 .f32) (main_arg21 : FVec F S1x128 .f32) (main_arg22 : FVec F S1 .f32) (main_v48 : IVec S_ 1) (main_v49 : FVec F S512x128 .f32) (main_v50 : FVec F S512x128 .f32) : IVec S_ 1 :=
  let main_v51 : IVec S512x128 1 := cmpf .olt main_v49 main_v50
  let main_c_19 : IVec S_ 1 := constantI S_ 1 1#1
  let main_v52 : IVec S_ 1 := (fun x v => Host.reduce IntOp.andi x v reducesTo_S512x128_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x128 .f32 := Host.absf main_arg13
  let main_cst_24 : FVec F S_ .f32 := constant S_ .f32 0x7F800000#32
  let main_v65 : FVec F S512x128 .f32 := broadcastInDim S512x128 ![] bcast_S_S512x128 main_cst_24
  let main_v66 : IVec S512x128 1 := cmpf .olt main_v64 main_v65
  let main_c_25 : IVec S_ 1 := constantI S_ 1 1#1
  let main_v67 : IVec S_ 1 := (fun x v => Host.reduce IntOp.andi x v reducesTo_S512x128_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S128x128 .f32) (main_arg8 : FVec F S128 .f32) (main_arg9 : FVec F S512x128 .f32) (main_arg10 : FVec F S512x128 .f32) (main_arg11 : FVec F S512 .f32) (main_arg12 : FVec F S512 .f32) (main_arg13 : FVec F S512x128 .f32) (main_arg14 : FVec F S512x128 .f32) (main_arg15 : FVec F S512 .f32) (main_arg16 : FVec F S512 .f32) (main_arg17 : FVec F S8x128 .f32) (main_arg18 : FVec F S8 .f32) (main_arg19 : FVec F S8x128 .f32) (main_arg20 : FVec F S8 .f32) (main_arg21 : FVec F S1x128 .f32) (main_arg22 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S512x128 .f32 := Host.absf main_arg9
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S512x128 .f32 := Host.absf main_arg10
  let main_cst_18 : FVec F S_ .f32 := constant S_ .f32 0x7F800000#32
  let main_v50 : FVec F S512x128 .f32 := broadcastInDim S512x128 ![] bcast_S_S512x128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128 .f32) (main_arg5 : FVec F S128x64 .f32) (main_arg6 : FVec F S128 .f32) (main_arg7 : FVec F S128x128 .f32) (main_arg8 : FVec F S128 .f32) (main_arg9 : FVec F S512x128 .f32) (main_arg10 : FVec F S512x128 .f32) (main_arg11 : FVec F S512 .f32) (main_arg12 : FVec F S512 .f32) (main_arg13 : FVec F S512x128 .f32) (main_arg14 : FVec F S512x128 .f32) (main_arg15 : FVec F S512 .f32) (main_arg16 : FVec F S512 .f32) (main_arg17 : FVec F S8x128 .f32) (main_arg18 : FVec F S8 .f32) (main_arg19 : FVec F S8x128 .f32) (main_arg20 : FVec F S8 .f32) (main_arg21 : FVec F S1x128 .f32) (main_arg22 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S256x1024x64 .f32) (main_arg1 : FVec F S128x64 .f32) (main_arg2 : FVec F S128 .f32) (main_arg3 : FVec F S128x128 .f32) (main_arg4 : FVec F S128 .f32) (main_arg5 : FVec F S128x64 .f32) (main_arg6 : FVec F S128 .f32) (main_arg7 : FVec F S128x128 .f32) (main_arg8 : FVec F S128 .f32) (main_arg9 : FVec F S512x128 .f32) (main_arg10 : FVec F S512x128 .f32) (main_arg11 : FVec F S512 .f32) (main_arg12 : FVec F S512 .f32) (main_arg13 : FVec F S512x128 .f32) (main_arg14 : FVec F S512x128 .f32) (main_arg15 : FVec F S512 .f32) (main_arg16 : FVec F S512 .f32) (main_arg17 : FVec F S8x128 .f32) (main_arg18 : FVec F S8 .f32) (main_arg19 : FVec F S8x128 .f32) (main_arg20 : FVec F S8 .f32) (main_arg21 : FVec F S1x128 .f32) (main_arg22 : FVec F S1 .f32) : IVec S_ 1 :=
  let main_v0 : FVec F S256x1024x64 .f32 := Host.absf main_arg0
  let main_cst : FVec F S_ .f32 := constant S_ .f32 0x7F800000#32
  let main_v1 : FVec F S256x1024x64 .f32 := broadcastInDim S256x1024x64 ![] bcast_S_S256x1024x64 main_cst
  let main_v2 : IVec S256x1024x64 1 := cmpf .olt main_v0 main_v1
  let main_c : IVec S_ 1 := constantI S_ 1 1#1
  let main_v3 : IVec S_ 1 := (fun x v => Host.reduce IntOp.andi x v reducesTo_S256x1024x64_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S256x1024x64 : Shape := ⟨3, ![256, 1024, 64]⟩
abbrev S128x64 : Shape := ⟨2, ![128, 64]⟩
abbrev S128 : Shape := ⟨1, ![128]⟩
abbrev S128x128 : Shape := ⟨2, ![128, 128]⟩
abbrev S512x128 : Shape := ⟨2, ![512, 128]⟩
abbrev S512 : Shape := ⟨1, ![512]⟩
abbrev S8x128 : Shape := ⟨2, ![8, 128]⟩
abbrev S8 : Shape := ⟨1, ![8]⟩
abbrev S1x128 : Shape := ⟨2, ![1, 128]⟩
abbrev S1 : Shape := ⟨1, ![1]⟩
abbrev S262144x64 : Shape := ⟨2, ![262144, 64]⟩
abbrev S64x128 : Shape := ⟨2, ![64, 128]⟩
abbrev S64x256 : Shape := ⟨2, ![64, 256]⟩
abbrev S256 : Shape := ⟨1, ![256]⟩
abbrev S128x512 : Shape := ⟨2, ![128, 512]⟩
abbrev S128x384 : Shape := ⟨2, ![128, 384]⟩
abbrev S384 : Shape := ⟨1, ![384]⟩
abbrev S128x8 : Shape := ⟨2, ![128, 8]⟩
abbrev S128x16 : Shape := ⟨2, ![128, 16]⟩
abbrev S16 : Shape := ⟨1, ![16]⟩
abbrev S128x1 : Shape := ⟨2, ![128, 1]⟩
abbrev S262144x17 : Shape := ⟨2, ![262144, 17]⟩
abbrev S2048x64 : Shape := ⟨2, ![2048, 64]⟩
abbrev S2048x17 : Shape := ⟨2, ![2048, 17]⟩
abbrev S2048x256 : Shape := ⟨2, ![2048, 256]⟩
abbrev S1x256 : Shape := ⟨2, ![1, 256]⟩
abbrev S2048x128 : Shape := ⟨2, ![2048, 128]⟩
abbrev S2048x384 : Shape := ⟨2, ![2048, 384]⟩
abbrev S1x384 : Shape := ⟨2, ![1, 384]⟩
abbrev S2048x16 : Shape := ⟨2, ![2048, 16]⟩
abbrev S1x16 : Shape := ⟨2, ![1, 16]⟩
abbrev S2048x8 : Shape := ⟨2, ![2048, 8]⟩
abbrev S2048x1 : Shape := ⟨2, ![2048, 1]⟩
abbrev S1x1 : Shape := ⟨2, ![1, 1]⟩
abbrev S262144x8 : Shape := ⟨2, ![262144, 8]⟩
abbrev S256x1024x8 : Shape := ⟨3, ![256, 1024, 8]⟩
abbrev S262144x1 : Shape := ⟨2, ![262144, 1]⟩
abbrev S256x1024x1 : Shape := ⟨3, ![256, 1024, 1]⟩

abbrev nBuf : Space → Nat
  | .hbm => 69
  | .vmem => 18
  | .smem => 0
  | _ => 0

abbrev bufTy : (tb : Table) → Fin (tcTables nBuf tb) → BufTy
  | .hbm, ⟨0, _⟩ => ⟨S256x1024x64, .f32⟩
  | .hbm, ⟨1, _⟩ => ⟨S128x64, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S512x128, .f32⟩
  | .hbm, ⟨10, _⟩ => ⟨S512x128, .f32⟩
  | .hbm, ⟨11, _⟩ => ⟨S512, .f32⟩
  | .hbm, ⟨12, _⟩ => ⟨S512, .f32⟩
  | .hbm, ⟨13, _⟩ => ⟨S512x128, .f32⟩
  | .hbm, ⟨14, _⟩ => ⟨S512x128, .f32⟩
  | .hbm, ⟨15, _⟩ => ⟨S512, .f32⟩
  | .hbm, ⟨16, _⟩ => ⟨S512, .f32⟩
  | .hbm, ⟨17, _⟩ => ⟨S8x128, .f32⟩
  | .hbm, ⟨18, _⟩ => ⟨S8, .f32⟩
  | .hbm, ⟨19, _⟩ => ⟨S8x128, .f32⟩
  | .hbm, ⟨20, _⟩ => ⟨S8, .f32⟩
  | .hbm, ⟨21, _⟩ => ⟨S1x128, .f32⟩
  | .hbm, ⟨22, _⟩ => ⟨S1, .f32⟩
  | .hbm, ⟨23, _⟩ => ⟨S262144x64, .f32⟩
  | .hbm, ⟨24, _⟩ => ⟨S64x128, .f32⟩
  | .hbm, ⟨25, _⟩ => ⟨S64x128, .f32⟩
  | .hbm, ⟨26, _⟩ => ⟨S64x256, .f32⟩
  | .hbm, ⟨27, _⟩ => ⟨S64x256, .bf16⟩
  | .hbm, ⟨28, _⟩ => ⟨S256, .f32⟩
  | .hbm, ⟨29, _⟩ => ⟨S128x128, .f32⟩
  | .hbm, ⟨30, _⟩ => ⟨S128x128, .bf16⟩
  | .hbm, ⟨31, _⟩ => ⟨S128x128, .f32⟩
  | .hbm, ⟨32, _⟩ => ⟨S128x128, .bf16⟩
  | .hbm, ⟨33, _⟩ => ⟨S128x512, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x384, .f32⟩
  | .hbm, ⟨38, _⟩ => ⟨S128x384, .bf16⟩
  | .hbm, ⟨39, _⟩ => ⟨S128x512, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x384, .f32⟩
  | .hbm, ⟨44, _⟩ => ⟨S128x384, .bf16⟩
  | .hbm, ⟨45, _⟩ => ⟨S512, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S384, .f32⟩
  | .hbm, ⟨50, _⟩ => ⟨S512, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S384, .f32⟩
  | .hbm, ⟨55, _⟩ => ⟨S128x8, .f32⟩
  | .hbm, ⟨56, _⟩ => ⟨S128x8, .f32⟩
  | .hbm, ⟨57, _⟩ => ⟨S128x16, .f32⟩
  | .hbm, ⟨58, _⟩ => ⟨S128x16, .bf16⟩
  | .hbm, ⟨59, _⟩ => ⟨S16, .f32⟩
  | .hbm, ⟨60, _⟩ => ⟨S128x1, .f32⟩
  | .hbm, ⟨61, _⟩ => ⟨S128x1, .bf16⟩
  | .hbm, ⟨62, _⟩ => ⟨S262144x17, .f32⟩
  | .hbm, ⟨63, _⟩ => ⟨S262144x8, .f32⟩
  | .hbm, ⟨64, _⟩ => ⟨S256x1024x8, .f32⟩
  | .hbm, ⟨65, _⟩ => ⟨S262144x8, .f32⟩
  | .hbm, ⟨66, _⟩ => ⟨S256x1024x8, .f32⟩
  | .hbm, ⟨67, _⟩ => ⟨S262144x1, .f32⟩
  | .hbm, ⟨68, _⟩ => ⟨S256x1024x1, .f32⟩
  | .local _ .vmem, ⟨0, _⟩ => ⟨S2048x64, .f32⟩
  | .local _ .vmem, ⟨1, _⟩ => ⟨S2048x64, .f32⟩
  | .local _ .vmem, ⟨2, _⟩ => ⟨S64x256, .bf16⟩
  | .local _ .vmem, ⟨3, _⟩ => ⟨S256, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S128x384, .bf16⟩
  | .local _ .vmem, ⟨9, _⟩ => ⟨S384, .f32⟩
  | .local _ .vmem, ⟨10, _⟩ => ⟨S128x384, .bf16⟩
  | .local _ .vmem, ⟨11, _⟩ => ⟨S384, .f32⟩
  | .local _ .vmem, ⟨12, _⟩ => ⟨S128x16, .bf16⟩
  | .local _ .vmem, ⟨13, _⟩ => ⟨S16, .f32⟩
  | .local _ .vmem, ⟨14, _⟩ => ⟨S128x1, .bf16⟩
  | .local _ .vmem, ⟨15, _⟩ => ⟨S1, .f32⟩
  | .local _ .vmem, ⟨16, _⟩ => ⟨S2048x17, .f32⟩
  | .local _ .vmem, ⟨17, _⟩ => ⟨S2048x17, .f32⟩
  | _, _ => ⟨S256x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x17 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S256x1024x64_S262144x64 : S256x1024x64.ShapeCasts S262144x64
  transposes_S128x64_S64x128_1_0 : S128x64.Transposes [1, 0] S64x128
  concatenates_S64x128_S64x128_S64x256_d1 : Shape.Concatenates [S64x128, S64x128] S64x256 1
  bitsLt_bf16_f32 : FTy.bits .bf16 < FTy.bits .f32
  concatenates_S128_S128_S256_d0 : Shape.Concatenates [S128, S128] S256 0
  transposes_S128x128_S128x128_1_0 : S128x128.Transposes [1, 0] S128x128
  transposes_S512x128_S128x512_1_0 : S512x128.Transposes [1, 0] S128x512
  slices_S128x512_S128x128_0_0 : S128x512.Slices ![0, 0] S128x128
  slices_S128x512_S128x128_0_256 : S128x512.Slices ![0, 256] S128x128
  slices_S128x512_S128x128_0_384 : S128x512.Slices ![0, 384] S128x128
  concatenates_S128x128_S128x128_S128x128_S128x384_d1 : Shape.Concatenates [S128x128, S128x128, S128x128] S128x384 1
  slices_S512_S128_0 : S512.Slices ![0] S128
  slices_S512_S128_256 : S512.Slices ![256] S128
  slices_S512_S128_384 : S512.Slices ![384] S128
  concatenates_S128_S128_S128_S384_d0 : Shape.Concatenates [S128, S128, S128] S384 0
  transposes_S8x128_S128x8_1_0 : S8x128.Transposes [1, 0] S128x8
  concatenates_S128x8_S128x8_S128x16_d1 : Shape.Concatenates [S128x8, S128x8] S128x16 1
  concatenates_S8_S8_S16_d0 : Shape.Concatenates [S8, S8] S16 0
  transposes_S1x128_S128x1_1_0 : S1x128.Transposes [1, 0] S128x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2048x256 : S1x256.Broadcasts S2048x256
  slices_S2048x256_o0_0_S2048x128 : S2048x256.Slices ![0, 0] S2048x128
  slices_S2048x256_o0_128_S2048x128 : S2048x256.Slices ![0, 128] S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S16_S16_0 : ∀ a, (![0] : Fin 1 → Nat) a + S16.size a ≤ S16.size a
  h_S16 : 0 < S16.numel
  shapeCasts_S16_S16 : S16.ShapeCasts S16
  shapeCasts_S16_S1x16 : S16.ShapeCasts S1x16
  broadcasts_S1x16_S2048x16 : S1x16.Broadcasts S2048x16
  slices_S2048x16_o0_0_S2048x8 : S2048x16.Slices ![0, 0] S2048x8
  slices_S2048x16_o0_8_S2048x8 : S2048x16.Slices ![0, 8] S2048x8
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  concatenates_S2048x8_S2048x8_S2048x1_S2048x17_d1 : Shape.Concatenates [S2048x8, S2048x8, S2048x1] S2048x17 1
  inb_S2048x17_S2048x17_0_0 : ∀ a, (![0, 0] : Fin 2 → Nat) a + S2048x17.size a ≤ S2048x17.size a
  h_S2048x17 : 0 < S2048x17.numel
  slices_S262144x17_S262144x8_0_0 : S262144x17.Slices ![0, 0] S262144x8
  shapeCasts_S262144x8_S256x1024x8 : S262144x8.ShapeCasts S256x1024x8
  slices_S262144x17_S262144x8_0_8 : S262144x17.Slices ![0, 8] S262144x8
  slices_S262144x17_S262144x1_0_16 : S262144x17.Slices ![0, 16] S262144x1
  shapeCasts_S262144x1_S256x1024x1 : S262144x1.ShapeCasts S256x1024x1
  dot_S2048x64_S64x256_S2048x256_1_0_0_1_n_n_wf : DotDims.WF S2048x64 S64x256 S2048x256 [1] [0] [0] [1] [] []
  dot_S2048x128_S128x128_S2048x128_1_0_0_1_n_n_wf : DotDims.WF S2048x128 S128x128 S2048x128 [1] [0] [0] [1] [] []
  dot_S2048x128_S128x384_S2048x384_1_0_0_1_n_n_wf : DotDims.WF S2048x128 S128x384 S2048x384 [1] [0] [0] [1] [] []
  dot_S2048x128_S128x16_S2048x16_1_0_0_1_n_n_wf : DotDims.WF S2048x128 S128x16 S2048x16 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S262144x64.size a
  hwx0_0 : ∀ i : grid0.Coords, EltTy.bits .f32 = 32 ∨ (Rect.block (s := S262144x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x384.size a ≤ S128x384.size a
  hwx0_7 : ∀ i : grid0.Coords, EltTy.bits .bf16 = 32 ∨ (Rect.block (s := S128x384) S128x384.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384.size a ≤ S384.size a
  hwx0_8 : ∀ i : grid0.Coords, EltTy.bits .f32 = 32 ∨ (Rect.block (s := S384) S384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x384.size a ≤ S128x384.size a
  hwx0_9 : ∀ i : grid0.Coords, EltTy.bits .bf16 = 32 ∨ (Rect.block (s := S128x384) S128x384.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384.size a ≤ S384.size a
  hwx0_10 : ∀ i : grid0.Coords, EltTy.bits .f32 = 32 ∨ (Rect.block (s := S384) S384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x16.size a ≤ S128x16.size a
  hwx0_11 : ∀ i : grid0.Coords, EltTy.bits .bf16 = 32 ∨ (Rect.block (s := S128x16) S128x16.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16.size a ≤ S16.size a
  hwx0_12 : ∀ i : grid0.Coords, EltTy.bits .f32 = 32 ∨ (Rect.block (s := S16) S16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x1.size a ≤ S128x1.size a
  hwx0_13 : ∀ i : grid0.Coords, EltTy.bits .bf16 = 32 ∨ (Rect.block (s := S128x1) S128x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x17.size a ≤ S262144x17.size a
  hwx0_15 : ∀ i : grid0.Coords, EltTy.bits .f32 = 32 ∨ (Rect.block (s := S262144x17) S2048x17.size (cc0_transform_15 i) (hinb0_15 i)).WholeWords (EltTy.packing .f32)

variable [Facts₀]

def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf
def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S128x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S128x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31) S384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35) S128x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v36) S16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v38) S128x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg22) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v39) S2048x17.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S256x1024x64 : Shape := ⟨3, ![256, 1024, 64]⟩
abbrev S128x64 : Shape := ⟨2, ![128, 64]⟩
abbrev S128 : Shape := ⟨1, ![128]⟩
abbrev S128x128 : Shape := ⟨2, ![128, 128]⟩
abbrev S512x128 : Shape := ⟨2, ![512, 128]⟩
abbrev S512 : Shape := ⟨1, ![512]⟩
abbrev S8x128 : Shape := ⟨2, ![8, 128]⟩
abbrev S8 : Shape := ⟨1, ![8]⟩
abbrev S1x128 : Shape := ⟨2, ![1, 128]⟩
abbrev S1 : Shape := ⟨1, ![1]⟩
abbrev S256x1024x128 : Shape := ⟨3, ![256, 1024, 128]⟩
abbrev S1x1x128 : Shape := ⟨3, ![1, 1, 128]⟩
abbrev S_ : Shape := ⟨0, ![]⟩
abbrev S256x1024x512 : Shape := ⟨3, ![256, 1024, 512]⟩
abbrev S1x1x512 : Shape := ⟨3, ![1, 1, 512]⟩
abbrev S256x1024x8 : Shape := ⟨3, ![256, 1024, 8]⟩
abbrev S1x1x8 : Shape := ⟨3, ![1, 1, 8]⟩
abbrev S256x1024x1 : Shape := ⟨3, ![256, 1024, 1]⟩
abbrev S1x1x1 : Shape := ⟨3, ![1, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S256x1024x64, .f32⟩
  | .hbm, ⟨1, _⟩ => ⟨S128x64, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S512x128, .f32⟩
  | .hbm, ⟨10, _⟩ => ⟨S512x128, .f32⟩
  | .hbm, ⟨11, _⟩ => ⟨S512, .f32⟩
  | .hbm, ⟨12, _⟩ => ⟨S512, .f32⟩
  | .hbm, ⟨13, _⟩ => ⟨S512x128, .f32⟩
  | .hbm, ⟨14, _⟩ => ⟨S512x128, .f32⟩
  | .hbm, ⟨15, _⟩ => ⟨S512, .f32⟩
  | .hbm, ⟨16, _⟩ => ⟨S512, .f32⟩
  | .hbm, ⟨17, _⟩ => ⟨S8x128, .f32⟩
  | .hbm, ⟨18, _⟩ => ⟨S8, .f32⟩
  | .hbm, ⟨19, _⟩ => ⟨S8x128, .f32⟩
  | .hbm, ⟨20, _⟩ => ⟨S8, .f32⟩
  | .hbm, ⟨21, _⟩ => ⟨S1x128, .f32⟩
  | .hbm, ⟨22, _⟩ => ⟨S1, .f32⟩
  | .hbm, ⟨23, _⟩ => ⟨S256x1024x128, .f32⟩
  | .hbm, ⟨24, _⟩ => ⟨S1x1x128, .f32⟩
  | .hbm, ⟨25, _⟩ => ⟨S256x1024x128, .f32⟩
  | .hbm, ⟨26, _⟩ => ⟨S256x1024x128, .f32⟩
  | .hbm, ⟨27, _⟩ => ⟨S_, .f32⟩
  | .hbm, ⟨28, _⟩ => ⟨S256x1024x128, .f32⟩
  | .hbm, ⟨29, _⟩ => ⟨S256x1024x128, .f32⟩
  | .hbm, ⟨30, _⟩ => ⟨S256x1024x128, .f32⟩
  | .hbm, ⟨31, _⟩ => ⟨S1x1x128, .f32⟩
  | .hbm, ⟨32, _⟩ => ⟨S256x1024x128, .f32⟩
  | .hbm, ⟨33, _⟩ => ⟨S256x1024x128, .f32⟩
  | .hbm, ⟨34, _⟩ => ⟨S_, .f32⟩
  | .hbm, ⟨35, _⟩ => ⟨S256x1024x128, .f32⟩
  | .hbm, ⟨36, _⟩ => ⟨S256x1024x128, .f32⟩
  | .hbm, ⟨37, _⟩ => ⟨S256x1024x512, .f32⟩
  | .hbm, ⟨38, _⟩ => ⟨S1x1x512, .f32⟩
  | .hbm, ⟨39, _⟩ => ⟨S256x1024x512, .f32⟩
  | .hbm, ⟨40, _⟩ => ⟨S256x1024x512, .f32⟩
  | .hbm, ⟨41, _⟩ => ⟨S1x1x512, .f32⟩
  | .hbm, ⟨42, _⟩ => ⟨S256x1024x512, .f32⟩
  | .hbm, ⟨43, _⟩ => ⟨S256x1024x512, .f32⟩
  | .hbm, ⟨44, _⟩ => ⟨S256x1024x128, .f32⟩
  | .hbm, ⟨45, _⟩ => ⟨S256x1024x128, .f32⟩
  | .hbm, ⟨46, _⟩ => ⟨S256x1024x128, .f32⟩
  | .hbm, ⟨47, _⟩ => ⟨S256x1024x128, .f32⟩
  | .hbm, ⟨48, _⟩ => ⟨S256x1024x128, .f32⟩
  | .hbm, ⟨49, _⟩ => ⟨S256x1024x128, .f32⟩
  | .hbm, ⟨50, _⟩ => ⟨S_, .f32⟩
  | .hbm, ⟨51, _⟩ => ⟨S256x1024x128, .f32⟩
  | .hbm, ⟨52, _⟩ => ⟨S256x1024x128, .f32⟩
  | .hbm, ⟨53, _⟩ => ⟨S_, .f32⟩
  | .hbm, ⟨54, _⟩ => ⟨S256x1024x128, .f32⟩
  | .hbm, ⟨55, _⟩ => ⟨S256x1024x128, .f32⟩
  | .hbm, ⟨56, _⟩ => ⟨S256x1024x128, .f32⟩
  | .hbm, ⟨57, _⟩ => ⟨S256x1024x128, .f32⟩
  | .hbm, ⟨58, _⟩ => ⟨S256x1024x128, .f32⟩
  | .hbm, ⟨59, _⟩ => ⟨S256x1024x128, .f32⟩
  | .hbm, ⟨60, _⟩ => ⟨S_, .f32⟩
  | .hbm, ⟨61, _⟩ => ⟨S256x1024x128, .f32⟩
  | .hbm, ⟨62, _⟩ => ⟨S256x1024x128, .f32⟩
  | .hbm, ⟨63, _⟩ => ⟨S_, .f32⟩
  | .hbm, ⟨64, _⟩ => ⟨S256x1024x128, .f32⟩
  | .hbm, ⟨65, _⟩ => ⟨S256x1024x128, .f32⟩
  | .hbm, ⟨66, _⟩ => ⟨S256x1024x128, .f32⟩
  | .hbm, ⟨67, _⟩ => ⟨S256x1024x128, .f32⟩
  | .hbm, ⟨68, _⟩ => ⟨S256x1024x128, .f32⟩
  | .hbm, ⟨69, _⟩ => ⟨S1x1x128, .f32⟩
  | .hbm, ⟨70, _⟩ => ⟨S256x1024x128, .f32⟩
  | .hbm, ⟨71, _⟩ => ⟨S256x1024x128, .f32⟩
  | .hbm, ⟨72, _⟩ => ⟨S_, .f32⟩
  | .hbm, ⟨73, _⟩ => ⟨S256x1024x128, .f32⟩
  | .hbm, ⟨74, _⟩ => ⟨S256x1024x128, .f32⟩
  | .hbm, ⟨75, _⟩ => ⟨S256x1024x128, .f32⟩
  | .hbm, ⟨76, _⟩ => ⟨S1x1x128, .f32⟩
  | .hbm, ⟨77, _⟩ => ⟨S256x1024x128, .f32⟩
  | .hbm, ⟨78, _⟩ => ⟨S256x1024x128, .f32⟩
  | .hbm, ⟨79, _⟩ => ⟨S_, .f32⟩
  | .hbm, ⟨80, _⟩ => ⟨S256x1024x128, .f32⟩
  | .hbm, ⟨81, _⟩ => ⟨S256x1024x128, .f32⟩
  | .hbm, ⟨82, _⟩ => ⟨S256x1024x512, .f32⟩
  | .hbm, ⟨83, _⟩ => ⟨S1x1x512, .f32⟩
  | .hbm, ⟨84, _⟩ => ⟨S256x1024x512, .f32⟩
  | .hbm, ⟨85, _⟩ => ⟨S256x1024x512, .f32⟩
  | .hbm, ⟨86, _⟩ => ⟨S1x1x512, .f32⟩
  | .hbm, ⟨87, _⟩ => ⟨S256x1024x512, .f32⟩
  | .hbm, ⟨88, _⟩ => ⟨S256x1024x512, .f32⟩
  | .hbm, ⟨89, _⟩ => ⟨S256x1024x128, .f32⟩
  | .hbm, ⟨90, _⟩ => ⟨S256x1024x128, .f32⟩
  | .hbm, ⟨91, _⟩ => ⟨S256x1024x128, .f32⟩
  | .hbm, ⟨92, _⟩ => ⟨S256x1024x128, .f32⟩
  | .hbm, ⟨93, _⟩ => ⟨S256x1024x128, .f32⟩
  | .hbm, ⟨94, _⟩ => ⟨S256x1024x128, .f32⟩
  | .hbm, ⟨95, _⟩ => ⟨S_, .f32⟩
  | .hbm, ⟨96, _⟩ => ⟨S256x1024x128, .f32⟩
  | .hbm, ⟨97, _⟩ => ⟨S256x1024x128, .f32⟩
  | .hbm, ⟨98, _⟩ => ⟨S_, .f32⟩
  | .hbm, ⟨99, _⟩ => ⟨S256x1024x128, .f32⟩
  | .hbm, ⟨100, _⟩ => ⟨S256x1024x128, .f32⟩
  | .hbm, ⟨101, _⟩ => ⟨S256x1024x128, .f32⟩
  | .hbm, ⟨102, _⟩ => ⟨S256x1024x128, .f32⟩
  | .hbm, ⟨103, _⟩ => ⟨S256x1024x128, .f32⟩
  | .hbm, ⟨104, _⟩ => ⟨S256x1024x128, .f32⟩
  | .hbm, ⟨105, _⟩ => ⟨S_, .f32⟩
  | .hbm, ⟨106, _⟩ => ⟨S256x1024x128, .f32⟩
  | .hbm, ⟨107, _⟩ => ⟨S256x1024x128, .f32⟩
  | .hbm, ⟨108, _⟩ => ⟨S_, .f32⟩
  | .hbm, ⟨109, _⟩ => ⟨S256x1024x128, .f32⟩
  | .hbm, ⟨110, _⟩ => ⟨S256x1024x128, .f32⟩
  | .hbm, ⟨111, _⟩ => ⟨S256x1024x128, .f32⟩
  | .hbm, ⟨112, _⟩ => ⟨S256x1024x128, .f32⟩
  | .hbm, ⟨113, _⟩ => ⟨S256x1024x8, .f32⟩
  | .hbm, ⟨114, _⟩ => ⟨S1x1x8, .f32⟩
  | .hbm, ⟨115, _⟩ => ⟨S256x1024x8, .f32⟩
  | .hbm, ⟨116, _⟩ => ⟨S256x1024x8, .f32⟩
  | .hbm, ⟨117, _⟩ => ⟨S256x1024x8, .f32⟩
  | .hbm, ⟨118, _⟩ => ⟨S1x1x8, .f32⟩
  | .hbm, ⟨119, _⟩ => ⟨S256x1024x8, .f32⟩
  | .hbm, ⟨120, _⟩ => ⟨S256x1024x8, .f32⟩
  | .hbm, ⟨121, _⟩ => ⟨S256x1024x8, .f32⟩
  | .hbm, ⟨122, _⟩ => ⟨S256x1024x1, .f32⟩
  | .hbm, ⟨123, _⟩ => ⟨S1x1x1, .f32⟩
  | .hbm, ⟨124, _⟩ => ⟨S256x1024x1, .f32⟩
  | .hbm, ⟨125, _⟩ => ⟨S256x1024x1, .f32⟩
  | _, _ => ⟨S256x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst : Ref sig .tc := ⟨.hbm, 50, rfl⟩
abbrev main_v23 : Ref sig .tc := ⟨.hbm, 51, rfl⟩
abbrev main_v24 : Ref sig .tc := ⟨.hbm, 52, rfl⟩
abbrev main_cst_0 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_1 : Ref sig .tc := ⟨.hbm, 60, rfl⟩
abbrev main_v31 : Ref sig .tc := ⟨.hbm, 61, rfl⟩
abbrev main_v32 : Ref sig .tc := ⟨.hbm, 62, rfl⟩
abbrev main_cst_2 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call2_cst : Ref sig .tc := ⟨.hbm, 72, rfl⟩
abbrev main_call2_v0 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call3_cst : Ref sig .tc := ⟨.hbm, 79, rfl⟩
abbrev main_call3_v0 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_3 : Ref sig .tc := ⟨.hbm, 95, rfl⟩
abbrev main_v60 : Ref sig .tc := ⟨.hbm, 96, rfl⟩
abbrev main_v61 : Ref sig .tc := ⟨.hbm, 97, rfl⟩
abbrev main_cst_4 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_5 : Ref sig .tc := ⟨.hbm, 105, rfl⟩
abbrev main_v68 : Ref sig .tc := ⟨.hbm, 106, rfl⟩
abbrev main_v69 : Ref sig .tc := ⟨.hbm, 107, rfl⟩
abbrev main_cst_6 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S256x1024x128_0_1_2 : S1x1x128.BroadcastsInDim S256x1024x128 (![0, 1, 2] : Fin 3 → Fin S256x1024x128.rank)
  bcast_S_S256x1024x128 : S_.BroadcastsInDim S256x1024x128 (![] : Fin 0 → Fin S256x1024x128.rank)
  bcast_S512_S1x1x512_2 : S512.BroadcastsInDim S1x1x512 (![2] : Fin 1 → Fin S1x1x512.rank)
  bcast_S1x1x512_S256x1024x512_0_1_2 : S1x1x512.BroadcastsInDim S256x1024x512 (![0, 1, 2] : Fin 3 → Fin S256x1024x512.rank)
  slices_S256x1024x512_S256x1024x128_0_0_0 : S256x1024x512.Slices ![0, 0, 0] S256x1024x128
  slices_S256x1024x512_S256x1024x128_0_0_128 : S256x1024x512.Slices ![0, 0, 128] S256x1024x128
  slices_S256x1024x512_S256x1024x128_0_0_256 : S256x1024x512.Slices ![0, 0, 256] S256x1024x128
  slices_S256x1024x512_S256x1024x128_0_0_384 : S256x1024x512.Slices ![0, 0, 384] S256x1024x128
  bcast_S8_S1x1x8_2 : S8.BroadcastsInDim S1x1x8 (![2] : Fin 1 → Fin S1x1x8.rank)
  bcast_S1x1x8_S256x1024x8_0_1_2 : S1x1x8.BroadcastsInDim S256x1024x8 (![0, 1, 2] : Fin 3 → Fin S256x1024x8.rank)
  bcast_S1_S1x1x1_2 : S1.BroadcastsInDim S1x1x1 (![2] : Fin 1 → Fin S1x1x1.rank)
  bcast_S1x1x1_S256x1024x1_0_1_2 : S1x1x1.BroadcastsInDim S256x1024x1 (![0, 1, 2] : Fin 3 → Fin S256x1024x1.rank)
  dot_S256x1024x64_S128x64_S256x1024x128_2_1_01_0_n_n_wf : DotDims.WF S256x1024x64 S128x64 S256x1024x128 [2] [1] [0, 1] [0] [] []
  dot_S256x1024x128_S128x128_S256x1024x128_2_1_01_0_n_n_wf : DotDims.WF S256x1024x128 S128x128 S256x1024x128 [2] [1] [0, 1] [0] [] []
  dot_S256x1024x128_S512x128_S256x1024x512_2_1_01_0_n_n_wf : DotDims.WF S256x1024x128 S512x128 S256x1024x512 [2] [1] [0, 1] [0] [] []
  dot_S256x1024x128_S8x128_S256x1024x8_2_1_01_0_n_n_wf : DotDims.WF S256x1024x128 S8x128 S256x1024x8 [2] [1] [0, 1] [0] [] []
  dot_S256x1024x128_S1x128_S256x1024x1_2_1_01_0_n_n_wf : DotDims.WF S256x1024x128 S1x128 S256x1024x1 [2] [1] [0, 1] [0] [] []

variable [Facts₀]

def dot_S256x1024x64_S128x64_S256x1024x128_2_1_01_0_n_n : DotDims S256x1024x64 S128x64 S256x1024x128 where
  lhsContracting := [2]
  rhsContracting := [1]
  lhsNonContracting := [0, 1]
  rhsNonContracting := [0]
  lhsBatch := []
  rhsBatch := []
  wf := dot_S256x1024x64_S128x64_S256x1024x128_2_1_01_0_n_n_wf
def dot_S256x1024x128_S128x128_S256x1024x128_2_1_01_0_n_n : DotDims S256x1024x128 S128x128 S256x1024x128 where
  lhsContracting := [2]
  rhsContracting := [1]
  lhsNonContracting := [0, 1]
  rhsNonContracting := [0]
  lhsBatch := []
  rhsBatch := []
  wf := dot_S256x1024x128_S128x128_S256x1024x128_2_1_01_0_n_n_wf
def dot_S256x1024x128_S512x128_S256x1024x512_2_1_01_0_n_n : DotDims S256x1024x128 S512x128 S256x1024x512 where
  lhsContracting := [2]
  rhsContracting := [1]
  lhsNonContracting := [0, 1]
  rhsNonContracting := [0]
  lhsBatch := []
  rhsBatch := []
  wf := dot_S256x1024x128_S512x128_S256x1024x512_2_1_01_0_n_n_wf
def dot_S256x1024x128_S8x128_S256x1024x8_2_1_01_0_n_n : DotDims S256x1024x128 S8x128 S256x1024x8 where
  lhsContracting := [2]
  rhsContracting := [1]
  lhsNonContracting := [0, 1]
  rhsNonContracting := [0]
  lhsBatch := []
  rhsBatch := []
  wf := dot_S256x1024x128_S8x128_S256x1024x8_2_1_01_0_n_n_wf
def dot_S256x1024x128_S1x128_S256x1024x1_2_1_01_0_n_n : DotDims S256x1024x128 S1x128 S256x1024x1 where
  lhsContracting := [2]
  rhsContracting := [1]
  lhsNonContracting := [0, 1]
  rhsNonContracting := [0]
  lhsBatch := []
  rhsBatch := []
  wf := dot_S256x1024x128_S1x128_S256x1024x1_2_1_01_0_n_n_wf

class Facts : Prop extends Facts₀ where

variable [Facts]
-- ==== Proof.FrameK.lean ====
/-
  The frame of the kernel program `Cert.Kernel.main`, at any float model `F`: its run terminates without fault and leaves every argument array as
  it was launched.

  The program is host lines, one pipelined region, host lines.  The region walks a grid of 128 points over sixteen
  windows: fifteen inputs (the activations, cut in blocks of 2048 rows, and fourteen parameter blocks, each whole)
  and one output (2048 rows of 17 numbers per point, written back at every point).  At a point the body reads every
  input buffer whole, reads the output buffer once without using the value, and overwrites the output buffer whole
  with one value computed from the fifteen reads.  So after the body each input buffer still holds its block, and
  the output buffer holds a closed function of the fifteen input blocks; this file names that function, gives the
  pipeline its proof data, discharges the body's obligation, and reads the frame off the library's launch theorem.
-/
import proofs.«100968_j85916525789512_2_alg».proof.Proof.Gen.Kernel.Launch
import proofs.«100968_j85916525789512_2_alg».proof.Proof.Gen.Kernel.Skeleton
import proofs.«100968_j85916525789512_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle with 2048 rows is decided by a recursion one level per row
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffers hold when the region is entered: the launch contents run through the host lines that
    come before it. -/
abbrev V0 (c : Dev nD) : Valuation τ sig (Elt F) := StableHlo.after (List.flatten [hostOps0]) (fun b => m (c, b))
/-- The same, read at one buffer of the core. -/
abbrev V (c : Dev nD) (b : Ref sig .tc) : Buf (Elt F) ((c : Thread nD τ).loc b) := V0 m c (Proc.devRef .tc b)

/-- The block of window `w` at grid point `t`, cut out of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: each buffer whole -/

abbrev rc_S2048x64 : Rect S2048x64 := Rect.unit (s := S2048x64) ![0, 0] S2048x64.size inb_S2048x64_S2048x64_0_0
abbrev rc_S64x256 : Rect S64x256 := Rect.unit (s := S64x256) ![0, 0] S64x256.size inb_S64x256_S64x256_0_0
abbrev rc_S256 : Rect S256 := Rect.unit (s := S256) ![0] S256.size inb_S256_S256_0
abbrev rc_S128x128 : Rect S128x128 := Rect.unit (s := S128x128) ![0, 0] S128x128.size inb_S128x128_S128x128_0_0
abbrev rc_S128 : Rect S128 := Rect.unit (s := S128) ![0] S128.size inb_S128_S128_0
abbrev rc_S128x384 : Rect S128x384 := Rect.unit (s := S128x384) ![0, 0] S128x384.size inb_S128x384_S128x384_0_0
abbrev rc_S384 : Rect S384 := Rect.unit (s := S384) ![0] S384.size inb_S384_S384_0
abbrev rc_S128x16 : Rect S128x16 := Rect.unit (s := S128x16) ![0, 0] S128x16.size inb_S128x16_S128x16_0_0
abbrev rc_S16 : Rect S16 := Rect.unit (s := S16) ![0] S16.size inb_S16_S16_0
abbrev rc_S128x1 : Rect S128x1 := Rect.unit (s := S128x1) ![0, 0] S128x1.size inb_S128x1_S128x1_0_0
abbrev rc_S1 : Rect S1 := Rect.unit (s := S1) ![0] S1.size inb_S1_S1_0
abbrev rc_S2048x17 : Rect S2048x17 := Rect.unit (s := S2048x17) ![0, 0] S2048x17.size inb_S2048x17_S2048x17_0_0

/-! ## What the body leaves in the output buffer -/

/-- The output buffer after the body, from the fifteen input blocks: the one store, which covers the buffer.  Its
    value joins, side by side, the mean head (8 columns), the exponential of the other small head (8 columns) and the
    value head plus its bias (1 column); the two small heads read the actor branch (two dense layers, then the cell),
    the value head the critic branch. -/
def out0_15 (x0 : Vec F S2048x64 .f32) (x1 : Vec F S64x256 .bf16) (x2 : Vec F S256 .f32) (x3 : Vec F S128x128 .bf16) (x4 : Vec F S128 .f32) (x5 : Vec F S128x128 .bf16) (x6 : Vec F S128 .f32) (x7 : Vec F S128x384 .bf16) (x8 : Vec F S384 .f32) (x9 : Vec F S128x384 .bf16) (x10 : Vec F S384 .f32) (x11 : Vec F S128x16 .bf16) (x12 : Vec F S16 .f32) (x13 : Vec F S128x1 .bf16) (x14 : Vec F S1 .f32) : Vec F S2048x17 .f32 :=
  View.canon [⟨rc_S2048x17,
    k0_pay1
      (k0_pay7 (k0_pay3 (View.ld x0 rc_S2048x64) (View.ld x1 rc_S64x256) (View.ld x2 rc_S256) (View.ld x3 rc_S128x128) (View.ld x4 rc_S128)) (k0_pay5 (View.ld x7 rc_S128x384)) (constant S2048x384 .f32 0x00000000#32 : FVec F S2048x384 .f32) (View.ld x8 rc_S384) (View.ld x11 rc_S128x16) (View.ld x12 rc_S16))
      (k0_pay8 (k0_pay3 (View.ld x0 rc_S2048x64) (View.ld x1 rc_S64x256) (View.ld x2 rc_S256) (View.ld x3 rc_S128x128) (View.ld x4 rc_S128)) (k0_pay5 (View.ld x7 rc_S128x384)) (constant S2048x384 .f32 0x00000000#32 : FVec F S2048x384 .f32) (View.ld x8 rc_S384) (View.ld x11 rc_S128x16) (View.ld x12 rc_S16))
      (k0_pay9 (k0_pay4 (View.ld x0 rc_S2048x64) (View.ld x1 rc_S64x256) (View.ld x2 rc_S256) (View.ld x5 rc_S128x128) (View.ld x6 rc_S128)) (View.ld x9 rc_S128x384) (View.ld x10 rc_S384) (View.ld x13 rc_S128x1))
      (View.ld x14 rc_S1)⟩]

/-- One rectangle that is the whole buffer covers it. -/
theorem cover0_15 (p0 : Vec F S2048x17 .f32) (y : S2048x17.Idx) :
    ∃ pc ∈ ([⟨rc_S2048x17, p0⟩] : List (View.Piece (Elt F) S2048x17 .f32)), y ∈ pc.1.set :=
  View.cover_of_tiled [⟨rc_S2048x17, p0⟩] S2048x17.size (by rfl) y

/-! ## The pipeline's proof data -/

/-- On core `c`: the arrays as the region finds them; after the body at point `t` every input buffer at its block and
    the output buffer at `out0_15` of the input blocks; the invariant is the untouched rest of the core; full shares;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are the region-entry contents (projected, never unfolded through the host lines). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) :
    (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  dsimp only [dats]

end Cert.Kernel.Hand

end
-- ==== Proof.FrameRunK.lean ====
/-
  The frame of the kernel program `Cert.Kernel.main`, continued: from the proof data of the definitions module to the
  run.  The program reaches its region with every buffer at the contents the earlier host lines leave; at each grid
  point the body finds every input buffer at that window's block, whether or not the block was fetched there, and
  leaves them so, with the output buffer overwritten whole; the later host lines write six results of their own.  The
  library's launch theorem then gives termination and the final contents of every unscoped buffer, from which each of
  the 23 argument arrays is read back as launched.
-/
import proofs.«100968_j85916525789512_2_alg».proof.Proof.FrameK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- No host line allocates a buffer, before the region -/
theorem hostOps0_fresh : (hostOps0 : List (HloOp τ sig (Elt F))).Forall fun op => op.fresh = ∅ := by
  simp only [List.Forall]; repeat' constructor
/-- or after it. -/
theorem hostOps1_fresh : (hostOps1 : List (HloOp τ sig (Elt F))).Forall fun op => op.fresh = ∅ := by
  simp only [List.Forall]; repeat' constructor

/-- The program is its earlier host lines, the region, its later host lines.  So from the launch contents it reaches
    the region holding every buffer at `V`, and what is left to run is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped buffers of the core only; nothing being prefetched, each of those is an array of the
    pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop
/-- And each writes its own result buffer only, which is no array of the pipeline: the three slices of the region's
    output and their three reshapes go to six fresh results. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.not_mem_nil, or_false] at hop
  rcases hop with rfl | rfl | rfl | rfl | rfl | rfl
  all_goals intro w; fin_cases w <;> simp only [StableHlo.unary_writes, StableHlo.binary_writes, StableHlo.nary_writes, StableHlo.reshape_writes, Finset.mem_singleton] <;> exact StableHlo.devRef_ne_of_ne (by decide)

/-! ### The argument arrays at the region's entry

Every host line before the region writes a result of its own (`main_v0` … `main_v38`), never an argument: so the
region finds each argument as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))

/-! ### The argument arrays after the later lines

The later lines write `main_v40` … `main_v45` only.  An argument that no window stages bypasses the region, so it
ends as the region found it, that is as launched.  (Arguments 4, 8 and 22 are staged whole by windows 4, 6 and 14; they
are read off the pipeline's arrays instead, below.) -/

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
theorem W_main_arg15 (dats : (p : Fin 1) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
theorem W_main_arg17 (dats : (p : Fin 1) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c
theorem W_main_arg18 (dats : (p : Fin 1) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
theorem W_main_arg19 (dats : (p : Fin 1) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c
theorem W_main_arg20 (dats : (p : Fin 1) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c
theorem W_main_arg21 (dats : (p : Fin 1) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c

/-! ## The body's triple -/

set_option maxHeartbeats 1000000 in
/-- The body on sixteen whole buffers: the fifteen inputs' read `x0` … `x14`, the output's holds anything.  It runs
    to its end with the inputs' as they were and the output's at `out0_15 x0 … x14`: every load is of a whole buffer,
    the one store covers the output's, and the read of the output's before the store is of whatever it held. -/
theorem sound_kernel (c : Dev nD) (E : Set ℕ) (i : grid0.Coords) (a0 : Memref sig .tc .vmem S2048x64 .f32) (h0 : a0.IsWhole) (a1 : Memref sig .tc .vmem S64x256 .bf16) (h1 : a1.IsWhole) (a2 : Memref sig .tc .vmem S256 .f32) (h2 : a2.IsWhole) (a3 : Memref sig .tc .vmem S128x128 .bf16) (h3 : a3.IsWhole) (a4 : Memref sig .tc .vmem S128 .f32) (h4 : a4.IsWhole) (a5 : Memref sig .tc .vmem S128x128 .bf16) (h5 : a5.IsWhole) (a6 : Memref sig .tc .vmem S128 .f32) (h6 : a6.IsWhole) (a7 : Memref sig .tc .vmem S128x384 .bf16) (h7 : a7.IsWhole) (a8 : Memref sig .tc .vmem S384 .f32) (h8 : a8.IsWhole) (a9 : Memref sig .tc .vmem S128x384 .bf16) (h9 : a9.IsWhole) (a10 : Memref sig .tc .vmem S384 .f32) (h10 : a10.IsWhole) (a11 : Memref sig .tc .vmem S128x16 .bf16) (h11 : a11.IsWhole) (a12 : Memref sig .tc .vmem S16 .f32) (h12 : a12.IsWhole) (a13 : Memref sig .tc .vmem S128x1 .bf16) (h13 : a13.IsWhole) (a14 : Memref sig .tc .vmem S1 .f32) (h14 : a14.IsWhole) (a15 : Memref sig .tc .vmem S2048x17 .f32) (h15 : a15.IsWhole)
    (x0 : Vec F S2048x64 .f32) (x1 : Vec F S64x256 .bf16) (x2 : Vec F S256 .f32) (x3 : Vec F S128x128 .bf16) (x4 : Vec F S128 .f32) (x5 : Vec F S128x128 .bf16) (x6 : Vec F S128 .f32) (x7 : Vec F S128x384 .bf16) (x8 : Vec F S384 .f32) (x9 : Vec F S128x384 .bf16) (x10 : Vec F S384 .f32) (x11 : Vec F S128x16 .bf16) (x12 : Vec F S16 .f32) (x13 : Vec F S128x1 .bf16) (x14 : Vec F S1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ (∃ d, owns (c : Thread nD τ) a15 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare (out0_15 x0 x1 x2 x3 x4 x5 x6 x7 x8 x9 x10 x11 x12 x13 x14)) -∗ K ⟨⟩))
      ⊢ wp frame (wpE (defs₀ (F := F)) Variants.none c none) E (cc0__mlp_lstm_kernel i a0 h0 a1 h1 a2 h2 a3 h3 a4 h4 a5 h5 a6 h6 a7 h7 a8 h8 a9 h9 a10 h10 a11 h11 a12 h12 a13 h13 a14 h14 a15 h15) K := by
  simp only [cc0__mlp_lstm_kernel_eq_skeleton]; unfold cc0__mlp_lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover0_15 _)

/-! ## What the body finds in the input buffers

An input window is fetched only when its block index moves, and the body leaves the block in place; so at every point
the window's current buffer holds the window's block there. -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
      (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
      (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
      (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
      (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
      (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
      (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
      (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
      (fun t => by rw [after0_14]; unfold Dat.blockOf iblk; rw [A_eq]; try rfl) t d).trans
    (by unfold Dat.fetched Dat.blockOf iblk; rw [A_eq]; try rfl)

/-! ## The body's obligation at a point -/

/-- What the pipeline hands the body at point `t`: the invariant, the core's debt, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What it wants back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- At any point the input buffers hold their blocks, so the body's triple applies; the invariant and the debt are
    not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's obligation for the body, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which unfolds plain
-- definitions inside a metavariable's type
set_option backward.isDefEq.respectTransparency.types false in
/-- From any memory with zero counters, every weakly fair execution of the program on the TensorCores terminates, and
    at its end every array of the pipeline holds what the library computes from the proof data and every other unscoped
    buffer what the later host lines leave from the region's entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- In ANY final state the run's post allows, every argument array is as launched.  Twenty arguments bypass the region
    and no later line writes them; arguments 4, 8 and 22 are the arrays of the input windows 4, 6 and 14, which are
    never written back, and no earlier line writes them either. -/
theorem kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).1 4).trans (((dats m 0 c).arrAt_in 4 rfl _).trans ((A_eq m c 4).trans (V_main_arg4 m c))),
   ((h c).2 main_arg5 (Pipeline.mem_restRefs_of main_arg5 (by decide) (by decide))).trans (W_main_arg5 m (dats m) c),
   ((h c).2 main_arg6 (Pipeline.mem_restRefs_of main_arg6 (by decide) (by decide))).trans (W_main_arg6 m (dats m) c),
   ((h c).2 main_arg7 (Pipeline.mem_restRefs_of main_arg7 (by decide) (by decide))).trans (W_main_arg7 m (dats m) c),
   ((h c).1 6).trans (((dats m 0 c).arrAt_in 6 rfl _).trans ((A_eq m c 6).trans (V_main_arg8 m c))),
   ((h c).2 main_arg9 (Pipeline.mem_restRefs_of main_arg9 (by decide) (by decide))).trans (W_main_arg9 m (dats m) c),
   ((h c).2 main_arg10 (Pipeline.mem_restRefs_of main_arg10 (by decide) (by decide))).trans (W_main_arg10 m (dats m) c),
   ((h c).2 main_arg11 (Pipeline.mem_restRefs_of main_arg11 (by decide) (by decide))).trans (W_main_arg11 m (dats m) c),
   ((h c).2 main_arg12 (Pipeline.mem_restRefs_of main_arg12 (by decide) (by decide))).trans (W_main_arg12 m (dats m) c),
   ((h c).2 main_arg13 (Pipeline.mem_restRefs_of main_arg13 (by decide) (by decide))).trans (W_main_arg13 m (dats m) c),
   ((h c).2 main_arg14 (Pipeline.mem_restRefs_of main_arg14 (by decide) (by decide))).trans (W_main_arg14 m (dats m) c),
   ((h c).2 main_arg15 (Pipeline.mem_restRefs_of main_arg15 (by decide) (by decide))).trans (W_main_arg15 m (dats m) c),
   ((h c).2 main_arg16 (Pipeline.mem_restRefs_of main_arg16 (by decide) (by decide))).trans (W_main_arg16 m (dats m) c),
   ((h c).2 main_arg17 (Pipeline.mem_restRefs_of main_arg17 (by decide) (by decide))).trans (W_main_arg17 m (dats m) c),
   ((h c).2 main_arg18 (Pipeline.mem_restRefs_of main_arg18 (by decide) (by decide))).trans (W_main_arg18 m (dats m) c),
   ((h c).2 main_arg19 (Pipeline.mem_restRefs_of main_arg19 (by decide) (by decide))).trans (W_main_arg19 m (dats m) c),
   ((h c).2 main_arg20 (Pipeline.mem_restRefs_of main_arg20 (by decide) (by decide))).trans (W_main_arg20 m (dats m) c),
   ((h c).2 main_arg21 (Pipeline.mem_restRefs_of main_arg21 (by decide) (by decide))).trans (W_main_arg21 m (dats m) c),
   ((h c).1 14).trans (((dats m 0 c).arrAt_in 14 rfl _).trans ((A_eq m c 14).trans (V_main_arg22 m c)))⟩

/-- THE FRAME: the program terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => kept m r h c) (run_main m ρ)

/-- info: 'Cert.Kernel.Hand.frame' depends on axioms: [propext, Classical.choice, Quot.sound] -/
#guard_msgs in #print axioms frame

end Cert.Kernel.Hand

end
-- ==== Proof.FrameKI.lean ====
/-
  The frame of the kernel program `Cert.KernelIdeal.main`, at any float model `F`: its run terminates without fault and leaves every argument array as
  it was launched.

  The program is host lines, one pipelined region, host lines.  The region walks a grid of 128 points over sixteen
  windows: fifteen inputs (the activations, cut in blocks of 2048 rows, and fourteen parameter blocks, each whole)
  and one output (2048 rows of 17 numbers per point, written back at every point).  At a point the body reads every
  input buffer whole, reads the output buffer once without using the value, and overwrites the output buffer whole
  with one value computed from the fifteen reads.  So after the body each input buffer still holds its block, and
  the output buffer holds a closed function of the fifteen input blocks; this file names that function, gives the
  pipeline its proof data, discharges the body's obligation, and reads the frame off the library's launch theorem.
-/
import proofs.«100968_j85916525789512_2_alg».proof.Proof.Gen.KernelIdeal.Launch
import proofs.«100968_j85916525789512_2_alg».proof.Proof.Gen.KernelIdeal.Skeleton
import proofs.«100968_j85916525789512_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle with 2048 rows is decided by a recursion one level per row
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- What core `c`'s buffers hold when the region is entered: the launch contents run through the host lines that
    come before it. -/
abbrev V0 (c : Dev nD) : Valuation τ sig (Elt F) := StableHlo.after (List.flatten [hostOps0]) (fun b => m (c, b))
/-- The same, read at one buffer of the core. -/
abbrev V (c : Dev nD) (b : Ref sig .tc) : Buf (Elt F) ((c : Thread nD τ).loc b) := V0 m c (Proc.devRef .tc b)

/-- The block of window `w` at grid point `t`, cut out of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles: each buffer whole -/

abbrev rc_S2048x64 : Rect S2048x64 := Rect.unit (s := S2048x64) ![0, 0] S2048x64.size inb_S2048x64_S2048x64_0_0
abbrev rc_S64x256 : Rect S64x256 := Rect.unit (s := S64x256) ![0, 0] S64x256.size inb_S64x256_S64x256_0_0
abbrev rc_S256 : Rect S256 := Rect.unit (s := S256) ![0] S256.size inb_S256_S256_0
abbrev rc_S128x128 : Rect S128x128 := Rect.unit (s := S128x128) ![0, 0] S128x128.size inb_S128x128_S128x128_0_0
abbrev rc_S128 : Rect S128 := Rect.unit (s := S128) ![0] S128.size inb_S128_S128_0
abbrev rc_S128x384 : Rect S128x384 := Rect.unit (s := S128x384) ![0, 0] S128x384.size inb_S128x384_S128x384_0_0
abbrev rc_S384 : Rect S384 := Rect.unit (s := S384) ![0] S384.size inb_S384_S384_0
abbrev rc_S128x16 : Rect S128x16 := Rect.unit (s := S128x16) ![0, 0] S128x16.size inb_S128x16_S128x16_0_0
abbrev rc_S16 : Rect S16 := Rect.unit (s := S16) ![0] S16.size inb_S16_S16_0
abbrev rc_S128x1 : Rect S128x1 := Rect.unit (s := S128x1) ![0, 0] S128x1.size inb_S128x1_S128x1_0_0
abbrev rc_S1 : Rect S1 := Rect.unit (s := S1) ![0] S1.size inb_S1_S1_0
abbrev rc_S2048x17 : Rect S2048x17 := Rect.unit (s := S2048x17) ![0, 0] S2048x17.size inb_S2048x17_S2048x17_0_0

/-! ## What the body leaves in the output buffer -/

/-- The output buffer after the body, from the fifteen input blocks: the one store, which covers the buffer.  Its
    value joins, side by side, the mean head (8 columns), the exponential of the other small head (8 columns) and the
    value head plus its bias (1 column); the two small heads read the actor branch (two dense layers, then the cell),
    the value head the critic branch. -/
def out0_15 (x0 : Vec F S2048x64 .f32) (x1 : Vec F S64x256 .bf16) (x2 : Vec F S256 .f32) (x3 : Vec F S128x128 .bf16) (x4 : Vec F S128 .f32) (x5 : Vec F S128x128 .bf16) (x6 : Vec F S128 .f32) (x7 : Vec F S128x384 .bf16) (x8 : Vec F S384 .f32) (x9 : Vec F S128x384 .bf16) (x10 : Vec F S384 .f32) (x11 : Vec F S128x16 .bf16) (x12 : Vec F S16 .f32) (x13 : Vec F S128x1 .bf16) (x14 : Vec F S1 .f32) : Vec F S2048x17 .f32 :=
  View.canon [⟨rc_S2048x17,
    k0_pay1
      (k0_pay7 (k0_pay3 (View.ld x0 rc_S2048x64) (View.ld x1 rc_S64x256) (View.ld x2 rc_S256) (View.ld x3 rc_S128x128) (View.ld x4 rc_S128)) (k0_pay5 (View.ld x7 rc_S128x384)) (constant S2048x384 .f32 0x00000000#32 : FVec F S2048x384 .f32) (View.ld x8 rc_S384) (View.ld x11 rc_S128x16) (View.ld x12 rc_S16))
      (k0_pay8 (k0_pay3 (View.ld x0 rc_S2048x64) (View.ld x1 rc_S64x256) (View.ld x2 rc_S256) (View.ld x3 rc_S128x128) (View.ld x4 rc_S128)) (k0_pay5 (View.ld x7 rc_S128x384)) (constant S2048x384 .f32 0x00000000#32 : FVec F S2048x384 .f32) (View.ld x8 rc_S384) (View.ld x11 rc_S128x16) (View.ld x12 rc_S16))
      (k0_pay9 (k0_pay4 (View.ld x0 rc_S2048x64) (View.ld x1 rc_S64x256) (View.ld x2 rc_S256) (View.ld x5 rc_S128x128) (View.ld x6 rc_S128)) (View.ld x9 rc_S128x384) (View.ld x10 rc_S384) (View.ld x13 rc_S128x1))
      (View.ld x14 rc_S1)⟩]

/-- One rectangle that is the whole buffer covers it. -/
theorem cover0_15 (p0 : Vec F S2048x17 .f32) (y : S2048x17.Idx) :
    ∃ pc ∈ ([⟨rc_S2048x17, p0⟩] : List (View.Piece (Elt F) S2048x17 .f32)), y ∈ pc.1.set :=
  View.cover_of_tiled [⟨rc_S2048x17, p0⟩] S2048x17.size (by rfl) y

/-! ## The pipeline's proof data -/

/-- On core `c`: the arrays as the region finds them; after the body at point `t` every input buffer at its block and
    the output buffer at `out0_15` of the input blocks; the invariant is the untouched rest of the core; full shares;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are the region-entry contents (projected, never unfolded through the host lines). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) :
    (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  dsimp only [dats]

end Cert.KernelIdeal.Hand

end
-- ==== Proof.FrameRunKI.lean ====
/-
  The frame of the kernel program `Cert.KernelIdeal.main`, continued: from the proof data of the definitions module to the
  run.  The program reaches its region with every buffer at the contents the earlier host lines leave; at each grid
  point the body finds every input buffer at that window's block, whether or not the block was fetched there, and
  leaves them so, with the output buffer overwritten whole; the later host lines write six results of their own.  The
  library's launch theorem then gives termination and the final contents of every unscoped buffer, from which each of
  the 23 argument arrays is read back as launched.
-/
import proofs.«100968_j85916525789512_2_alg».proof.Proof.FrameKI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- No host line allocates a buffer, before the region -/
theorem hostOps0_fresh : (hostOps0 : List (HloOp τ sig (Elt F))).Forall fun op => op.fresh = ∅ := by
  simp only [List.Forall]; repeat' constructor
/-- or after it. -/
theorem hostOps1_fresh : (hostOps1 : List (HloOp τ sig (Elt F))).Forall fun op => op.fresh = ∅ := by
  simp only [List.Forall]; repeat' constructor

/-- The program is its earlier host lines, the region, its later host lines.  So from the launch contents it reaches
    the region holding every buffer at `V`, and what is left to run is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped buffers of the core only; nothing being prefetched, each of those is an array of the
    pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop
/-- And each writes its own result buffer only, which is no array of the pipeline: the three slices of the region's
    output and their three reshapes go to six fresh results. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.not_mem_nil, or_false] at hop
  rcases hop with rfl | rfl | rfl | rfl | rfl | rfl
  all_goals intro w; fin_cases w <;> simp only [StableHlo.unary_writes, StableHlo.binary_writes, StableHlo.nary_writes, StableHlo.reshape_writes, Finset.mem_singleton] <;> exact StableHlo.devRef_ne_of_ne (by decide)

/-! ### The argument arrays at the region's entry

Every host line before the region writes a result of its own (`main_v0` … `main_v38`), never an argument: so the
region finds each argument as launched. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append, List.nil_append,
      List.Forall, StableHlo.unary_writes, StableHlo.binary_writes, StableHlo.nary_writes, StableHlo.reshape_writes, Finset.mem_singleton]
    repeat' apply And.intro
    all_goals exact StableHlo.devRef_ne_of_ne (by decide)))

/-! ### The argument arrays after the later lines

The later lines write `main_v40` … `main_v45` only.  An argument that no window stages bypasses the region, so it
ends as the region found it, that is as launched.  (Arguments 4, 8 and 22 are staged whole by windows 4, 6 and 14; they
are read off the pipeline's arrays instead, below.) -/

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
theorem W_main_arg15 (dats : (p : Fin 1) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
theorem W_main_arg17 (dats : (p : Fin 1) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c
theorem W_main_arg18 (dats : (p : Fin 1) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
theorem W_main_arg19 (dats : (p : Fin 1) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c
theorem W_main_arg20 (dats : (p : Fin 1) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c
theorem W_main_arg21 (dats : (p : Fin 1) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append, List.nil_append,
        List.Forall, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c

/-! ## The body's triple -/

set_option maxHeartbeats 1000000 in
/-- The body on sixteen whole buffers: the fifteen inputs' read `x0` … `x14`, the output's holds anything.  It runs
    to its end with the inputs' as they were and the output's at `out0_15 x0 … x14`: every load is of a whole buffer,
    the one store covers the output's, and the read of the output's before the store is of whatever it held. -/
theorem sound_kernel (c : Dev nD) (E : Set ℕ) (i : grid0.Coords) (a0 : Memref sig .tc .vmem S2048x64 .f32) (h0 : a0.IsWhole) (a1 : Memref sig .tc .vmem S64x256 .bf16) (h1 : a1.IsWhole) (a2 : Memref sig .tc .vmem S256 .f32) (h2 : a2.IsWhole) (a3 : Memref sig .tc .vmem S128x128 .bf16) (h3 : a3.IsWhole) (a4 : Memref sig .tc .vmem S128 .f32) (h4 : a4.IsWhole) (a5 : Memref sig .tc .vmem S128x128 .bf16) (h5 : a5.IsWhole) (a6 : Memref sig .tc .vmem S128 .f32) (h6 : a6.IsWhole) (a7 : Memref sig .tc .vmem S128x384 .bf16) (h7 : a7.IsWhole) (a8 : Memref sig .tc .vmem S384 .f32) (h8 : a8.IsWhole) (a9 : Memref sig .tc .vmem S128x384 .bf16) (h9 : a9.IsWhole) (a10 : Memref sig .tc .vmem S384 .f32) (h10 : a10.IsWhole) (a11 : Memref sig .tc .vmem S128x16 .bf16) (h11 : a11.IsWhole) (a12 : Memref sig .tc .vmem S16 .f32) (h12 : a12.IsWhole) (a13 : Memref sig .tc .vmem S128x1 .bf16) (h13 : a13.IsWhole) (a14 : Memref sig .tc .vmem S1 .f32) (h14 : a14.IsWhole) (a15 : Memref sig .tc .vmem S2048x17 .f32) (h15 : a15.IsWhole)
    (x0 : Vec F S2048x64 .f32) (x1 : Vec F S64x256 .bf16) (x2 : Vec F S256 .f32) (x3 : Vec F S128x128 .bf16) (x4 : Vec F S128 .f32) (x5 : Vec F S128x128 .bf16) (x6 : Vec F S128 .f32) (x7 : Vec F S128x384 .bf16) (x8 : Vec F S384 .f32) (x9 : Vec F S128x384 .bf16) (x10 : Vec F S384 .f32) (x11 : Vec F S128x16 .bf16) (x12 : Vec F S16 .f32) (x13 : Vec F S128x1 .bf16) (x14 : Vec F S1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ (∃ d, owns (c : Thread nD τ) a15 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare (out0_15 x0 x1 x2 x3 x4 x5 x6 x7 x8 x9 x10 x11 x12 x13 x14)) -∗ K ⟨⟩))
      ⊢ wp frame (wpE (defs₀ (F := F)) Variants.none c none) E (cc0__mlp_lstm_kernel i a0 h0 a1 h1 a2 h2 a3 h3 a4 h4 a5 h5 a6 h6 a7 h7 a8 h8 a9 h9 a10 h10 a11 h11 a12 h12 a13 h13 a14 h14 a15 h15) K := by
  simp only [cc0__mlp_lstm_kernel_eq_skeleton]; unfold cc0__mlp_lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover0_15 _)

/-! ## What the body finds in the input buffers

An input window is fetched only when its block index moves, and the body leaves the block in place; so at every point
the window's current buffer holds the window's block there. -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
      (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
      (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
      (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
      (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
      (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
      (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
      (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
      (fun t => by rw [after0_14]; unfold Dat.blockOf iblk; rw [A_eq]; try rfl) t d).trans
    (by unfold Dat.fetched Dat.blockOf iblk; rw [A_eq]; try rfl)

/-! ## The body's obligation at a point -/

/-- What the pipeline hands the body at point `t`: the invariant, the core's debt, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What it wants back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- At any point the input buffers hold their blocks, so the body's triple applies; the invariant and the debt are
    not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's obligation for the body, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which unfolds plain
-- definitions inside a metavariable's type
set_option backward.isDefEq.respectTransparency.types false in
/-- From any memory with zero counters, every weakly fair execution of the program on the TensorCores terminates, and
    at its end every array of the pipeline holds what the library computes from the proof data and every other unscoped
    buffer what the later host lines leave from the region's entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- In ANY final state the run's post allows, every argument array is as launched.  Twenty arguments bypass the region
    and no later line writes them; arguments 4, 8 and 22 are the arrays of the input windows 4, 6 and 14, which are
    never written back, and no earlier line writes them either. -/
theorem kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).1 4).trans (((dats m 0 c).arrAt_in 4 rfl _).trans ((A_eq m c 4).trans (V_main_arg4 m c))),
   ((h c).2 main_arg5 (Pipeline.mem_restRefs_of main_arg5 (by decide) (by decide))).trans (W_main_arg5 m (dats m) c),
   ((h c).2 main_arg6 (Pipeline.mem_restRefs_of main_arg6 (by decide) (by decide))).trans (W_main_arg6 m (dats m) c),
   ((h c).2 main_arg7 (Pipeline.mem_restRefs_of main_arg7 (by decide) (by decide))).trans (W_main_arg7 m (dats m) c),
   ((h c).1 6).trans (((dats m 0 c).arrAt_in 6 rfl _).trans ((A_eq m c 6).trans (V_main_arg8 m c))),
   ((h c).2 main_arg9 (Pipeline.mem_restRefs_of main_arg9 (by decide) (by decide))).trans (W_main_arg9 m (dats m) c),
   ((h c).2 main_arg10 (Pipeline.mem_restRefs_of main_arg10 (by decide) (by decide))).trans (W_main_arg10 m (dats m) c),
   ((h c).2 main_arg11 (Pipeline.mem_restRefs_of main_arg11 (by decide) (by decide))).trans (W_main_arg11 m (dats m) c),
   ((h c).2 main_arg12 (Pipeline.mem_restRefs_of main_arg12 (by decide) (by decide))).trans (W_main_arg12 m (dats m) c),
   ((h c).2 main_arg13 (Pipeline.mem_restRefs_of main_arg13 (by decide) (by decide))).trans (W_main_arg13 m (dats m) c),
   ((h c).2 main_arg14 (Pipeline.mem_restRefs_of main_arg14 (by decide) (by decide))).trans (W_main_arg14 m (dats m) c),
   ((h c).2 main_arg15 (Pipeline.mem_restRefs_of main_arg15 (by decide) (by decide))).trans (W_main_arg15 m (dats m) c),
   ((h c).2 main_arg16 (Pipeline.mem_restRefs_of main_arg16 (by decide) (by decide))).trans (W_main_arg16 m (dats m) c),
   ((h c).2 main_arg17 (Pipeline.mem_restRefs_of main_arg17 (by decide) (by decide))).trans (W_main_arg17 m (dats m) c),
   ((h c).2 main_arg18 (Pipeline.mem_restRefs_of main_arg18 (by decide) (by decide))).trans (W_main_arg18 m (dats m) c),
   ((h c).2 main_arg19 (Pipeline.mem_restRefs_of main_arg19 (by decide) (by decide))).trans (W_main_arg19 m (dats m) c),
   ((h c).2 main_arg20 (Pipeline.mem_restRefs_of main_arg20 (by decide) (by decide))).trans (W_main_arg20 m (dats m) c),
   ((h c).2 main_arg21 (Pipeline.mem_restRefs_of main_arg21 (by decide) (by decide))).trans (W_main_arg21 m (dats m) c),
   ((h c).1 14).trans (((dats m 0 c).arrAt_in 14 rfl _).trans ((A_eq m c 14).trans (V_main_arg22 m c)))⟩

/-- THE FRAME: the program terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => kept m r h c) (run_main m ρ)

/-- info: 'Cert.KernelIdeal.Hand.frame' depends on axioms: [propext, Classical.choice, Quot.sound] -/
#guard_msgs in #print axioms frame

end Cert.KernelIdeal.Hand

end
-- ==== Proof.BlockReads.lean ====
/-
  Which entries of the arrays the windows' blocks are, over the 128 grid points.

  Point t's block of the activations is rows 2048 t ... 2048 t + 2047 of the flattened activations (all 64
  columns), its block of the result the same rows of the result (all 17 columns); every parameter window's block is
  the whole parameter array at every point.  The 128 result blocks cover the 262144 rows.
-/
import proofs.«100968_j85916525789512_2_alg».proof.Proof.FrameKI
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the activations' and the result's blocks move one block of rows per
    point; every parameter window stays at block 0. -/
theorem idx0 : ∀ t : Fin cfg0.N, win0_0.index t (0 : Fin 2) = t.val ∧ win0_0.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 1) = 0 :=
  (by decide +kernel : ∀ t : Fin grid0.N, _)

/-- Row p of point t's block of the activations is row 2048 t + p of the flattened activations. -/
theorem read0 (c : Dev nD) (t : Fin cfg0.N) (p : Fin 2048) (l : Fin 64) :
    iblk m c 0 t (ix2 p l)
      = (V m c main_v0 : S262144x64.Idx → EReal) (ix2 ⟨t.val * 2048 + p.val, by have := t.isLt; have h : cfg0.N = 128 := N_0; omega⟩ l) := by
  unfold iblk
  show (V m c main_v0) (((cfg0.win 0).blk t).view.emb (ix2 p l)) = _
  refine congrArg (V m c main_v0) (funext fun a => Fin.ext ?_)
  obtain ⟨e0, e1⟩ := idx0 t
  match a with
  | ⟨0, _⟩ => show win0_0.index t (0 : Fin 2) * 2048 + 1 * p.val = t.val * 2048 + p.val; omega
  | ⟨1, _⟩ => show win0_0.index t (1 : Fin 2) * 64 + 1 * l.val = l.val; omega

/-- Every parameter window's block is the whole parameter array, at every point. -/
theorem read1 (c : Dev nD) (t : Fin cfg0.N) : iblk m c 1 t = (V m c main_v4 : S64x256.Idx → EReal) := by
  unfold iblk
  funext y
  show (V m c main_v4) (((cfg0.win 1).blk t).view.emb y) = (V m c main_v4) y
  refine congrArg (V m c main_v4) (funext fun a => Fin.ext ?_)
  match a with
  | ⟨0, _⟩ => show win0_1.index t (0 : Fin 2) * 64 + 1 * (y 0).val = (y 0).val; rw [(idx1 t).1]; omega
  | ⟨1, _⟩ => show win0_1.index t (1 : Fin 2) * 256 + 1 * (y 1).val = (y 1).val; rw [(idx1 t).2]; omega
theorem read2 (c : Dev nD) (t : Fin cfg0.N) : iblk m c 2 t = (V m c main_v5 : S256.Idx → EReal) := by
  unfold iblk
  funext y
  show (V m c main_v5) (((cfg0.win 2).blk t).view.emb y) = (V m c main_v5) y
  refine congrArg (V m c main_v5) (funext fun a => Fin.ext ?_)
  match a with
  | ⟨0, _⟩ => show win0_2.index t (0 : Fin 1) * 256 + 1 * (y 0).val = (y 0).val; rw [idx2 t]; omega
theorem read3 (c : Dev nD) (t : Fin cfg0.N) : iblk m c 3 t = (V m c main_v7 : S128x128.Idx → EReal) := by
  unfold iblk
  funext y
  show (V m c main_v7) (((cfg0.win 3).blk t).view.emb y) = (V m c main_v7) y
  refine congrArg (V m c main_v7) (funext fun a => Fin.ext ?_)
  match a with
  | ⟨0, _⟩ => show win0_3.index t (0 : Fin 2) * 128 + 1 * (y 0).val = (y 0).val; rw [(idx3 t).1]; omega
  | ⟨1, _⟩ => show win0_3.index t (1 : Fin 2) * 128 + 1 * (y 1).val = (y 1).val; rw [(idx3 t).2]; omega
theorem read4 (c : Dev nD) (t : Fin cfg0.N) : iblk m c 4 t = (V m c main_arg4 : S128.Idx → EReal) := by
  unfold iblk
  funext y
  show (V m c main_arg4) (((cfg0.win 4).blk t).view.emb y) = (V m c main_arg4) y
  refine congrArg (V m c main_arg4) (funext fun a => Fin.ext ?_)
  match a with
  | ⟨0, _⟩ => show win0_4.index t (0 : Fin 1) * 128 + 1 * (y 0).val = (y 0).val; rw [idx4 t]; omega
theorem read5 (c : Dev nD) (t : Fin cfg0.N) : iblk m c 5 t = (V m c main_v9 : S128x128.Idx → EReal) := by
  unfold iblk
  funext y
  show (V m c main_v9) (((cfg0.win 5).blk t).view.emb y) = (V m c main_v9) y
  refine congrArg (V m c main_v9) (funext fun a => Fin.ext ?_)
  match a with
  | ⟨0, _⟩ => show win0_5.index t (0 : Fin 2) * 128 + 1 * (y 0).val = (y 0).val; rw [(idx5 t).1]; omega
  | ⟨1, _⟩ => show win0_5.index t (1 : Fin 2) * 128 + 1 * (y 1).val = (y 1).val; rw [(idx5 t).2]; omega
theorem read6 (c : Dev nD) (t : Fin cfg0.N) : iblk m c 6 t = (V m c main_arg8 : S128.Idx → EReal) := by
  unfold iblk
  funext y
  show (V m c main_arg8) (((cfg0.win 6).blk t).view.emb y) = (V m c main_arg8) y
  refine congrArg (V m c main_arg8) (funext fun a => Fin.ext ?_)
  match a with
  | ⟨0, _⟩ => show win0_6.index t (0 : Fin 1) * 128 + 1 * (y 0).val = (y 0).val; rw [idx6 t]; omega
theorem read7 (c : Dev nD) (t : Fin cfg0.N) : iblk m c 7 t = (V m c main_v15 : S128x384.Idx → EReal) := by
  unfold iblk
  funext y
  show (V m c main_v15) (((cfg0.win 7).blk t).view.emb y) = (V m c main_v15) y
  refine congrArg (V m c main_v15) (funext fun a => Fin.ext ?_)
  match a with
  | ⟨0, _⟩ => show win0_7.index t (0 : Fin 2) * 128 + 1 * (y 0).val = (y 0).val; rw [(idx7 t).1]; omega
  | ⟨1, _⟩ => show win0_7.index t (1 : Fin 2) * 384 + 1 * (y 1).val = (y 1).val; rw [(idx7 t).2]; omega
theorem read8 (c : Dev nD) (t : Fin cfg0.N) : iblk m c 8 t = (V m c main_v26 : S384.Idx → EReal) := by
  unfold iblk
  funext y
  show (V m c main_v26) (((cfg0.win 8).blk t).view.emb y) = (V m c main_v26) y
  refine congrArg (V m c main_v26) (funext fun a => Fin.ext ?_)
  match a with
  | ⟨0, _⟩ => show win0_8.index t (0 : Fin 1) * 384 + 1 * (y 0).val = (y 0).val; rw [idx8 t]; omega
theorem read9 (c : Dev nD) (t : Fin cfg0.N) : iblk m c 9 t = (V m c main_v21 : S128x384.Idx → EReal) := by
  unfold iblk
  funext y
  show (V m c main_v21) (((cfg0.win 9).blk t).view.emb y) = (V m c main_v21) y
  refine congrArg (V m c main_v21) (funext fun a => Fin.ext ?_)
  match a with
  | ⟨0, _⟩ => show win0_9.index t (0 : Fin 2) * 128 + 1 * (y 0).val = (y 0).val; rw [(idx9 t).1]; omega
  | ⟨1, _⟩ => show win0_9.index t (1 : Fin 2) * 384 + 1 * (y 1).val = (y 1).val; rw [(idx9 t).2]; omega
theorem read10 (c : Dev nD) (t : Fin cfg0.N) : iblk m c 10 t = (V m c main_v31 : S384.Idx → EReal) := by
  unfold iblk
  funext y
  show (V m c main_v31) (((cfg0.win 10).blk t).view.emb y) = (V m c main_v31) y
  refine congrArg (V m c main_v31) (funext fun a => Fin.ext ?_)
  match a with
  | ⟨0, _⟩ => show win0_10.index t (0 : Fin 1) * 384 + 1 * (y 0).val = (y 0).val; rw [idx10 t]; omega
theorem read11 (c : Dev nD) (t : Fin cfg0.N) : iblk m c 11 t = (V m c main_v35 : S128x16.Idx → EReal) := by
  unfold iblk
  funext y
  show (V m c main_v35) (((cfg0.win 11).blk t).view.emb y) = (V m c main_v35) y
  refine congrArg (V m c main_v35) (funext fun a => Fin.ext ?_)
  match a with
  | ⟨0, _⟩ => show win0_11.index t (0 : Fin 2) * 128 + 1 * (y 0).val = (y 0).val; rw [(idx11 t).1]; omega
  | ⟨1, _⟩ => show win0_11.index t (1 : Fin 2) * 16 + 1 * (y 1).val = (y 1).val; rw [(idx11 t).2]; omega
theorem read12 (c : Dev nD) (t : Fin cfg0.N) : iblk m c 12 t = (V m c main_v36 : S16.Idx → EReal) := by
  unfold iblk
  funext y
  show (V m c main_v36) (((cfg0.win 12).blk t).view.emb y) = (V m c main_v36) y
  refine congrArg (V m c main_v36) (funext fun a => Fin.ext ?_)
  match a with
  | ⟨0, _⟩ => show win0_12.index t (0 : Fin 1) * 16 + 1 * (y 0).val = (y 0).val; rw [idx12 t]; omega
theorem read13 (c : Dev nD) (t : Fin cfg0.N) : iblk m c 13 t = (V m c main_v38 : S128x1.Idx → EReal) := by
  unfold iblk
  funext y
  show (V m c main_v38) (((cfg0.win 13).blk t).view.emb y) = (V m c main_v38) y
  refine congrArg (V m c main_v38) (funext fun a => Fin.ext ?_)
  match a with
  | ⟨0, _⟩ => show win0_13.index t (0 : Fin 2) * 128 + 1 * (y 0).val = (y 0).val; rw [(idx13 t).1]; omega
  | ⟨1, _⟩ => show win0_13.index t (1 : Fin 2) * 1 + 1 * (y 1).val = (y 1).val; rw [(idx13 t).2]; omega
theorem read14 (c : Dev nD) (t : Fin cfg0.N) : iblk m c 14 t = (V m c main_arg22 : S1.Idx → EReal) := by
  unfold iblk
  funext y
  show (V m c main_arg22) (((cfg0.win 14).blk t).view.emb y) = (V m c main_arg22) y
  refine congrArg (V m c main_arg22) (funext fun a => Fin.ext ?_)
  match a with
  | ⟨0, _⟩ => show win0_14.index t (0 : Fin 1) * 1 + 1 * (y 0).val = (y 0).val; rw [idx14 t]; omega

/-- An index of the result array is in point t's block iff each coordinate is in the block's range on its axis. -/
theorem mem_blk (t : Fin cfg0.N) (i : S262144x17.Idx) :
    i ∈ ((cfg0.win 15).blk t).view.set ↔ ∀ a : Fin 2, win0_15.index t a * S2048x17.size a ≤ (i a).val
      ∧ (i a).val < win0_15.index t a * S2048x17.size a + S2048x17.size a := by
  show i ∈ ((View.whole main_v39).slice (win0_15.rect t)).set ↔ _
  rw [View.set_slice_whole, Rect.mem_set_unit]
  exact Iff.rfl

/-- The 128 result blocks cover the result array: row r is in the block of point r / 2048. -/
theorem cover (i : S262144x17.Idx) :
    ∃ t : Fin cfg0.N, (cfg0.win 15).flush t = true ∧ i ∈ ((cfg0.win 15).blk t).view.set := by
  have hi0 : (i 0).val < 262144 := (i 0).isLt
  have hi1 : (i 1).val < 17 := (i 1).isLt
  have hN : cfg0.N = 128 := N_0
  refine ⟨⟨(i 0).val / 2048, by omega⟩, flush0_15 _, ?_⟩
  rw [mem_blk]
  obtain ⟨e0, e1⟩ := idx15 ⟨(i 0).val / 2048, by omega⟩
  intro a
  match a with
  | ⟨0, _⟩ =>
    show win0_15.index _ (0 : Fin 2) * 2048 ≤ (i 0).val ∧ (i 0).val < win0_15.index _ (0 : Fin 2) * 2048 + 2048
    rw [e0]
    show (i 0).val / 2048 * 2048 ≤ (i 0).val ∧ (i 0).val < (i 0).val / 2048 * 2048 + 2048
    omega
  | ⟨1, _⟩ =>
    show win0_15.index _ (1 : Fin 2) * 17 ≤ (i 1).val ∧ (i 1).val < win0_15.index _ (1 : Fin 2) * 17 + 17
    rw [e1]
    omega

/-- Entry (p, q) of point t's block of the result array is entry (2048 t + p, q) of the array. -/
theorem emb15 (t : Fin cfg0.N) (p : Fin 2048) (q : Fin 17) :
    ((cfg0.win 15).blk t).view.emb (ix2 p q)
      = (ix2 ⟨t.val * 2048 + p.val, by have := t.isLt; have h : cfg0.N = 128 := N_0; omega⟩ q : S262144x17.Idx) := by
  refine funext fun a => Fin.ext ?_
  obtain ⟨e0, e1⟩ := idx15 t
  match a with
  | ⟨0, _⟩ => show win0_15.index t (0 : Fin 2) * 2048 + 1 * p.val = t.val * 2048 + p.val; omega
  | ⟨1, _⟩ => show win0_15.index t (1 : Fin 2) * 17 + 1 * q.val = q.val; omega

end Cert.KernelIdeal.KValue

end
-- ==== Proof.Spec.lean ====
/-
  The network both programs compute, as pure functions on extended reals.

  One input row z of 64 numbers goes through two branches (actor, critic).  A branch is a two-layer perceptron
  (dense, maximum with zero, dense, maximum with zero), then the gate pre-activations of a recurrent cell run
  from the zero state, g = (h W^T + b_ih) + b_hh with 512 entries in the order input, forget, candidate, output,
  then the cell's output  logistic(o) * tanh(logistic(i) * tanh(c))  (the forget gate multiplies the zero state
  and drops out).  The actor's 128 numbers feed two dense heads (mean; exp of the other gives std), the critic's
  feed a dense head with one output (value).  Weight matrices are stored [out, in]: entry j of dense is the sum
  over l of z l * W (j, l), plus b j.

  Arrays are functions of an index built from coordinates; nothing here mentions a program.
-/
import Idealize.ShloMosaic.Lib.ValueIdx
import Idealize.ShloMosaic.PureOps.Ideal.Laws

noncomputable section

open scoped BigOperators

namespace ActorCritic

open Idealize.ShloMosaic Idealize.ShloMosaic.ValueIdx

/-- Arrays of extended reals of rank 1, 2, 3. -/
abbrev A1 (n : ℕ) : Type := (⟨1, ![n]⟩ : Shape).Idx → EReal
abbrev A2 (n k : ℕ) : Type := (⟨2, ![n, k]⟩ : Shape).Idx → EReal
abbrev A3 (a b c : ℕ) : Type := (⟨3, ![a, b, c]⟩ : Shape).Idx → EReal

/-- The float zero, kept as the word the programs spell it with. -/
def zeroF : EReal := Ideal.ofBits .f32 0x00000000#32

/-- A dense layer on one row: entry j is the sum over l of z l * W (j, l), plus b j. -/
def dense {o k : ℕ} (W : A2 o k) (b : A1 o) (z : Fin k → EReal) : Fin o → EReal :=
  fun j => (∑ l : Fin k, z l * W (ix2 j l)) + b (ix1 j)

/-- The maximum with zero, entry by entry. -/
def reluV {n : ℕ} (v : Fin n → EReal) : Fin n → EReal := fun j => max (v j) zeroF

/-- The two-layer perceptron of a branch. -/
def mlp (W1 : A2 128 64) (b1 : A1 128) (W2 : A2 128 128) (b2 : A1 128) (z : Fin 64 → EReal) : Fin 128 → EReal :=
  reluV (dense W2 b2 (reluV (dense W1 b1 z)))

/-- The cell's 512 gate pre-activations from the zero state: (h W^T + b_ih) + b_hh. -/
def gates (W : A2 512 128) (bi bh : A1 512) (h : Fin 128 → EReal) : Fin 512 → EReal :=
  fun j => ((∑ l : Fin 128, h l * W (ix2 j l)) + bi (ix1 j)) + bh (ix1 j)

/-- The cell's output from its gate pre-activations (input at j, candidate at 256 + j, output at 384 + j). -/
def cell (g : Fin 512 → EReal) : Fin 128 → EReal :=
  fun j => Ideal.logistic (g ⟨384 + j.val, by omega⟩)
    * Ideal.tanh (Ideal.logistic (g ⟨j.val, by omega⟩) * Ideal.tanh (g ⟨256 + j.val, by omega⟩))

/-- The parameter arrays, in the programs' argument order (the two recurrent matrices are never read). -/
structure Params where
  aw1 : A2 128 64
  ab1 : A1 128
  aw2 : A2 128 128
  ab2 : A1 128
  cw1 : A2 128 64
  cb1 : A1 128
  cw2 : A2 128 128
  cb2 : A1 128
  awih : A2 512 128
  abih : A1 512
  abhh : A1 512
  cwih : A2 512 128
  cbih : A1 512
  cbhh : A1 512
  mw : A2 8 128
  mb : A1 8
  lw : A2 8 128
  lb : A1 8
  vw : A2 1 128
  vb : A1 1

/-- The actor branch and the critic branch on one input row. -/
def actor (P : Params) (z : Fin 64 → EReal) : Fin 128 → EReal :=
  cell (gates P.awih P.abih P.abhh (mlp P.aw1 P.ab1 P.aw2 P.ab2 z))
def critic (P : Params) (z : Fin 64 → EReal) : Fin 128 → EReal :=
  cell (gates P.cwih P.cbih P.cbhh (mlp P.cw1 P.cb1 P.cw2 P.cb2 z))

/-- The three heads on one input row. -/
def meanRow (P : Params) (z : Fin 64 → EReal) : Fin 8 → EReal := dense P.mw P.mb (actor P z)
def stdRow (P : Params) (z : Fin 64 → EReal) : Fin 8 → EReal := fun a => Ideal.exp (dense P.lw P.lb (actor P z) a)
def valRow (P : Params) (z : Fin 64 → EReal) : Fin 1 → EReal := dense P.vw P.vb (critic P z)

/-- Row (s, b) of the input array. -/
def inRow (x : A3 256 1024 64) (s : Fin 256) (b : Fin 1024) : Fin 64 → EReal := fun l => x (ix3 s b l)

/-- The three result arrays. -/
def meanArr (P : Params) (x : A3 256 1024 64) : A3 256 1024 8 :=
  fun i => meanRow P (inRow x ⟨(i 0).val, (i 0).isLt⟩ ⟨(i 1).val, (i 1).isLt⟩) ⟨(i 2).val, (i 2).isLt⟩
def stdArr (P : Params) (x : A3 256 1024 64) : A3 256 1024 8 :=
  fun i => stdRow P (inRow x ⟨(i 0).val, (i 0).isLt⟩ ⟨(i 1).val, (i 1).isLt⟩) ⟨(i 2).val, (i 2).isLt⟩
def valArr (P : Params) (x : A3 256 1024 64) : A3 256 1024 1 :=
  fun i => valRow P (inRow x ⟨(i 0).val, (i 0).isLt⟩ ⟨(i 1).val, (i 1).isLt⟩) ⟨(i 2).val, (i 2).isLt⟩

theorem meanArr_ix3 (P : Params) (x : A3 256 1024 64) (s : Fin 256) (b : Fin 1024) (a : Fin 8) :
    meanArr P x (ix3 s b a) = meanRow P (inRow x s b) a := rfl
theorem stdArr_ix3 (P : Params) (x : A3 256 1024 64) (s : Fin 256) (b : Fin 1024) (a : Fin 8) :
    stdArr P x (ix3 s b a) = stdRow P (inRow x s b) a := rfl
theorem valArr_ix3 (P : Params) (x : A3 256 1024 64) (s : Fin 256) (b : Fin 1024) (a : Fin 1) :
    valArr P x (ix3 s b a) = valRow P (inRow x s b) a := rfl

/-- The 17 numbers a row of the fused output holds: mean (8), std (8), value (1). -/
def row17 (P : Params) (z : Fin 64 → EReal) : Fin 17 → EReal :=
  fun q => if h : q.val < 8 then meanRow P z ⟨q.val, h⟩
    else if h2 : q.val < 16 then stdRow P z ⟨q.val - 8, by omega⟩
    else valRow P z 0

/-- The fused output array over the 262144 = 256 * 1024 flattened rows: row r is input row (r / 1024, r % 1024). -/
def fused (P : Params) (x : A3 256 1024 64) : A2 262144 17 :=
  fun i => row17 P (inRow x ⟨(i 0).val / 1024, by have h : (i 0).val < 262144 := (i 0).isLt; omega⟩ ⟨(i 0).val % 1024, Nat.mod_lt _ (by norm_num)⟩)
    ⟨(i 1).val, (i 1).isLt⟩

end ActorCritic

end
-- ==== Proof.Blocks.lean ====
/-
  What the kernel's fourteen parameter blocks hold, entry by entry, in terms of the parameter arrays.

  The program lays the parameters out for the kernel before launching it: the two first-layer matrices are
  transposed and put side by side (64 x 256), their biases end to end (256); each second-layer matrix is
  transposed; of each 512 x 128 gate matrix the input, candidate and output blocks of rows are kept, transposed and
  put side by side (128 x 384), and of the two gate biases the SUM is kept, the same three pieces end to end (384);
  the two small heads' matrices are transposed and put side by side (128 x 16), their biases end to end (16); the
  value head's matrix is transposed (128 x 1).  "Blocks P x1 ... x14" states exactly this about fourteen arrays.
-/
import proofs.«100968_j85916525789512_2_alg».proof.Proof.Spec

noncomputable section

namespace ActorCritic

open Idealize.ShloMosaic Idealize.ShloMosaic.ValueIdx

/-- The fourteen parameter blocks against the parameter arrays. -/
structure Blocks (P : Params) (x1 : A2 64 256) (x2 : A1 256) (x3 : A2 128 128) (x4 : A1 128) (x5 : A2 128 128)
    (x6 : A1 128) (x7 : A2 128 384) (x8 : A1 384) (x9 : A2 128 384) (x10 : A1 384) (x11 : A2 128 16) (x12 : A1 16)
    (x13 : A2 128 1) (x14 : A1 1) : Prop where
  w1a : ∀ (j : Fin 128) (l : Fin 64), x1 (ix2 l ⟨j.val, by omega⟩) = P.aw1 (ix2 j l)
  w1c : ∀ (j : Fin 128) (l : Fin 64), x1 (ix2 l ⟨128 + j.val, by omega⟩) = P.cw1 (ix2 j l)
  b1a : ∀ j : Fin 128, x2 (ix1 ⟨j.val, by omega⟩) = P.ab1 (ix1 j)
  b1c : ∀ j : Fin 128, x2 (ix1 ⟨128 + j.val, by omega⟩) = P.cb1 (ix1 j)
  w2a : ∀ (j l : Fin 128), x3 (ix2 l j) = P.aw2 (ix2 j l)
  b2a : ∀ j : Fin 128, x4 (ix1 j) = P.ab2 (ix1 j)
  w2c : ∀ (j l : Fin 128), x5 (ix2 l j) = P.cw2 (ix2 j l)
  b2c : ∀ j : Fin 128, x6 (ix1 j) = P.cb2 (ix1 j)
  wia : ∀ (j l : Fin 128), x7 (ix2 l ⟨j.val, by omega⟩) = P.awih (ix2 ⟨j.val, by omega⟩ l)
  wga : ∀ (j l : Fin 128), x7 (ix2 l ⟨128 + j.val, by omega⟩) = P.awih (ix2 ⟨256 + j.val, by omega⟩ l)
  woa : ∀ (j l : Fin 128), x7 (ix2 l ⟨256 + j.val, by omega⟩) = P.awih (ix2 ⟨384 + j.val, by omega⟩ l)
  bia : ∀ j : Fin 128, x8 (ix1 ⟨j.val, by omega⟩) = P.abih (ix1 ⟨j.val, by omega⟩) + P.abhh (ix1 ⟨j.val, by omega⟩)
  bga : ∀ j : Fin 128, x8 (ix1 ⟨128 + j.val, by omega⟩) = P.abih (ix1 ⟨256 + j.val, by omega⟩) + P.abhh (ix1 ⟨256 + j.val, by omega⟩)
  boa : ∀ j : Fin 128, x8 (ix1 ⟨256 + j.val, by omega⟩) = P.abih (ix1 ⟨384 + j.val, by omega⟩) + P.abhh (ix1 ⟨384 + j.val, by omega⟩)
  wic : ∀ (j l : Fin 128), x9 (ix2 l ⟨j.val, by omega⟩) = P.cwih (ix2 ⟨j.val, by omega⟩ l)
  wgc : ∀ (j l : Fin 128), x9 (ix2 l ⟨128 + j.val, by omega⟩) = P.cwih (ix2 ⟨256 + j.val, by omega⟩ l)
  woc : ∀ (j l : Fin 128), x9 (ix2 l ⟨256 + j.val, by omega⟩) = P.cwih (ix2 ⟨384 + j.val, by omega⟩ l)
  bic : ∀ j : Fin 128, x10 (ix1 ⟨j.val, by omega⟩) = P.cbih (ix1 ⟨j.val, by omega⟩) + P.cbhh (ix1 ⟨j.val, by omega⟩)
  bgc : ∀ j : Fin 128, x10 (ix1 ⟨128 + j.val, by omega⟩) = P.cbih (ix1 ⟨256 + j.val, by omega⟩) + P.cbhh (ix1 ⟨256 + j.val, by omega⟩)
  boc : ∀ j : Fin 128, x10 (ix1 ⟨256 + j.val, by omega⟩) = P.cbih (ix1 ⟨384 + j.val, by omega⟩) + P.cbhh (ix1 ⟨384 + j.val, by omega⟩)
  wm : ∀ (a : Fin 8) (l : Fin 128), x11 (ix2 l ⟨a.val, by omega⟩) = P.mw (ix2 a l)
  wl : ∀ (a : Fin 8) (l : Fin 128), x11 (ix2 l ⟨8 + a.val, by omega⟩) = P.lw (ix2 a l)
  bm : ∀ a : Fin 8, x12 (ix1 ⟨a.val, by omega⟩) = P.mb (ix1 a)
  bl : ∀ a : Fin 8, x12 (ix1 ⟨8 + a.val, by omega⟩) = P.lb (ix1 a)
  wv : ∀ l : Fin 128, x13 (ix2 l (0 : Fin 1)) = P.vw (ix2 (0 : Fin 1) l)
  bv : x14 (ix1 (0 : Fin 1)) = P.vb (ix1 (0 : Fin 1))

end ActorCritic

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibSliceCols.lean ====
/-
  A rank-2 array cut along its LAST axis: the unit-stride slice `[a, b] → [a, w]` that starts at column `o`, read at
  `(p, d)`, is the array at `(p, o + d)`; and a slice one column wide, read at `(p, u)`, is the array at `(p, o)`.
  Generic extents; indices are built from coordinates.
-/
import Idealize.ShloMosaic.Lib.Pipeline.Value
import Idealize.ShloMosaic.Lib.ValueIdx

namespace SliceCols

open Idealize.ShloMosaic Idealize.ShloMosaic.ValueIdx

variable {α : Type}

/-- Columns `o … o + w − 1` of an `[a, b]` array, at `(p, d)`. -/
theorem cols_apply {a b w : ℕ} (o : ℕ) (x : (⟨2, ![a, b]⟩ : Shape).Idx → α)
    (h : (⟨2, ![a, b]⟩ : Shape).Slices ![0, o] ⟨2, ![a, w]⟩) (p : Fin a) (d : Fin w) (hd : o + d.val < b) :
    extractStridedSlice ⟨2, ![a, w]⟩ ![0, o] x h (ix2 p d) = x (ix2 p ⟨o + d.val, hd⟩) :=
  extractStridedSlice_apply _ x h _ _ fun ax => by
    match ax with
    | ⟨0, _⟩ => show p.val = 0 + p.val; omega
    | ⟨1, _⟩ => rfl

/-- Column `o` of an `[a, b]` array as an `[a, 1]` array, at `(p, u)`. -/
theorem col_apply {a b : ℕ} (o : ℕ) (x : (⟨2, ![a, b]⟩ : Shape).Idx → α)
    (h : (⟨2, ![a, b]⟩ : Shape).Slices ![0, o] ⟨2, ![a, 1]⟩) (p : Fin a) (u : Fin 1) (ho : o < b) :
    extractStridedSlice ⟨2, ![a, 1]⟩ ![0, o] x h (ix2 p u) = x (ix2 p ⟨o, ho⟩) :=
  extractStridedSlice_apply _ x h _ _ fun ax => by
    match ax with
    | ⟨0, _⟩ => show p.val = 0 + p.val; omega
    | ⟨1, _⟩ => show o = o + u.val; omega

end SliceCols
-- ==== Proof.DenseBody.lean ====
/-
  One dense layer as the kernel's body spells it, read at a pair of coordinates.

  The body multiplies an n x k block by a k x q block on the matrix unit onto a zero accumulator, turns a bias of q
  entries into one row, repeats that row n times and adds.  At (p, j) the result is the sum over l of
  x (p, l) * w (l, j), plus b j.  Also: three arrays with n rows laid side by side, read at a column of each part.
-/
import Idealize.ShloMosaic.Lib.Pipeline.Value
import Idealize.ShloMosaic.Lib.ValueIdx
import Idealize.ShloMosaic.Lib.ValueLayout
import Idealize.ShloMosaic.PureOps.Ideal.Laws
import proofs.«100968_j85916525789512_2_alg».proof.Proof.LibMatProd
import proofs.«100968_j85916525789512_2_alg».proof.Proof.LibDot2
import proofs.«100968_j85916525789512_2_alg».proof.Proof.LibRowCol
import proofs.«100968_j85916525789512_2_alg».proof.Proof.LibSliceCols

noncomputable section

open scoped BigOperators

namespace DenseBody

open Idealize.ShloMosaic Idealize.ShloMosaic.ValueIdx

variable {n k q : ℕ}

/-- The product onto zero plus the repeated bias row, at (p, j). -/
theorem dense_apply {φ₁ φ₂ : FTy}
    (d : DotDims (⟨2, ![n, k]⟩ : Shape) (⟨2, ![k, q]⟩ : Shape) (⟨2, ![n, q]⟩ : Shape))
    (h1 : d.lhsContracting = [1]) (h2 : d.rhsContracting = [0]) (h3 : d.lhsNonContracting = [0])
    (h4 : d.rhsNonContracting = [1]) (h5 : d.lhsBatch = []) (h6 : d.rhsBatch = [])
    (x : FVec Ideal (⟨2, ![n, k]⟩ : Shape) φ₁) (w : FVec Ideal (⟨2, ![k, q]⟩ : Shape) φ₂)
    (b : FVec Ideal (⟨1, ![q]⟩ : Shape) .f32)
    (hc : (⟨1, ![q]⟩ : Shape).ShapeCasts ⟨2, ![1, q]⟩) (hb : (⟨2, ![1, q]⟩ : Shape).Broadcasts ⟨2, ![n, q]⟩)
    (p : Fin n) (j : Fin q) :
    addf (matmul d none x w (constant (F := Ideal) (⟨2, ![n, q]⟩ : Shape) .f32 0x00000000#32))
        (broadcastTo ⟨2, ![n, q]⟩ (shapeCast ⟨2, ![1, q]⟩ b hc) hb) (ix2 p j)
      = (∑ l : Fin k, x (ix2 p l) * w (ix2 l j)) + b (ix1 j) := by
  have hr : d.contr.rank = 1 := Dot2.rank_contr d h1
  have h0 : 0 < d.contr.rank := by omega
  rw [addf_apply, broadcastTo_1b_ab_apply, RowCol.shapeCast_row, RowCol.rowOf_ix2]
  congr 1
  exact MatProd.matmul_zero_entry d none hr (Dot2.size_contr d h1 h0) (Dot2.lhs0 d h3 h5)
    (Dot2.lhs1 d h1 h0) (Dot2.rhs0 d h2 h0) (Dot2.rhs1 d h3 h4 h5 h6) x w p j

/-! ## The recurrent cell from the zero state, on an array of gate pre-activations with 384 columns -/

/-- Columns 0..127 are the input gate, 128..255 the candidate, 256..383 the output gate: at (p, j) the cell's output
    is logistic(o) * tanh(logistic(i) * tanh(c)). -/
theorem cell_apply (g : FVec Ideal (⟨2, ![n, 384]⟩ : Shape) .f32)
    (h0 : (⟨2, ![n, 384]⟩ : Shape).Slices ![0, 0] ⟨2, ![n, 128]⟩)
    (h1 : (⟨2, ![n, 384]⟩ : Shape).Slices ![0, 128] ⟨2, ![n, 128]⟩)
    (h2 : (⟨2, ![n, 384]⟩ : Shape).Slices ![0, 256] ⟨2, ![n, 128]⟩) (p : Fin n) (j : Fin 128) :
    mulf (logistic (extractStridedSlice ⟨2, ![n, 128]⟩ ![0, 256] g h2))
        (tanh (mulf (logistic (extractStridedSlice ⟨2, ![n, 128]⟩ ![0, 0] g h0))
          (tanh (extractStridedSlice ⟨2, ![n, 128]⟩ ![0, 128] g h1)))) (ix2 p j)
      = Ideal.logistic (g (ix2 p ⟨256 + j.val, by omega⟩))
        * Ideal.tanh (Ideal.logistic (g (ix2 p ⟨0 + j.val, by omega⟩)) * Ideal.tanh (g (ix2 p ⟨128 + j.val, by omega⟩))) := by
  show Ideal.logistic (extractStridedSlice ⟨2, ![n, 128]⟩ ![0, 256] g h2 (ix2 p j))
      * Ideal.tanh (Ideal.logistic (extractStridedSlice ⟨2, ![n, 128]⟩ ![0, 0] g h0 (ix2 p j))
        * Ideal.tanh (extractStridedSlice ⟨2, ![n, 128]⟩ ![0, 128] g h1 (ix2 p j))) = _
  rw [SliceCols.cols_apply 256 g h2 p j (by omega), SliceCols.cols_apply 0 g h0 p j (by omega),
    SliceCols.cols_apply 128 g h1 p j (by omega)]

/-! ## Three arrays with the same rows laid side by side -/

section Cat3
variable {α : Type} {a b c t : ℕ}

theorem cat3_left (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, t]⟩ 1)
    (p : Fin n) (q : Fin t) (l : Fin a) (hq : q.val = l.val) :
    concatenate ⟨2, ![n, t]⟩ 1 [⟨⟨2, ![n, a]⟩, x⟩, ⟨⟨2, ![n, b]⟩, y⟩, ⟨⟨2, ![n, c]⟩, z⟩] h (ix2 p q) = x (ix2 p l) := by
  refine concatenate_apply_piece (t := (⟨2, ![n, t]⟩ : Shape)) (1 : Fin 2)
    [⟨⟨2, ![n, a]⟩, x⟩, ⟨⟨2, ![n, b]⟩, y⟩, ⟨⟨2, ![n, c]⟩, z⟩] h (ix2 p q) 0 (by simp) ⟨2, ![n, a]⟩ x rfl rfl 0 ?_ (ix2 p l) ?_ ?_
  · simp
  · intro d hd
    match d with
    | ⟨0, _⟩ => rfl
    | ⟨1, _⟩ => exact absurd rfl hd
  · show 0 + l.val = q.val
    omega

theorem cat3_mid (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, t]⟩ 1)
    (p : Fin n) (q : Fin t) (l : Fin b) (hq : q.val = a + l.val) :
    concatenate ⟨2, ![n, t]⟩ 1 [⟨⟨2, ![n, a]⟩, x⟩, ⟨⟨2, ![n, b]⟩, y⟩, ⟨⟨2, ![n, c]⟩, z⟩] h (ix2 p q) = y (ix2 p l) := by
  refine concatenate_apply_piece (t := (⟨2, ![n, t]⟩ : Shape)) (1 : Fin 2)
    [⟨⟨2, ![n, a]⟩, x⟩, ⟨⟨2, ![n, b]⟩, y⟩, ⟨⟨2, ![n, c]⟩, z⟩] h (ix2 p q) 1 (by simp) ⟨2, ![n, b]⟩ y rfl rfl a ?_ (ix2 p l) ?_ ?_
  · simp
  · intro d hd
    match d with
    | ⟨0, _⟩ => rfl
    | ⟨1, _⟩ => exact absurd rfl hd
  · show a + l.val = q.val
    omega

theorem cat3_right (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, t]⟩ 1)
    (p : Fin n) (q : Fin t) (l : Fin c) (hq : q.val = a + b + l.val) :
    concatenate ⟨2, ![n, t]⟩ 1 [⟨⟨2, ![n, a]⟩, x⟩, ⟨⟨2, ![n, b]⟩, y⟩, ⟨⟨2, ![n, c]⟩, z⟩] h (ix2 p q) = z (ix2 p l) := by
  refine concatenate_apply_piece (t := (⟨2, ![n, t]⟩ : Shape)) (1 : Fin 2)
    [⟨⟨2, ![n, a]⟩, x⟩, ⟨⟨2, ![n, b]⟩, y⟩, ⟨⟨2, ![n, c]⟩, z⟩] h (ix2 p q) 2 (by simp) ⟨2, ![n, c]⟩ z rfl rfl (a + b) ?_ (ix2 p l) ?_ ?_
  · simp
  · intro d hd
    match d with
    | ⟨0, _⟩ => rfl
    | ⟨1, _⟩ => exact absurd rfl hd
  · show (a + b) + l.val = q.val
    omega

end Cat3

end DenseBody

end
-- ==== Proof.Payload.lean ====
/-
  The kernel body's arithmetic, read at a row p of the 2048-row block and matched with the specification.

  Row p of the stored block depends on row p of the input block only.  The first matrix product computes both
  branches' first layers side by side (256 columns: actor, critic); each branch then goes through its second layer,
  its 384 kept gate columns (input, candidate, output; the forget gate's columns were dropped before the launch and
  the two gate biases were added beforehand, which is where associativity of + is used), the cell, and its heads.
  The three head results are laid side by side: 8 + 8 + 1 columns.
-/
import proofs.«100968_j85916525789512_2_alg».proof.Proof.Gen.KernelIdeal.Skeleton
import proofs.«100968_j85916525789512_2_alg».proof.Proof.Blocks
import proofs.«100968_j85916525789512_2_alg».proof.Proof.DenseBody

noncomputable section

open scoped BigOperators

namespace Cert.KernelIdeal.Payload

open Cert.KernelIdeal Cert.KernelIdeal.Gen Idealize.ShloMosaic Idealize.ShloMosaic.ValueIdx ActorCritic

/-! ## Pure forms of the kept gate columns and the cell -/

/-- Gate pre-activations over the 384 kept columns, from a row h, a 128 x 384 matrix and a bias of 384. -/
def gatesOf (h : Fin 128 → EReal) (w : A2 128 384) (b : A1 384) : Fin 384 → EReal :=
  fun c => (∑ l : Fin 128, h l * w (ix2 l c)) + b (ix1 c)

/-- The cell on the kept columns: input at j, candidate at 128 + j, output at 256 + j. -/
def cellOf (g : Fin 384 → EReal) : Fin 128 → EReal :=
  fun j => Ideal.logistic (g ⟨256 + j.val, by omega⟩)
    * Ideal.tanh (Ideal.logistic (g ⟨j.val, by omega⟩) * Ideal.tanh (g ⟨128 + j.val, by omega⟩))

/-- With the kept columns being rows j, 256 + j, 384 + j of the 512-row matrix (transposed) and the kept bias the
    sum of the two biases there, the cell on the kept columns is the specification's cell. -/
theorem cellOf_eq (W : A2 512 128) (bi bh : A1 512) (w : A2 128 384) (b : A1 384)
    (hi : ∀ (j l : Fin 128), w (ix2 l ⟨j.val, by omega⟩) = W (ix2 ⟨j.val, by omega⟩ l))
    (hg : ∀ (j l : Fin 128), w (ix2 l ⟨128 + j.val, by omega⟩) = W (ix2 ⟨256 + j.val, by omega⟩ l))
    (ho : ∀ (j l : Fin 128), w (ix2 l ⟨256 + j.val, by omega⟩) = W (ix2 ⟨384 + j.val, by omega⟩ l))
    (bi' : ∀ j : Fin 128, b (ix1 ⟨j.val, by omega⟩) = bi (ix1 ⟨j.val, by omega⟩) + bh (ix1 ⟨j.val, by omega⟩))
    (bg' : ∀ j : Fin 128, b (ix1 ⟨128 + j.val, by omega⟩) = bi (ix1 ⟨256 + j.val, by omega⟩) + bh (ix1 ⟨256 + j.val, by omega⟩))
    (bo' : ∀ j : Fin 128, b (ix1 ⟨256 + j.val, by omega⟩) = bi (ix1 ⟨384 + j.val, by omega⟩) + bh (ix1 ⟨384 + j.val, by omega⟩))
    (h : Fin 128 → EReal) (j : Fin 128) : cellOf (gatesOf h w b) j = cell (gates W bi bh h) j := by
  unfold cellOf cell gatesOf gates
  simp only [hi, hg, ho, bi', bg', bo', add_assoc]

/-! ## The payloads at coordinates -/

/-- Both first layers side by side. -/
theorem pay2_apply (v0 : Vec Ideal S2048x64 .f32) (v3 : Vec Ideal S64x256 .bf16) (v6 : Vec Ideal S256 .f32)
    (p : Fin 2048) (j : Fin 256) :
    k0_pay2 v0 v3 v6 (ix2 p j) = max ((∑ l : Fin 64, v0 (ix2 p l) * v3 (ix2 l j)) + v6 (ix1 j)) zeroF := by
  unfold k0_pay2
  simp only [shapeCast_self]
  rw [maximumf_apply, broadcast_apply, DenseBody.dense_apply _ rfl rfl rfl rfl rfl rfl]
  rfl

/-- The actor's second layer, from columns 0..127 of the first layers. -/
theorem pay3_apply (v0 : Vec Ideal S2048x64 .f32) (v3 : Vec Ideal S64x256 .bf16) (v6 : Vec Ideal S256 .f32)
    (v17 : Vec Ideal S128x128 .bf16) (v20 : Vec Ideal S128 .f32) (p : Fin 2048) (j : Fin 128) :
    k0_pay3 v0 v3 v6 v17 v20 (ix2 p j)
      = max ((∑ l : Fin 128, k0_pay2 v0 v3 v6 (ix2 p ⟨l.val, by omega⟩) * v17 (ix2 l j)) + v20 (ix1 j)) zeroF := by
  unfold k0_pay3
  simp only [shapeCast_self]
  rw [truncf_apply, maximumf_apply, broadcast_apply, DenseBody.dense_apply _ rfl rfl rfl rfl rfl rfl]
  refine congrArg₂ max (congrArg₂ (· + ·) (Finset.sum_congr rfl fun l _ => ?_) rfl) rfl
  rw [truncf_apply, SliceCols.cols_apply 0 _ _ p l (by omega)]
  simp only [Nat.zero_add]

/-- The critic's second layer, from columns 128..255 of the first layers. -/
theorem pay4_apply (v0 : Vec Ideal S2048x64 .f32) (v3 : Vec Ideal S64x256 .bf16) (v6 : Vec Ideal S256 .f32)
    (v27 : Vec Ideal S128x128 .bf16) (v30 : Vec Ideal S128 .f32) (p : Fin 2048) (j : Fin 128) :
    k0_pay4 v0 v3 v6 v27 v30 (ix2 p j)
      = max ((∑ l : Fin 128, k0_pay2 v0 v3 v6 (ix2 p ⟨128 + l.val, by omega⟩) * v27 (ix2 l j)) + v30 (ix1 j)) zeroF := by
  unfold k0_pay4
  simp only [shapeCast_self]
  rw [truncf_apply, maximumf_apply, broadcast_apply, DenseBody.dense_apply _ rfl rfl rfl rfl rfl rfl]
  refine congrArg₂ max (congrArg₂ (· + ·) (Finset.sum_congr rfl fun l _ => ?_) rfl) rfl
  rw [truncf_apply, SliceCols.cols_apply 128 _ _ p l (by omega)]

/-- The actor's gates, cell and the two small heads' 16 columns. -/
theorem pay6_apply (v26 : FVec Ideal S2048x128 .bf16) (v38 : FVec Ideal S128x384 .bf16) (v40 : Vec Ideal S384 .f32)
    (v73 : Vec Ideal S128x16 .bf16) (v76 : Vec Ideal S16 .f32) (p : Fin 2048) (a : Fin 16) :
    k0_pay6 v26 v38 (constant (F := Ideal) S2048x384 .f32 0x00000000#32) v40 v73 v76 (ix2 p a)
      = (∑ l : Fin 128, cellOf (gatesOf (fun l' => v26 (ix2 p l')) v38 v40) l * v73 (ix2 l a)) + v76 (ix1 a) := by
  unfold k0_pay6
  simp only [shapeCast_self]
  rw [DenseBody.dense_apply _ rfl rfl rfl rfl rfl rfl]
  refine congrArg₂ (· + ·) (Finset.sum_congr rfl fun l _ => ?_) rfl
  rw [truncf_apply, DenseBody.cell_apply, DenseBody.dense_apply _ rfl rfl rfl rfl rfl rfl,
    DenseBody.dense_apply _ rfl rfl rfl rfl rfl rfl, DenseBody.dense_apply _ rfl rfl rfl rfl rfl rfl]
  simp only [Nat.zero_add]
  rfl

/-- The critic's gates, cell and the value head's product (its bias is added at the end). -/
theorem pay9_apply (v36 : FVec Ideal S2048x128 .bf16) (v55 : Vec Ideal S128x384 .bf16) (v58 : Vec Ideal S384 .f32)
    (v84 : Vec Ideal S128x1 .bf16) (p : Fin 2048) (u : Fin 1) :
    k0_pay9 v36 v55 v58 v84 (ix2 p u)
      = ∑ l : Fin 128, cellOf (gatesOf (fun l' => v36 (ix2 p l')) v55 v58) l * v84 (ix2 l u) := by
  unfold k0_pay9
  simp only [shapeCast_self]
  have h0 : 0 < dot_S2048x128_S128x1_S2048x1_1_0_0_1_n_n.contr.rank := by
    rw [Dot2.rank_contr dot_S2048x128_S128x1_S2048x1_1_0_0_1_n_n rfl]; exact Nat.one_pos
  refine Eq.trans (MatProd.matmul_zero_entry dot_S2048x128_S128x1_S2048x1_1_0_0_1_n_n none
    (Dot2.rank_contr _ rfl) (Dot2.size_contr _ rfl h0) (Dot2.lhs0 _ rfl rfl) (Dot2.lhs1 _ rfl h0)
    (Dot2.rhs0 _ rfl h0) (Dot2.rhs1 _ rfl rfl rfl rfl) _ _ p u) ?_
  unfold MatProd.entry
  refine Finset.sum_congr rfl fun l _ => ?_
  rw [truncf_apply, DenseBody.cell_apply, DenseBody.dense_apply _ rfl rfl rfl rfl rfl rfl,
    DenseBody.dense_apply _ rfl rfl rfl rfl rfl rfl, DenseBody.dense_apply _ rfl rfl rfl rfl rfl rfl]
  simp only [Nat.zero_add]
  rfl

/-- The exponential, entry by entry. -/
theorem exp_apply {s : Shape} (v : FVec Ideal s .f32) (i : s.Idx) : exp v i = Ideal.exp (v i) := rfl

/-- The kept gate matrix is loaded as it is. -/
theorem pay5_eq (v37 : Vec Ideal S128x384 .bf16) : k0_pay5 v37 = v37 := by
  unfold k0_pay5
  exact shapeCast_self _ _

/-! ## Row p of the block, against the specification -/

section Rows

variable (P : Params) (x0 : Vec Ideal S2048x64 .f32) (x1 : Vec Ideal S64x256 .bf16) (x2 : Vec Ideal S256 .f32)
  (x3 : Vec Ideal S128x128 .bf16) (x4 : Vec Ideal S128 .f32) (x5 : Vec Ideal S128x128 .bf16) (x6 : Vec Ideal S128 .f32)
  (x7 : Vec Ideal S128x384 .bf16) (x8 : Vec Ideal S384 .f32) (x9 : Vec Ideal S128x384 .bf16) (x10 : Vec Ideal S384 .f32)
  (x11 : Vec Ideal S128x16 .bf16) (x12 : Vec Ideal S16 .f32) (x13 : Vec Ideal S128x1 .bf16) (x14 : Vec Ideal S1 .f32)
  (hB : Blocks P x1 x2 x3 x4 x5 x6 x7 x8 x9 x10 x11 x12 x13 x14) (p : Fin 2048)

include hB

theorem first_actor (j : Fin 128) :
    k0_pay2 x0 x1 x2 (ix2 p ⟨j.val, by omega⟩) = reluV (dense P.aw1 P.ab1 (fun l => x0 (ix2 p l))) j := by
  rw [pay2_apply]
  simp only [hB.w1a, hB.b1a]
  rfl

theorem first_critic (j : Fin 128) :
    k0_pay2 x0 x1 x2 (ix2 p ⟨128 + j.val, by omega⟩) = reluV (dense P.cw1 P.cb1 (fun l => x0 (ix2 p l))) j := by
  rw [pay2_apply]
  simp only [hB.w1c, hB.b1c]
  rfl

theorem mlp_actor (j : Fin 128) :
    k0_pay3 x0 x1 x2 x3 x4 (ix2 p j) = mlp P.aw1 P.ab1 P.aw2 P.ab2 (fun l => x0 (ix2 p l)) j := by
  rw [pay3_apply]
  have e : ∀ l : Fin 128, k0_pay2 x0 x1 x2 (ix2 p ⟨l.val, by omega⟩)
      = reluV (dense P.aw1 P.ab1 (fun l' => x0 (ix2 p l'))) l :=
    first_actor P x0 x1 x2 x3 x4 x5 x6 x7 x8 x9 x10 x11 x12 x13 x14 hB p
  simp only [e, hB.w2a, hB.b2a]
  rfl

theorem mlp_critic (j : Fin 128) :
    k0_pay4 x0 x1 x2 x5 x6 (ix2 p j) = mlp P.cw1 P.cb1 P.cw2 P.cb2 (fun l => x0 (ix2 p l)) j := by
  rw [pay4_apply]
  have e : ∀ l : Fin 128, k0_pay2 x0 x1 x2 (ix2 p ⟨128 + l.val, by omega⟩)
      = reluV (dense P.cw1 P.cb1 (fun l' => x0 (ix2 p l'))) l :=
    first_critic P x0 x1 x2 x3 x4 x5 x6 x7 x8 x9 x10 x11 x12 x13 x14 hB p
  simp only [e, hB.w2c, hB.b2c]
  rfl

/-- The actor's cell output on row p. -/
theorem actor_row :
    cellOf (gatesOf (fun l => k0_pay3 x0 x1 x2 x3 x4 (ix2 p l)) x7 x8) = actor P (fun l => x0 (ix2 p l)) := by
  funext j
  rw [cellOf_eq P.awih P.abih P.abhh x7 x8 hB.wia hB.wga hB.woa hB.bia hB.bga hB.boa]
  unfold actor
  refine congrFun (congrArg cell (congrArg (gates P.awih P.abih P.abhh) (funext fun l => ?_))) j
  exact mlp_actor P x0 x1 x2 x3 x4 x5 x6 x7 x8 x9 x10 x11 x12 x13 x14 hB p l

/-- The critic's cell output on row p. -/
theorem critic_row :
    cellOf (gatesOf (fun l => k0_pay4 x0 x1 x2 x5 x6 (ix2 p l)) x9 x10) = critic P (fun l => x0 (ix2 p l)) := by
  funext j
  rw [cellOf_eq P.cwih P.cbih P.cbhh x9 x10 hB.wic hB.wgc hB.woc hB.bic hB.bgc hB.boc]
  unfold critic
  refine congrFun (congrArg cell (congrArg (gates P.cwih P.cbih P.cbhh) (funext fun l => ?_))) j
  exact mlp_critic P x0 x1 x2 x3 x4 x5 x6 x7 x8 x9 x10 x11 x12 x13 x14 hB p l

/-- The mean head: columns 0..7 of the two small heads. -/
theorem mean_row (a : Fin 8) :
    k0_pay7 (k0_pay3 x0 x1 x2 x3 x4) (k0_pay5 x7) (constant (F := Ideal) S2048x384 .f32 0x00000000#32) x8 x11 x12 (ix2 p a)
      = meanRow P (fun l => x0 (ix2 p l)) a := by
  unfold k0_pay7
  rw [SliceCols.cols_apply 0 _ _ p a (by omega), pay5_eq, pay6_apply,
    actor_row P x0 x1 x2 x3 x4 x5 x6 x7 x8 x9 x10 x11 x12 x13 x14 hB p]
  simp only [Nat.zero_add, hB.wm, hB.bm]
  rfl

/-- The std head: exp of columns 8..15. -/
theorem std_row (a : Fin 8) :
    k0_pay8 (k0_pay3 x0 x1 x2 x3 x4) (k0_pay5 x7) (constant (F := Ideal) S2048x384 .f32 0x00000000#32) x8 x11 x12 (ix2 p a)
      = stdRow P (fun l => x0 (ix2 p l)) a := by
  unfold k0_pay8
  rw [exp_apply, SliceCols.cols_apply 8 _ _ p a (by omega), pay5_eq, pay6_apply,
    actor_row P x0 x1 x2 x3 x4 x5 x6 x7 x8 x9 x10 x11 x12 x13 x14 hB p]
  simp only [hB.wl, hB.bl]
  rfl

/-- The value head's product on row p. -/
theorem val_row (u : Fin 1) :
    k0_pay9 (k0_pay4 x0 x1 x2 x5 x6) x9 x10 x13 (ix2 p u) + x14 (ix1 (0 : Fin 1))
      = valRow P (fun l => x0 (ix2 p l)) 0 := by
  obtain rfl : u = 0 := Subsingleton.elim _ _
  rw [pay9_apply, critic_row P x0 x1 x2 x3 x4 x5 x6 x7 x8 x9 x10 x11 x12 x13 x14 hB p]
  simp only [hB.wv, hB.bv]
  rfl

/-- ROW p OF THE STORED BLOCK is the specification's 17 numbers of row p of the input block. -/
theorem block_row (q : Fin 17) :
    k0_pay1
        (k0_pay7 (k0_pay3 x0 x1 x2 x3 x4) (k0_pay5 x7) (constant (F := Ideal) S2048x384 .f32 0x00000000#32) x8 x11 x12)
        (k0_pay8 (k0_pay3 x0 x1 x2 x3 x4) (k0_pay5 x7) (constant (F := Ideal) S2048x384 .f32 0x00000000#32) x8 x11 x12)
        (k0_pay9 (k0_pay4 x0 x1 x2 x5 x6) x9 x10 x13) x14 (ix2 p q)
      = row17 P (fun l => x0 (ix2 p l)) q := by
  unfold k0_pay1 row17
  by_cases h8 : q.val < 8
  · rw [dif_pos h8, DenseBody.cat3_left _ _ _ _ p q ⟨q.val, h8⟩ rfl]
    exact mean_row P x0 x1 x2 x3 x4 x5 x6 x7 x8 x9 x10 x11 x12 x13 x14 hB p ⟨q.val, h8⟩
  · rw [dif_neg h8]
    by_cases h16 : q.val < 16
    · rw [dif_pos h16, DenseBody.cat3_mid _ _ _ _ p q ⟨q.val - 8, by omega⟩ (by show q.val = 8 + (q.val - 8); omega)]
      exact std_row P x0 x1 x2 x3 x4 x5 x6 x7 x8 x9 x10 x11 x12 x13 x14 hB p ⟨q.val - 8, by omega⟩
    · rw [dif_neg h16, DenseBody.cat3_right _ _ _ _ p q (0 : Fin 1) (by show q.val = 8 + 8 + 0; omega)]
      rw [addf_apply, broadcastTo_1b_ab_apply, RowCol.shapeCast_row, RowCol.rowOf_ix2]
      exact val_row P x0 x1 x2 x3 x4 x5 x6 x7 x8 x9 x10 x11 x12 x13 x14 hB p 0

end Rows

end Cert.KernelIdeal.Payload

end
-- ==== Proof.Layout.lean ====
/-
  Arrays laid side by side or end to end, read at explicit coordinates.

  A concatenation of two or three matrices along the columns (or of two or three vectors) read at a column
  (an entry) is the piece that column falls in, read at the column less the widths of the pieces before it.
  A slice of a vector read at an entry is the vector read at the entry shifted by the offset.
-/
import Idealize.ShloMosaic.Lib.Pipeline.Value
import Idealize.ShloMosaic.Lib.ValueIdx
import Idealize.ShloMosaic.Lib.ValueLayout

namespace ActorCritic.Layout

open Idealize.ShloMosaic Idealize.ShloMosaic.ValueIdx

variable {α : Type}

/-- Two matrices side by side: a column below the first's width reads the first. -/
theorem cat2_cols_left {n a b c : ℕ} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2)) (l : Fin n) (j : Fin a) (q : Fin c)
    (hq : q.val = j.val) :
    concatenate ⟨2, ![n, c]⟩ (1 : Fin 2) [⟨⟨2, ![n, a]⟩, x⟩, ⟨⟨2, ![n, b]⟩, y⟩] h (ix2 l q) = x (ix2 l j) :=
  concatenate_pair_apply_left (t := ⟨2, ![n, c]⟩) (s₁ := ⟨2, ![n, a]⟩) (s₂ := ⟨2, ![n, b]⟩) (1 : Fin 2) x y h _ rfl _ (fun d => by
    match d with
    | ⟨0, _⟩ => rfl
    | ⟨1, _⟩ => exact hq.symm)

/-- Two matrices side by side: a column from the first's width on reads the second, that width less. -/
theorem cat2_cols_right {n a b c : ℕ} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2)) (l : Fin n) (j : Fin b) (q : Fin c)
    (hq : q.val = a + j.val) :
    concatenate ⟨2, ![n, c]⟩ (1 : Fin 2) [⟨⟨2, ![n, a]⟩, x⟩, ⟨⟨2, ![n, b]⟩, y⟩] h (ix2 l q) = y (ix2 l j) :=
  concatenate_pair_apply_right (t := ⟨2, ![n, c]⟩) (s₁ := ⟨2, ![n, a]⟩) (s₂ := ⟨2, ![n, b]⟩) (1 : Fin 2) x y h _ rfl rfl _
    (fun d hd => by
      match d with
      | ⟨0, _⟩ => rfl
      | ⟨1, _⟩ => exact absurd rfl hd)
    (by show j.val + a = q.val; omega)

/-- Two vectors end to end: an entry below the first's length reads the first. -/
theorem cat2_vec_left {a b c : ℕ} (x : (⟨1, ![a]⟩ : Shape).Idx → α) (y : (⟨1, ![b]⟩ : Shape).Idx → α)
    (h : Shape.Concatenates [(⟨1, ![a]⟩ : Shape), ⟨1, ![b]⟩] ⟨1, ![c]⟩ (0 : Fin 1)) (j : Fin a) (q : Fin c)
    (hq : q.val = j.val) :
    concatenate ⟨1, ![c]⟩ (0 : Fin 1) [⟨⟨1, ![a]⟩, x⟩, ⟨⟨1, ![b]⟩, y⟩] h (ix1 q) = x (ix1 j) :=
  concatenate_pair_apply_left (t := ⟨1, ![c]⟩) (s₁ := ⟨1, ![a]⟩) (s₂ := ⟨1, ![b]⟩) (0 : Fin 1) x y h _ rfl _ (fun d => by
    match d with
    | ⟨0, _⟩ => exact hq.symm)

/-- Two vectors end to end: an entry from the first's length on reads the second, that length less. -/
theorem cat2_vec_right {a b c : ℕ} (x : (⟨1, ![a]⟩ : Shape).Idx → α) (y : (⟨1, ![b]⟩ : Shape).Idx → α)
    (h : Shape.Concatenates [(⟨1, ![a]⟩ : Shape), ⟨1, ![b]⟩] ⟨1, ![c]⟩ (0 : Fin 1)) (j : Fin b) (q : Fin c)
    (hq : q.val = a + j.val) :
    concatenate ⟨1, ![c]⟩ (0 : Fin 1) [⟨⟨1, ![a]⟩, x⟩, ⟨⟨1, ![b]⟩, y⟩] h (ix1 q) = y (ix1 j) :=
  concatenate_pair_apply_right (t := ⟨1, ![c]⟩) (s₁ := ⟨1, ![a]⟩) (s₂ := ⟨1, ![b]⟩) (0 : Fin 1) x y h _ rfl rfl _
    (fun d hd => by
      match d with
      | ⟨0, _⟩ => exact absurd rfl hd)
    (by show j.val + a = q.val; omega)

/-- Three matrices side by side, read in the first. -/
theorem cat3_cols_0 {n a b c e : ℕ} (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, e]⟩ (1 : Fin 2)) (l : Fin n) (j : Fin a)
    (q : Fin e) (hq : q.val = j.val) :
    concatenate ⟨2, ![n, e]⟩ (1 : Fin 2) [⟨⟨2, ![n, a]⟩, x⟩, ⟨⟨2, ![n, b]⟩, y⟩, ⟨⟨2, ![n, c]⟩, z⟩] h (ix2 l q) = x (ix2 l j) :=
  concatenate_apply_piece (t := ⟨2, ![n, e]⟩) (1 : Fin 2) [⟨⟨2, ![n, a]⟩, x⟩, ⟨⟨2, ![n, b]⟩, y⟩, ⟨⟨2, ![n, c]⟩, z⟩] h _ 0 (by show (0 : ℕ) < 3; omega) ⟨2, ![n, a]⟩ x rfl rfl 0 rfl (ix2 l j)
    (fun d hd => by
      match d with
      | ⟨0, _⟩ => rfl
      | ⟨1, _⟩ => exact absurd rfl hd)
    (by show 0 + j.val = q.val; omega)

/-- Three matrices side by side, read in the second. -/
theorem cat3_cols_1 {n a b c e : ℕ} (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, e]⟩ (1 : Fin 2)) (l : Fin n) (j : Fin b)
    (q : Fin e) (hq : q.val = a + j.val) :
    concatenate ⟨2, ![n, e]⟩ (1 : Fin 2) [⟨⟨2, ![n, a]⟩, x⟩, ⟨⟨2, ![n, b]⟩, y⟩, ⟨⟨2, ![n, c]⟩, z⟩] h (ix2 l q) = y (ix2 l j) :=
  concatenate_apply_piece (t := ⟨2, ![n, e]⟩) (1 : Fin 2) [⟨⟨2, ![n, a]⟩, x⟩, ⟨⟨2, ![n, b]⟩, y⟩, ⟨⟨2, ![n, c]⟩, z⟩] h _ 1 (by show (1 : ℕ) < 3; omega) ⟨2, ![n, b]⟩ y rfl rfl a (by simp) (ix2 l j)
    (fun d hd => by
      match d with
      | ⟨0, _⟩ => rfl
      | ⟨1, _⟩ => exact absurd rfl hd)
    (by show a + j.val = q.val; omega)

/-- Three matrices side by side, read in the third. -/
theorem cat3_cols_2 {n a b c e : ℕ} (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, e]⟩ (1 : Fin 2)) (l : Fin n) (j : Fin c)
    (q : Fin e) (hq : q.val = a + b + j.val) :
    concatenate ⟨2, ![n, e]⟩ (1 : Fin 2) [⟨⟨2, ![n, a]⟩, x⟩, ⟨⟨2, ![n, b]⟩, y⟩, ⟨⟨2, ![n, c]⟩, z⟩] h (ix2 l q) = z (ix2 l j) :=
  concatenate_apply_piece (t := ⟨2, ![n, e]⟩) (1 : Fin 2) [⟨⟨2, ![n, a]⟩, x⟩, ⟨⟨2, ![n, b]⟩, y⟩, ⟨⟨2, ![n, c]⟩, z⟩] h _ 2 (by show (2 : ℕ) < 3; omega) ⟨2, ![n, c]⟩ z rfl rfl (a + b) (by simp) (ix2 l j)
    (fun d hd => by
      match d with
      | ⟨0, _⟩ => rfl
      | ⟨1, _⟩ => exact absurd rfl hd)
    (by show a + b + j.val = q.val; omega)

/-- Three vectors end to end, read in the first. -/
theorem cat3_vec_0 {a b c e : ℕ} (x : (⟨1, ![a]⟩ : Shape).Idx → α) (y : (⟨1, ![b]⟩ : Shape).Idx → α)
    (z : (⟨1, ![c]⟩ : Shape).Idx → α)
    (h : Shape.Concatenates [(⟨1, ![a]⟩ : Shape), ⟨1, ![b]⟩, ⟨1, ![c]⟩] ⟨1, ![e]⟩ (0 : Fin 1)) (j : Fin a)
    (q : Fin e) (hq : q.val = j.val) :
    concatenate ⟨1, ![e]⟩ (0 : Fin 1) [⟨⟨1, ![a]⟩, x⟩, ⟨⟨1, ![b]⟩, y⟩, ⟨⟨1, ![c]⟩, z⟩] h (ix1 q) = x (ix1 j) :=
  concatenate_apply_piece (t := ⟨1, ![e]⟩) (0 : Fin 1) [⟨⟨1, ![a]⟩, x⟩, ⟨⟨1, ![b]⟩, y⟩, ⟨⟨1, ![c]⟩, z⟩] h _ 0 (by show (0 : ℕ) < 3; omega) ⟨1, ![a]⟩ x rfl rfl 0 rfl (ix1 j)
    (fun d hd => by
      match d with
      | ⟨0, _⟩ => exact absurd rfl hd)
    (by show 0 + j.val = q.val; omega)

/-- Three vectors end to end, read in the second. -/
theorem cat3_vec_1 {a b c e : ℕ} (x : (⟨1, ![a]⟩ : Shape).Idx → α) (y : (⟨1, ![b]⟩ : Shape).Idx → α)
    (z : (⟨1, ![c]⟩ : Shape).Idx → α)
    (h : Shape.Concatenates [(⟨1, ![a]⟩ : Shape), ⟨1, ![b]⟩, ⟨1, ![c]⟩] ⟨1, ![e]⟩ (0 : Fin 1)) (j : Fin b)
    (q : Fin e) (hq : q.val = a + j.val) :
    concatenate ⟨1, ![e]⟩ (0 : Fin 1) [⟨⟨1, ![a]⟩, x⟩, ⟨⟨1, ![b]⟩, y⟩, ⟨⟨1, ![c]⟩, z⟩] h (ix1 q) = y (ix1 j) :=
  concatenate_apply_piece (t := ⟨1, ![e]⟩) (0 : Fin 1) [⟨⟨1, ![a]⟩, x⟩, ⟨⟨1, ![b]⟩, y⟩, ⟨⟨1, ![c]⟩, z⟩] h _ 1 (by show (1 : ℕ) < 3; omega) ⟨1, ![b]⟩ y rfl rfl a (by simp) (ix1 j)
    (fun d hd => by
      match d with
      | ⟨0, _⟩ => exact absurd rfl hd)
    (by show a + j.val = q.val; omega)

/-- Three vectors end to end, read in the third. -/
theorem cat3_vec_2 {a b c e : ℕ} (x : (⟨1, ![a]⟩ : Shape).Idx → α) (y : (⟨1, ![b]⟩ : Shape).Idx → α)
    (z : (⟨1, ![c]⟩ : Shape).Idx → α)
    (h : Shape.Concatenates [(⟨1, ![a]⟩ : Shape), ⟨1, ![b]⟩, ⟨1, ![c]⟩] ⟨1, ![e]⟩ (0 : Fin 1)) (j : Fin c)
    (q : Fin e) (hq : q.val = a + b + j.val) :
    concatenate ⟨1, ![e]⟩ (0 : Fin 1) [⟨⟨1, ![a]⟩, x⟩, ⟨⟨1, ![b]⟩, y⟩, ⟨⟨1, ![c]⟩, z⟩] h (ix1 q) = z (ix1 j) :=
  concatenate_apply_piece (t := ⟨1, ![e]⟩) (0 : Fin 1) [⟨⟨1, ![a]⟩, x⟩, ⟨⟨1, ![b]⟩, y⟩, ⟨⟨1, ![c]⟩, z⟩] h _ 2 (by show (2 : ℕ) < 3; omega) ⟨1, ![c]⟩ z rfl rfl (a + b) (by simp) (ix1 j)
    (fun d hd => by
      match d with
      | ⟨0, _⟩ => exact absurd rfl hd)
    (by show a + b + j.val = q.val; omega)

/-- A vector cut from entry `o` reads, at `j`, the source at `k = o + j`. -/
theorem slice1_apply {n m : ℕ} (o : ℕ) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

end ActorCritic.Layout
-- ==== Proof.HostRun.lean ====
/-
  A three-operand operation's result with each operand's contents at its own reference, and the fold of a line of
  host operations computed with it.
-/
import Idealize.ShloMosaic.Lib.StableHlo.Run

noncomputable section

namespace Idealize.ShloMosaic.StableHlo

/-- A family over three positions from its three members. -/
def fam3 {α : Fin 3 → Type} (a : α 0) (b : α 1) (c : α 2) : (k : Fin 3) → α k
  | ⟨0, _⟩ => a
  | ⟨1, _⟩ => b
  | ⟨2, _⟩ => c

theorem fam3_zero {α : Fin 3 → Type} (a : α 0) (b : α 1) (c : α 2) : fam3 a b c 0 = a := rfl
theorem fam3_one {α : Fin 3 → Type} (a : α 0) (b : α 1) (c : α 2) : fam3 a b c 1 = b := rfl
theorem fam3_two {α : Fin 3 → Type} (a : α 0) (b : α 1) (c : α 2) : fam3 a b c 2 = c := rfl

variable {τ : Topo} {sig : RefSig} {Val : EltTy → Type}
variable {x a b y : Ref sig .tc}

/-- An operation over a literal family of three references: the result with each operand's contents at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (fam3 (α := fun k => ((![x, a, b] : Fin 3 → Ref sig .tc) k).ty.Contents Val)
            (F (Proc.devRef .tc x)) (F (Proc.devRef .tc a)) (F (Proc.devRef .tc b))) := by
  rw [nary_result]; congr 1; funext k; fin_cases k <;> rfl

/-- The fold of a line of unary, binary, three-operand and reshape operations read at one reference. -/
macro "after_results3" : tactic =>
  `(tactic| (simp only [after_cons, after_nil]
             repeat (first
               | rw [unary_result] | rw [binary_result]
               | rw [reshape_result] | rw [nary3_result]
               | (rw [unary_result_ne]; rotate_left; decide)
               | (rw [binary_result_ne]; rotate_left; decide)
               | (rw [reshape_result_ne]; rotate_left; decide)
               | (rw [nary_result_ne]; rotate_left; decide))
             try simp only [fam3_zero, fam3_one, fam3_two]))

end Idealize.ShloMosaic.StableHlo

end
-- ==== Proof.PrefixBase.lean ====
/-
  The contents of a core's buffers when the kernel's region is entered: the launch contents run through the host
  operations that come before the region.  The parameter arrays are the launch contents of the arguments; an
  argument no host operation writes is still at its launch contents.
-/
import proofs.«100968_j85916525789512_2_alg».proof.Proof.Gen.KernelIdeal.Launch
import proofs.«100968_j85916525789512_2_alg».proof.Proof.Blocks
import proofs.«100968_j85916525789512_2_alg».proof.Proof.Layout
import proofs.«100968_j85916525789512_2_alg».proof.Proof.HostRun
import Idealize.ShloMosaic.Lib.Pipeline.Value
import Idealize.ShloMosaic.Lib.ValueIdx
import Idealize.ShloMosaic.Lib.ValueLayout
import Idealize.ShloMosaic.Lib.StableHlo.Run

set_option maxRecDepth 2560

noncomputable section

namespace Cert.KernelIdeal.Prefix

open Cert.KernelIdeal Cert.KernelIdeal.Gen Idealize.ShloMosaic Idealize.ShloMosaic.ValueIdx Idealize.ShloMosaic.TcCoe
open Idealize.SL.Sem Idealize.ShloMosaic.StableHlo ActorCritic

variable (m : (ℓ : Loc nD τ sig) → Buf (Elt Ideal) ℓ)

/-- Core `c`'s buffer contents when the region is entered, as a valuation: after the host operations before it. -/
abbrev V0 (c : Dev nD) : Valuation τ sig (Elt Ideal) := StableHlo.after (List.flatten [hostOps0]) (fun b => m (c, b))
/-- The same read at a reference. -/
abbrev V (c : Dev nD) (b : Ref sig .tc) : Buf (Elt Ideal) ((c : Thread nD τ).loc b) := V0 m c (Proc.devRef .tc b)
/-- Core `c`'s launch contents at a reference. -/
abbrev A0 (c : Dev nD) (b : Ref sig .tc) : Buf (Elt Ideal) ((c : Thread nD τ).loc b) := m ((c : Thread nD τ).loc b)

/-- The parameter arrays: the launch contents of the arguments. -/
def paramsOf (c : Dev nD) : ActorCritic.Params :=
  ⟨A0 m c main_arg1, A0 m c main_arg2, A0 m c main_arg3, A0 m c main_arg4, A0 m c main_arg5, A0 m c main_arg6,
   A0 m c main_arg7, A0 m c main_arg8, A0 m c main_arg9, A0 m c main_arg11, A0 m c main_arg12, A0 m c main_arg13,
   A0 m c main_arg15, A0 m c main_arg16, A0 m c main_arg17, A0 m c main_arg18, A0 m c main_arg19, A0 m c main_arg20,
   A0 m c main_arg21, A0 m c main_arg22⟩

/-- The contents at one reference after the host operations, as the operations' term of the launch contents. -/
macro "host_fold" : tactic =>
  `(tactic| (dsimp only [V, V0]
             simp only [hostOps0, List.flatten_cons, List.flatten_nil, List.append_nil]
             after_results3))

/-- No host operation writes the reference at hand: one inequality of references per operation. -/
macro "host_keeps" : tactic =>
  `(tactic| (refine StableHlo.after_of_forall_not_mem _ _ (List.forall_iff_forall_mem.mp ?_)
             simp only [hostOps0, List.flatten_cons, List.flatten_nil, List.append_nil, List.Forall, StableHlo.unary_writes,
               StableHlo.binary_writes, StableHlo.reshape_writes, StableHlo.nary_writes, Finset.mem_singleton]
             repeat' apply And.intro
             all_goals exact StableHlo.devRef_ne_of_ne (by decide)))

/-- The second-layer bias of the first branch is an argument no host operation writes. -/
theorem arg4_keeps (c : Dev nD) : V m c main_arg4 = A0 m c main_arg4 := by
  show StableHlo.after (List.flatten [hostOps0]) (fun b => m (c, b)) (Proc.devRef .tc main_arg4) = _
  host_keeps

/-- So is the second branch's. -/
theorem arg8_keeps (c : Dev nD) : V m c main_arg8 = A0 m c main_arg8 := by
  show StableHlo.after (List.flatten [hostOps0]) (fun b => m (c, b)) (Proc.devRef .tc main_arg8) = _
  host_keeps

/-- And the value head's bias. -/
theorem arg22_keeps (c : Dev nD) : V m c main_arg22 = A0 m c main_arg22 := by
  show StableHlo.after (List.flatten [hostOps0]) (fun b => m (c, b)) (Proc.devRef .tc main_arg22) = _
  host_keeps

end Cert.KernelIdeal.Prefix

end
-- ==== Proof.Prefix1.lean ====
/-
  The first-layer and second-layer blocks: the two first-layer matrices transposed and side by side, their biases end
  to end, each second-layer matrix transposed.
-/
import proofs.«100968_j85916525789512_2_alg».proof.Proof.Gen.KernelIdeal.Launch
import proofs.«100968_j85916525789512_2_alg».proof.Proof.Blocks
import proofs.«100968_j85916525789512_2_alg».proof.Proof.Layout
import proofs.«100968_j85916525789512_2_alg».proof.Proof.HostRun
import proofs.«100968_j85916525789512_2_alg».proof.Proof.PrefixBase
import Idealize.ShloMosaic.Lib.Pipeline.Value
import Idealize.ShloMosaic.Lib.ValueIdx
import Idealize.ShloMosaic.Lib.ValueLayout
import Idealize.ShloMosaic.Lib.StableHlo.Run

set_option maxRecDepth 2560

noncomputable section

namespace Cert.KernelIdeal.Prefix

open Cert.KernelIdeal Cert.KernelIdeal.Gen Idealize.ShloMosaic Idealize.ShloMosaic.ValueIdx Idealize.ShloMosaic.TcCoe
open Idealize.SL.Sem Idealize.ShloMosaic.StableHlo ActorCritic

variable (m : (ℓ : Loc nD τ sig) → Buf (Elt Ideal) ℓ)

/-- The first-layer block: column j of the first 128 is row j of the first branch's matrix, column 128 + j row j of
    the second branch's. -/
theorem win_v4 (c : Dev nD) :
    (∀ (j : Fin 128) (l : Fin 64), (V m c main_v4 : S64x256.Idx → EReal) (ix2 l ⟨j.val, by omega⟩)
        = (A0 m c main_arg1 : S128x64.Idx → EReal) (ix2 j l))
    ∧ (∀ (j : Fin 128) (l : Fin 64), (V m c main_v4 : S64x256.Idx → EReal) (ix2 l ⟨128 + j.val, by omega⟩)
        = (A0 m c main_arg5 : S128x64.Idx → EReal) (ix2 j l)) := by
  host_fold
  refine ⟨fun j l => ?_, fun j l => ?_⟩
  · refine (truncf_apply (φ := .f32) (ψ := .bf16) _ bitsLt_bf16_f32 _).trans ?_
    refine (Layout.cat2_cols_left (c := 256) _ _ _ l j ⟨j.val, by omega⟩ rfl).trans ?_
    exact transpose_ix2_apply _ _ l j
  · refine (truncf_apply (φ := .f32) (ψ := .bf16) _ bitsLt_bf16_f32 _).trans ?_
    refine (Layout.cat2_cols_right (c := 256) _ _ _ l j ⟨128 + j.val, by omega⟩ rfl).trans ?_
    exact transpose_ix2_apply _ _ l j

/-- The first-layer biases end to end. -/
theorem win_v5 (c : Dev nD) :
    (∀ j : Fin 128, (V m c main_v5 : S256.Idx → EReal) (ix1 ⟨j.val, by omega⟩) = (A0 m c main_arg2 : S128.Idx → EReal) (ix1 j))
    ∧ (∀ j : Fin 128, (V m c main_v5 : S256.Idx → EReal) (ix1 ⟨128 + j.val, by omega⟩)
        = (A0 m c main_arg6 : S128.Idx → EReal) (ix1 j)) := by
  host_fold
  exact ⟨fun j => Layout.cat2_vec_left (c := 256) _ _ _ j ⟨j.val, by omega⟩ rfl, fun j => Layout.cat2_vec_right (c := 256) _ _ _ j ⟨128 + j.val, by omega⟩ rfl⟩

/-- The first branch's second-layer matrix transposed. -/
theorem win_v7 (c : Dev nD) :
    ∀ (j l : Fin 128), (V m c main_v7 : S128x128.Idx → EReal) (ix2 l j) = (A0 m c main_arg3 : S128x128.Idx → EReal) (ix2 j l) := by
  host_fold
  intro j l
  exact (truncf_apply (φ := .f32) (ψ := .bf16) _ bitsLt_bf16_f32 _).trans (transpose_ix2_apply _ _ l j)

/-- The second branch's second-layer matrix transposed. -/
theorem win_v9 (c : Dev nD) :
    ∀ (j l : Fin 128), (V m c main_v9 : S128x128.Idx → EReal) (ix2 l j) = (A0 m c main_arg7 : S128x128.Idx → EReal) (ix2 j l) := by
  host_fold
  intro j l
  exact (truncf_apply (φ := .f32) (ψ := .bf16) _ bitsLt_bf16_f32 _).trans (transpose_ix2_apply _ _ l j)

end Cert.KernelIdeal.Prefix

end
-- ==== Proof.PrefixFold.lean ====
/-
  The fold of the host operations computed inside a hypothesis: for a window read at several ranges the contents are
  named once, computed there, and substituted.
-/
import proofs.«100968_j85916525789512_2_alg».proof.Proof.Gen.KernelIdeal.Launch
import proofs.«100968_j85916525789512_2_alg».proof.Proof.Blocks
import proofs.«100968_j85916525789512_2_alg».proof.Proof.Layout
import proofs.«100968_j85916525789512_2_alg».proof.Proof.HostRun
import proofs.«100968_j85916525789512_2_alg».proof.Proof.PrefixBase
import Idealize.ShloMosaic.Lib.Pipeline.Value
import Idealize.ShloMosaic.Lib.ValueIdx
import Idealize.ShloMosaic.Lib.ValueLayout
import Idealize.ShloMosaic.Lib.StableHlo.Run

set_option maxRecDepth 2560

noncomputable section

namespace Cert.KernelIdeal.Prefix

open Cert.KernelIdeal Cert.KernelIdeal.Gen Idealize.ShloMosaic Idealize.ShloMosaic.ValueIdx Idealize.ShloMosaic.TcCoe
open Idealize.SL.Sem Idealize.ShloMosaic.StableHlo ActorCritic

variable (m : (ℓ : Loc nD τ sig) → Buf (Elt Ideal) ℓ)

/-- In the hypothesis `h : V m c r = X`, compute the contents at reference `r` after the host operations as the
    operations' term of the launch contents. -/
macro "host_fold_at " h:ident : tactic =>
  `(tactic| (dsimp only [V, V0] at $h:ident
             simp only [hostOps0, List.flatten_cons, List.flatten_nil, List.append_nil, StableHlo.after_cons,
               StableHlo.after_nil] at $h:ident
             repeat (first
               | rw [StableHlo.unary_result] at $h:ident | rw [StableHlo.binary_result] at $h:ident
               | rw [StableHlo.reshape_result] at $h:ident | rw [StableHlo.nary3_result] at $h:ident
               | (rw [StableHlo.unary_result_ne] at $h:ident; rotate_left; decide)
               | (rw [StableHlo.binary_result_ne] at $h:ident; rotate_left; decide)
               | (rw [StableHlo.reshape_result_ne] at $h:ident; rotate_left; decide)
               | (rw [StableHlo.nary_result_ne] at $h:ident; rotate_left; decide))
             try simp only [StableHlo.fam3_zero, StableHlo.fam3_one, StableHlo.fam3_two] at $h:ident))

end Cert.KernelIdeal.Prefix

end
-- ==== Proof.Prefix2.lean ====
/-
  The first branch's gate matrix block: the kept row blocks of the gate matrix transposed and side by side.
-/
import proofs.«100968_j85916525789512_2_alg».proof.Proof.Gen.KernelIdeal.Launch
import proofs.«100968_j85916525789512_2_alg».proof.Proof.Blocks
import proofs.«100968_j85916525789512_2_alg».proof.Proof.Layout
import proofs.«100968_j85916525789512_2_alg».proof.Proof.HostRun
import proofs.«100968_j85916525789512_2_alg».proof.Proof.PrefixFold
import Idealize.ShloMosaic.Lib.Pipeline.Value
import Idealize.ShloMosaic.Lib.ValueIdx
import Idealize.ShloMosaic.Lib.ValueLayout
import Idealize.ShloMosaic.Lib.StableHlo.Run

set_option maxRecDepth 2560

noncomputable section

namespace Cert.KernelIdeal.Prefix

open Cert.KernelIdeal Cert.KernelIdeal.Gen Idealize.ShloMosaic Idealize.ShloMosaic.ValueIdx Idealize.ShloMosaic.TcCoe
open Idealize.SL.Sem Idealize.ShloMosaic.StableHlo ActorCritic

variable (m : (ℓ : Loc nD τ sig) → Buf (Elt Ideal) ℓ)

set_option maxHeartbeats 2000000 in
/-- The first branch's gate block: of the 512 x 128 gate matrix the input, candidate and output blocks of rows,
    transposed and side by side.  (The contents after the host operations are their fold over the launch contents; read
    at an index, the fold computes to the last operation that wrote the block, applied to what its operands held.) -/
theorem win_v15 (c : Dev nD) :
    (∀ (j l : Fin 128), (V m c main_v15 : S128x384.Idx → EReal) (ix2 l ⟨j.val, by omega⟩)
        = (A0 m c main_arg9 : S512x128.Idx → EReal) (ix2 ⟨j.val, by omega⟩ l))
    ∧ (∀ (j l : Fin 128), (V m c main_v15 : S128x384.Idx → EReal) (ix2 l ⟨128 + j.val, by omega⟩)
        = (A0 m c main_arg9 : S512x128.Idx → EReal) (ix2 ⟨256 + j.val, by omega⟩ l))
    ∧ (∀ (j l : Fin 128), (V m c main_v15 : S128x384.Idx → EReal) (ix2 l ⟨256 + j.val, by omega⟩)
        = (A0 m c main_arg9 : S512x128.Idx → EReal) (ix2 ⟨384 + j.val, by omega⟩ l)) := by
  generalize hX : (V m c main_v15 : S128x384.Idx → EReal) = X
  host_fold_at hX
  subst hX
  refine ⟨fun j l => ?_, fun j l => ?_, fun j l => ?_⟩
  · refine (truncf_apply (φ := .f32) (ψ := .bf16) _ bitsLt_bf16_f32 _).trans ?_
    refine (Layout.cat3_cols_0 (e := 384) _ _ _ _ l j ⟨j.val, by omega⟩ rfl).trans ?_
    show extractStridedSlice S128x128 ![0, 0] (transpose S128x512 [1, 0] (A0 m c main_arg9 : S512x128.Idx → EReal) transposes_S512x128_S128x512_1_0) slices_S128x512_S128x128_0_0 (ix2 l j) = _
    refine (slice2_axis1_apply (n1 := 512) 0 _ _ l j ⟨j.val, by omega⟩ (by show j.val = 0 + j.val; omega)).trans ?_
    exact transpose_ix2_apply _ _ l _
  · refine (truncf_apply (φ := .f32) (ψ := .bf16) _ bitsLt_bf16_f32 _).trans ?_
    refine (Layout.cat3_cols_1 (e := 384) _ _ _ _ l j ⟨128 + j.val, by omega⟩ rfl).trans ?_
    show extractStridedSlice S128x128 ![0, 256] (transpose S128x512 [1, 0] (A0 m c main_arg9 : S512x128.Idx → EReal) transposes_S512x128_S128x512_1_0) slices_S128x512_S128x128_0_256 (ix2 l j) = _
    refine (slice2_axis1_apply (n1 := 512) 256 _ _ l j ⟨256 + j.val, by omega⟩ rfl).trans ?_
    exact transpose_ix2_apply _ _ l _
  · refine (truncf_apply (φ := .f32) (ψ := .bf16) _ bitsLt_bf16_f32 _).trans ?_
    refine (Layout.cat3_cols_2 (e := 384) _ _ _ _ l j ⟨256 + j.val, by omega⟩ rfl).trans ?_
    show extractStridedSlice S128x128 ![0, 384] (transpose S128x512 [1, 0] (A0 m c main_arg9 : S512x128.Idx → EReal) transposes_S512x128_S128x512_1_0) slices_S128x512_S128x128_0_384 (ix2 l j) = _
    refine (slice2_axis1_apply (n1 := 512) 384 _ _ l j ⟨384 + j.val, by omega⟩ rfl).trans ?_
    exact transpose_ix2_apply _ _ l _

end Cert.KernelIdeal.Prefix

end
-- ==== Proof.Prefix3.lean ====
/-
  The second branch's gate matrix block: the kept row blocks of the gate matrix transposed and side by side.
-/
import proofs.«100968_j85916525789512_2_alg».proof.Proof.Gen.KernelIdeal.Launch
import proofs.«100968_j85916525789512_2_alg».proof.Proof.Blocks
import proofs.«100968_j85916525789512_2_alg».proof.Proof.Layout
import proofs.«100968_j85916525789512_2_alg».proof.Proof.HostRun
import proofs.«100968_j85916525789512_2_alg».proof.Proof.PrefixFold
import Idealize.ShloMosaic.Lib.Pipeline.Value
import Idealize.ShloMosaic.Lib.ValueIdx
import Idealize.ShloMosaic.Lib.ValueLayout
import Idealize.ShloMosaic.Lib.StableHlo.Run

set_option maxRecDepth 2560

noncomputable section

namespace Cert.KernelIdeal.Prefix

open Cert.KernelIdeal Cert.KernelIdeal.Gen Idealize.ShloMosaic Idealize.ShloMosaic.ValueIdx Idealize.ShloMosaic.TcCoe
open Idealize.SL.Sem Idealize.ShloMosaic.StableHlo ActorCritic

variable (m : (ℓ : Loc nD τ sig) → Buf (Elt Ideal) ℓ)

set_option maxHeartbeats 2000000 in
/-- The second branch's gate block: of the 512 x 128 gate matrix the input, candidate and output blocks of rows,
    transposed and side by side.  (The contents after the host operations are their fold over the launch contents; read
    at an index, the fold computes to the last operation that wrote the block, applied to what its operands held.) -/
theorem win_v21 (c : Dev nD) :
    (∀ (j l : Fin 128), (V m c main_v21 : S128x384.Idx → EReal) (ix2 l ⟨j.val, by omega⟩)
        = (A0 m c main_arg13 : S512x128.Idx → EReal) (ix2 ⟨j.val, by omega⟩ l))
    ∧ (∀ (j l : Fin 128), (V m c main_v21 : S128x384.Idx → EReal) (ix2 l ⟨128 + j.val, by omega⟩)
        = (A0 m c main_arg13 : S512x128.Idx → EReal) (ix2 ⟨256 + j.val, by omega⟩ l))
    ∧ (∀ (j l : Fin 128), (V m c main_v21 : S128x384.Idx → EReal) (ix2 l ⟨256 + j.val, by omega⟩)
        = (A0 m c main_arg13 : S512x128.Idx → EReal) (ix2 ⟨384 + j.val, by omega⟩ l)) := by
  generalize hX : (V m c main_v21 : S128x384.Idx → EReal) = X
  host_fold_at hX
  subst hX
  refine ⟨fun j l => ?_, fun j l => ?_, fun j l => ?_⟩
  · refine (truncf_apply (φ := .f32) (ψ := .bf16) _ bitsLt_bf16_f32 _).trans ?_
    refine (Layout.cat3_cols_0 (e := 384) _ _ _ _ l j ⟨j.val, by omega⟩ rfl).trans ?_
    show extractStridedSlice S128x128 ![0, 0] (transpose S128x512 [1, 0] (A0 m c main_arg13 : S512x128.Idx → EReal) transposes_S512x128_S128x512_1_0) slices_S128x512_S128x128_0_0 (ix2 l j) = _
    refine (slice2_axis1_apply (n1 := 512) 0 _ _ l j ⟨j.val, by omega⟩ (by show j.val = 0 + j.val; omega)).trans ?_
    exact transpose_ix2_apply _ _ l _
  · refine (truncf_apply (φ := .f32) (ψ := .bf16) _ bitsLt_bf16_f32 _).trans ?_
    refine (Layout.cat3_cols_1 (e := 384) _ _ _ _ l j ⟨128 + j.val, by omega⟩ rfl).trans ?_
    show extractStridedSlice S128x128 ![0, 256] (transpose S128x512 [1, 0] (A0 m c main_arg13 : S512x128.Idx → EReal) transposes_S512x128_S128x512_1_0) slices_S128x512_S128x128_0_256 (ix2 l j) = _
    refine (slice2_axis1_apply (n1 := 512) 256 _ _ l j ⟨256 + j.val, by omega⟩ rfl).trans ?_
    exact transpose_ix2_apply _ _ l _
  · refine (truncf_apply (φ := .f32) (ψ := .bf16) _ bitsLt_bf16_f32 _).trans ?_
    refine (Layout.cat3_cols_2 (e := 384) _ _ _ _ l j ⟨256 + j.val, by omega⟩ rfl).trans ?_
    show extractStridedSlice S128x128 ![0, 384] (transpose S128x512 [1, 0] (A0 m c main_arg13 : S512x128.Idx → EReal) transposes_S512x128_S128x512_1_0) slices_S128x512_S128x128_0_384 (ix2 l j) = _
    refine (slice2_axis1_apply (n1 := 512) 384 _ _ l j ⟨384 + j.val, by omega⟩ rfl).trans ?_
    exact transpose_ix2_apply _ _ l _

end Cert.KernelIdeal.Prefix

end
-- ==== Proof.Prefix4.lean ====
/-
  The heads' blocks (the two small heads' matrices transposed and side by side, their biases end to end, the value
  head's matrix transposed) and the input array flattened to rows.
-/
import proofs.«100968_j85916525789512_2_alg».proof.Proof.Gen.KernelIdeal.Launch
import proofs.«100968_j85916525789512_2_alg».proof.Proof.Blocks
import proofs.«100968_j85916525789512_2_alg».proof.Proof.Layout
import proofs.«100968_j85916525789512_2_alg».proof.Proof.HostRun
import proofs.«100968_j85916525789512_2_alg».proof.Proof.PrefixBase
import Idealize.ShloMosaic.Lib.Pipeline.Value
import Idealize.ShloMosaic.Lib.ValueIdx
import Idealize.ShloMosaic.Lib.ValueLayout
import Idealize.ShloMosaic.Lib.StableHlo.Run

set_option maxRecDepth 2560

noncomputable section

namespace Cert.KernelIdeal.Prefix

open Cert.KernelIdeal Cert.KernelIdeal.Gen Idealize.ShloMosaic Idealize.ShloMosaic.ValueIdx Idealize.ShloMosaic.TcCoe
open Idealize.SL.Sem Idealize.ShloMosaic.StableHlo ActorCritic

variable (m : (ℓ : Loc nD τ sig) → Buf (Elt Ideal) ℓ)

set_option maxHeartbeats 1000000 in
/-- The two small heads' matrices transposed and side by side. -/
theorem win_v35 (c : Dev nD) :
    (∀ (a : Fin 8) (l : Fin 128), (V m c main_v35 : S128x16.Idx → EReal) (ix2 l ⟨a.val, by omega⟩)
        = (A0 m c main_arg17 : S8x128.Idx → EReal) (ix2 a l))
    ∧ (∀ (a : Fin 8) (l : Fin 128), (V m c main_v35 : S128x16.Idx → EReal) (ix2 l ⟨8 + a.val, by omega⟩)
        = (A0 m c main_arg19 : S8x128.Idx → EReal) (ix2 a l)) := by
  host_fold
  refine ⟨fun a l => ?_, fun a l => ?_⟩
  · refine (truncf_apply (φ := .f32) (ψ := .bf16) _ bitsLt_bf16_f32 _).trans ?_
    refine (Layout.cat2_cols_left (c := 16) _ _ _ l a ⟨a.val, by omega⟩ rfl).trans ?_
    exact transpose_ix2_apply _ _ l a
  · refine (truncf_apply (φ := .f32) (ψ := .bf16) _ bitsLt_bf16_f32 _).trans ?_
    refine (Layout.cat2_cols_right (c := 16) _ _ _ l a ⟨8 + a.val, by omega⟩ rfl).trans ?_
    exact transpose_ix2_apply _ _ l a

set_option maxHeartbeats 1000000 in
/-- The two small heads' biases end to end. -/
theorem win_v36 (c : Dev nD) :
    (∀ a : Fin 8, (V m c main_v36 : S16.Idx → EReal) (ix1 ⟨a.val, by omega⟩) = (A0 m c main_arg18 : S8.Idx → EReal) (ix1 a))
    ∧ (∀ a : Fin 8, (V m c main_v36 : S16.Idx → EReal) (ix1 ⟨8 + a.val, by omega⟩)
        = (A0 m c main_arg20 : S8.Idx → EReal) (ix1 a)) := by
  host_fold
  exact ⟨fun a => Layout.cat2_vec_left (c := 16) _ _ _ a ⟨a.val, by omega⟩ rfl, fun a => Layout.cat2_vec_right (c := 16) _ _ _ a ⟨8 + a.val, by omega⟩ rfl⟩

set_option maxHeartbeats 1000000 in
/-- The value head's matrix transposed. -/
theorem win_v38 (c : Dev nD) :
    ∀ l : Fin 128, (V m c main_v38 : S128x1.Idx → EReal) (ix2 l (0 : Fin 1))
      = (A0 m c main_arg21 : S1x128.Idx → EReal) (ix2 (0 : Fin 1) l) := by
  host_fold
  intro l
  exact (truncf_apply (φ := .f32) (ψ := .bf16) _ bitsLt_bf16_f32 _).trans (transpose_ix2_apply _ _ l (0 : Fin 1))

set_option maxHeartbeats 1000000 in
/-- The input array flattened to rows: row s * 1024 + b is input row (s, b). -/
theorem win_v0 (c : Dev nD) (s : Fin 256) (b : Fin 1024) (l : Fin 64) :
    (V m c main_v0 : S262144x64.Idx → EReal) (ix2 ⟨s.val * 1024 + b.val, by omega⟩ l)
      = (A0 m c main_arg0 : S256x1024x64.Idx → EReal) (ix3 s b l) := by
  host_fold
  show shapeCast S262144x64 (m (c, Proc.devRef .tc main_arg0) : S256x1024x64.Idx → EReal) shapeCasts_S256x1024x64_S262144x64
      (ix2 ⟨s.val * 1024 + b.val, by omega⟩ l) = _
  exact shapeCast_apply _ _ _ (ix3 s b l) (by rw [Shape.rowMajor_val_three, Shape.rowMajor_val_two]; rfl)

end Cert.KernelIdeal.Prefix

end
-- ==== Proof.Prefix5.lean ====
/-
  The first branch's gate bias block: the kept pieces of the sum of the two gate biases end to end.
-/
import proofs.«100968_j85916525789512_2_alg».proof.Proof.Gen.KernelIdeal.Launch
import proofs.«100968_j85916525789512_2_alg».proof.Proof.Blocks
import proofs.«100968_j85916525789512_2_alg».proof.Proof.Layout
import proofs.«100968_j85916525789512_2_alg».proof.Proof.HostRun
import proofs.«100968_j85916525789512_2_alg».proof.Proof.PrefixFold
import Idealize.ShloMosaic.Lib.Pipeline.Value
import Idealize.ShloMosaic.Lib.ValueIdx
import Idealize.ShloMosaic.Lib.ValueLayout
import Idealize.ShloMosaic.Lib.StableHlo.Run

set_option maxRecDepth 2560

noncomputable section

namespace Cert.KernelIdeal.Prefix

open Cert.KernelIdeal Cert.KernelIdeal.Gen Idealize.ShloMosaic Idealize.ShloMosaic.ValueIdx Idealize.ShloMosaic.TcCoe
open Idealize.SL.Sem Idealize.ShloMosaic.StableHlo ActorCritic

variable (m : (ℓ : Loc nD τ sig) → Buf (Elt Ideal) ℓ)

set_option maxHeartbeats 2000000 in
/-- The first branch's gate bias: of the SUM of the two 512-entry biases the input, candidate and output pieces, end
    to end.  (The contents after the host operations are their fold over the launch contents; read at an index, the fold
    computes to the last operation that wrote the block, applied to what its operands held.) -/
theorem win_v26 (c : Dev nD) :
    (∀ j : Fin 128, (V m c main_v26 : S384.Idx → EReal) (ix1 ⟨j.val, by omega⟩)
        = (paramsOf m c).abih (ix1 ⟨j.val, by omega⟩) + (paramsOf m c).abhh (ix1 ⟨j.val, by omega⟩))
    ∧ (∀ j : Fin 128, (V m c main_v26 : S384.Idx → EReal) (ix1 ⟨128 + j.val, by omega⟩)
        = (paramsOf m c).abih (ix1 ⟨256 + j.val, by omega⟩) + (paramsOf m c).abhh (ix1 ⟨256 + j.val, by omega⟩))
    ∧ (∀ j : Fin 128, (V m c main_v26 : S384.Idx → EReal) (ix1 ⟨256 + j.val, by omega⟩)
        = (paramsOf m c).abih (ix1 ⟨384 + j.val, by omega⟩) + (paramsOf m c).abhh (ix1 ⟨384 + j.val, by omega⟩)) := by
  generalize hX : (V m c main_v26 : S384.Idx → EReal) = X
  host_fold_at hX
  subst hX
  refine ⟨fun j => ?_, fun j => ?_, fun j => ?_⟩
  · refine (Layout.cat3_vec_0 (e := 384) _ _ _ _ j ⟨j.val, by omega⟩ rfl).trans ?_
    show extractStridedSlice (s := S512) S128 ![0] (addf (F := Ideal) (φ := .f32) (A0 m c main_arg11 : FVec Ideal S512 .f32) (A0 m c main_arg12 : FVec Ideal S512 .f32)) slices_S512_S128_0 (ix1 j) = _
    refine (Layout.slice1_apply (n := 512) 0 _ _ j ⟨j.val, by omega⟩ (by show j.val = 0 + j.val; omega)).trans ?_
    exact addf_apply _ _ _
  · refine (Layout.cat3_vec_1 (e := 384) _ _ _ _ j ⟨128 + j.val, by omega⟩ rfl).trans ?_
    show extractStridedSlice (s := S512) S128 ![256] (addf (F := Ideal) (φ := .f32) (A0 m c main_arg11 : FVec Ideal S512 .f32) (A0 m c main_arg12 : FVec Ideal S512 .f32)) slices_S512_S128_256 (ix1 j) = _
    refine (Layout.slice1_apply (n := 512) 256 _ _ j ⟨256 + j.val, by omega⟩ rfl).trans ?_
    exact addf_apply _ _ _
  · refine (Layout.cat3_vec_2 (e := 384) _ _ _ _ j ⟨256 + j.val, by omega⟩ rfl).trans ?_
    show extractStridedSlice (s := S512) S128 ![384] (addf (F := Ideal) (φ := .f32) (A0 m c main_arg11 : FVec Ideal S512 .f32) (A0 m c main_arg12 : FVec Ideal S512 .f32)) slices_S512_S128_384 (ix1 j) = _
    refine (Layout.slice1_apply (n := 512) 384 _ _ j ⟨384 + j.val, by omega⟩ rfl).trans ?_
    exact addf_apply _ _ _

end Cert.KernelIdeal.Prefix

end
-- ==== Proof.Prefix6.lean ====
/-
  The second branch's gate bias block: the kept pieces of the sum of the two gate biases end to end.
-/
import proofs.«100968_j85916525789512_2_alg».proof.Proof.Gen.KernelIdeal.Launch
import proofs.«100968_j85916525789512_2_alg».proof.Proof.Blocks
import proofs.«100968_j85916525789512_2_alg».proof.Proof.Layout
import proofs.«100968_j85916525789512_2_alg».proof.Proof.HostRun
import proofs.«100968_j85916525789512_2_alg».proof.Proof.PrefixFold
import Idealize.ShloMosaic.Lib.Pipeline.Value
import Idealize.ShloMosaic.Lib.ValueIdx
import Idealize.ShloMosaic.Lib.ValueLayout
import Idealize.ShloMosaic.Lib.StableHlo.Run

set_option maxRecDepth 2560

noncomputable section

namespace Cert.KernelIdeal.Prefix

open Cert.KernelIdeal Cert.KernelIdeal.Gen Idealize.ShloMosaic Idealize.ShloMosaic.ValueIdx Idealize.ShloMosaic.TcCoe
open Idealize.SL.Sem Idealize.ShloMosaic.StableHlo ActorCritic

variable (m : (ℓ : Loc nD τ sig) → Buf (Elt Ideal) ℓ)

set_option maxHeartbeats 2000000 in
/-- The second branch's gate bias: of the SUM of the two 512-entry biases the input, candidate and output pieces, end
    to end.  (The contents after the host operations are their fold over the launch contents; read at an index, the fold
    computes to the last operation that wrote the block, applied to what its operands held.) -/
theorem win_v31 (c : Dev nD) :
    (∀ j : Fin 128, (V m c main_v31 : S384.Idx → EReal) (ix1 ⟨j.val, by omega⟩)
        = (paramsOf m c).cbih (ix1 ⟨j.val, by omega⟩) + (paramsOf m c).cbhh (ix1 ⟨j.val, by omega⟩))
    ∧ (∀ j : Fin 128, (V m c main_v31 : S384.Idx → EReal) (ix1 ⟨128 + j.val, by omega⟩)
        = (paramsOf m c).cbih (ix1 ⟨256 + j.val, by omega⟩) + (paramsOf m c).cbhh (ix1 ⟨256 + j.val, by omega⟩))
    ∧ (∀ j : Fin 128, (V m c main_v31 : S384.Idx → EReal) (ix1 ⟨256 + j.val, by omega⟩)
        = (paramsOf m c).cbih (ix1 ⟨384 + j.val, by omega⟩) + (paramsOf m c).cbhh (ix1 ⟨384 + j.val, by omega⟩)) := by
  generalize hX : (V m c main_v31 : S384.Idx → EReal) = X
  host_fold_at hX
  subst hX
  refine ⟨fun j => ?_, fun j => ?_, fun j => ?_⟩
  · refine (Layout.cat3_vec_0 (e := 384) _ _ _ _ j ⟨j.val, by omega⟩ rfl).trans ?_
    show extractStridedSlice (s := S512) S128 ![0] (addf (F := Ideal) (φ := .f32) (A0 m c main_arg15 : FVec Ideal S512 .f32) (A0 m c main_arg16 : FVec Ideal S512 .f32)) slices_S512_S128_0 (ix1 j) = _
    refine (Layout.slice1_apply (n := 512) 0 _ _ j ⟨j.val, by omega⟩ (by show j.val = 0 + j.val; omega)).trans ?_
    exact addf_apply _ _ _
  · refine (Layout.cat3_vec_1 (e := 384) _ _ _ _ j ⟨128 + j.val, by omega⟩ rfl).trans ?_
    show extractStridedSlice (s := S512) S128 ![256] (addf (F := Ideal) (φ := .f32) (A0 m c main_arg15 : FVec Ideal S512 .f32) (A0 m c main_arg16 : FVec Ideal S512 .f32)) slices_S512_S128_256 (ix1 j) = _
    refine (Layout.slice1_apply (n := 512) 256 _ _ j ⟨256 + j.val, by omega⟩ rfl).trans ?_
    exact addf_apply _ _ _
  · refine (Layout.cat3_vec_2 (e := 384) _ _ _ _ j ⟨256 + j.val, by omega⟩ rfl).trans ?_
    show extractStridedSlice (s := S512) S128 ![384] (addf (F := Ideal) (φ := .f32) (A0 m c main_arg15 : FVec Ideal S512 .f32) (A0 m c main_arg16 : FVec Ideal S512 .f32)) slices_S512_S128_384 (ix1 j) = _
    refine (Layout.slice1_apply (n := 512) 384 _ _ j ⟨384 + j.val, by omega⟩ rfl).trans ?_
    exact addf_apply _ _ _

end Cert.KernelIdeal.Prefix

end
-- ==== Proof.Prefix.lean ====
/-
  What the kernel's parameter windows hold when its region is entered, against the parameter arrays; and the input
  array flattened to rows.
-/
import proofs.«100968_j85916525789512_2_alg».proof.Proof.Gen.KernelIdeal.Launch
import proofs.«100968_j85916525789512_2_alg».proof.Proof.Blocks
import proofs.«100968_j85916525789512_2_alg».proof.Proof.Layout
import proofs.«100968_j85916525789512_2_alg».proof.Proof.HostRun
import proofs.«100968_j85916525789512_2_alg».proof.Proof.Prefix1
import proofs.«100968_j85916525789512_2_alg».proof.Proof.Prefix2
import proofs.«100968_j85916525789512_2_alg».proof.Proof.Prefix3
import proofs.«100968_j85916525789512_2_alg».proof.Proof.Prefix4
import proofs.«100968_j85916525789512_2_alg».proof.Proof.Prefix5
import proofs.«100968_j85916525789512_2_alg».proof.Proof.Prefix6
import Idealize.ShloMosaic.Lib.Pipeline.Value
import Idealize.ShloMosaic.Lib.ValueIdx
import Idealize.ShloMosaic.Lib.ValueLayout
import Idealize.ShloMosaic.Lib.StableHlo.Run

set_option maxRecDepth 2560

noncomputable section

namespace Cert.KernelIdeal.Prefix

open Cert.KernelIdeal Cert.KernelIdeal.Gen Idealize.ShloMosaic Idealize.ShloMosaic.ValueIdx Idealize.ShloMosaic.TcCoe
open Idealize.SL.Sem Idealize.ShloMosaic.StableHlo ActorCritic

variable (m : (ℓ : Loc nD τ sig) → Buf (Elt Ideal) ℓ)

/-- The fourteen parameter blocks the kernel's windows read hold the parameter arrays as the network lays them out. -/
theorem blocks (c : Dev nD) : ActorCritic.Blocks (paramsOf m c) (V m c main_v4) (V m c main_v5) (V m c main_v7)
    (V m c main_arg4) (V m c main_v9) (V m c main_arg8) (V m c main_v15) (V m c main_v26) (V m c main_v21) (V m c main_v31)
    (V m c main_v35) (V m c main_v36) (V m c main_v38) (V m c main_arg22) where
  w1a := (win_v4 m c).1
  w1c := (win_v4 m c).2
  b1a := (win_v5 m c).1
  b1c := (win_v5 m c).2
  w2a := win_v7 m c
  b2a := fun j => congrFun (arg4_keeps m c) (ix1 j)
  w2c := win_v9 m c
  b2c := fun j => congrFun (arg8_keeps m c) (ix1 j)
  wia := (win_v15 m c).1
  wga := (win_v15 m c).2.1
  woa := (win_v15 m c).2.2
  bia := (win_v26 m c).1
  bga := (win_v26 m c).2.1
  boa := (win_v26 m c).2.2
  wic := (win_v21 m c).1
  wgc := (win_v21 m c).2.1
  woc := (win_v21 m c).2.2
  bic := (win_v31 m c).1
  bgc := (win_v31 m c).2.1
  boc := (win_v31 m c).2.2
  wm := (win_v35 m c).1
  wl := (win_v35 m c).2
  bm := (win_v36 m c).1
  bl := (win_v36 m c).2
  wv := win_v38 m c
  bv := congrFun (arg22_keeps m c) (ix1 (0 : Fin 1))

/-- Row s * 1024 + b of the flattened input window is input row (s, b). -/
theorem state_rows (c : Dev nD) (s : Fin 256) (b : Fin 1024) (l : Fin 64) :
    (V m c main_v0 : S262144x64.Idx → EReal) (ix2 ⟨s.val * 1024 + b.val, by omega⟩ l)
      = (m ((c : Thread nD τ).loc main_arg0) : S256x1024x64.Idx → EReal) (ix3 s b l) :=
  win_v0 m c s b l

end Cert.KernelIdeal.Prefix

end
-- ==== Proof.Fused.lean ====
/-
  The fused 262144 x 17 output array read at the columns of each head: row s * 1024 + b holds, in columns 0..7 the
  mean head, in columns 8..15 the std head, in column 16 the value head, of input row (s, b).
-/
import proofs.«100968_j85916525789512_2_alg».proof.Proof.Spec

noncomputable section

namespace ActorCritic

open Idealize.ShloMosaic Idealize.ShloMosaic.ValueIdx

theorem fused_row (P : Params) (x : A3 256 1024 64) (s : Fin 256) (b : Fin 1024) (q : Fin 17) :
    fused P x (ix2 ⟨s.val * 1024 + b.val, by omega⟩ q) = row17 P (inRow x s b) q := by
  unfold fused
  have hs : (⟨(s.val * 1024 + b.val) / 1024, by omega⟩ : Fin 256) = s := Fin.ext (by show (s.val * 1024 + b.val) / 1024 = s.val; omega)
  have hb : (⟨(s.val * 1024 + b.val) % 1024, Nat.mod_lt _ (by norm_num)⟩ : Fin 1024) = b :=
    Fin.ext (by show (s.val * 1024 + b.val) % 1024 = b.val; omega)
  show row17 P (inRow x ⟨(s.val * 1024 + b.val) / 1024, _⟩ ⟨(s.val * 1024 + b.val) % 1024, _⟩) ⟨q.val, _⟩ = _
  rw [hs, hb]

theorem fused_mean (P : Params) (x : A3 256 1024 64) (s : Fin 256) (b : Fin 1024) (a : Fin 8) :
    fused P x (ix2 ⟨s.val * 1024 + b.val, by omega⟩ ⟨a.val, by omega⟩) = meanRow P (inRow x s b) a := by
  rw [fused_row]
  unfold row17
  rw [dif_pos (show a.val < 8 from a.isLt)]

theorem fused_std (P : Params) (x : A3 256 1024 64) (s : Fin 256) (b : Fin 1024) (a : Fin 8) :
    fused P x (ix2 ⟨s.val * 1024 + b.val, by omega⟩ ⟨8 + a.val, by omega⟩) = stdRow P (inRow x s b) a := by
  rw [fused_row]
  unfold row17
  rw [dif_neg (show ¬ (8 + a.val < 8) by omega), dif_pos (show 8 + a.val < 16 by omega)]
  exact congrArg (stdRow P (inRow x s b)) (Fin.ext (by show 8 + a.val - 8 = a.val; omega))

theorem fused_val (P : Params) (x : A3 256 1024 64) (s : Fin 256) (b : Fin 1024) :
    fused P x (ix2 ⟨s.val * 1024 + b.val, by omega⟩ ⟨16, by omega⟩) = valRow P (inRow x s b) 0 := by
  rw [fused_row]
  unfold row17
  rw [dif_neg (show ¬ ((16 : ℕ) < 8) by omega), dif_neg (show ¬ ((16 : ℕ) < 16) by omega)]

end ActorCritic

end
-- ==== Proof.LibMidAxis.lean ====
/-
  A rank-3 array whose middle axis is summed away, and a rank-2 array viewed as a rank-3 one by splitting its rows
  into groups, each read at coordinates.

  `sum_abc_1`: a sum over the middle axis of an `[a, b, c]` array, at `(i, l)`, is the sum over `k` of the entries
  `(i, k, l)`.  `cast_nc_abc`: an `[n, c]` array cast to `[a, b, c]` (so `n = a * b`) reads, at `(i, j, l)`, row
  `i * b + j` and column `l` of the operand: group `i` is `b` consecutive rows.  Generic extents; indices are built
  from coordinates.
-/
import Idealize.ShloMosaic.Lib.Pipeline.Value
import Idealize.ShloMosaic.Lib.ValueIdx
import Idealize.ShloMosaic.PureOps.Ideal.Laws

namespace MidAxis

open Idealize.ShloMosaic Idealize.ShloMosaic.ValueIdx

/-- The middle axis of three, summed. -/
theorem sum_abc_1 {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (l : Fin c) :
    multiReduction .add [1] ⟨2, ![a, c]⟩ src acc h hφ hacc (ix2 i l) = ∑ k : Fin b, src (ix3 i k l) :=
  (Ideal.multiReduction_add_single src acc h hφ hacc (ix2 i l)).trans
    (Finset.sum_congr rfl fun k _ => congrArg src (funext fun ax => Fin.ext (by
      match ax with | ⟨0, _⟩ => rfl | ⟨1, _⟩ => rfl | ⟨2, _⟩ => rfl)))

/-- Rows split into groups: `[n, c] → [a, b, c]` reads row `i * b + j`. -/
theorem cast_nc_abc {α : Type} {n a b c : ℕ} (x : (⟨2, ![n, c]⟩ : Shape).Idx → α)
    (h : (⟨2, ![n, c]⟩ : Shape).ShapeCasts ⟨3, ![a, b, c]⟩) (i : Fin a) (j : Fin b) (l : Fin c)
    (hlt : i.val * b + j.val < n) :
    shapeCast ⟨3, ![a, b, c]⟩ x h (ix3 i j l) = x (ix2 ⟨i.val * b + j.val, hlt⟩ l) :=
  shapeCast_apply x h _ _ (by
    rw [Shape.rowMajor_val_two, Shape.rowMajor_val_three]
    rfl)

end MidAxis
-- ==== Proof.KernelValue.lean ====
/-
  The kernel program's three results as functions of its arguments.

  What point t writes back is rows 2048 t ... 2048 t + 2047 of the fused array of the specification (row p of the
  stored block is a function of row p of the activations' block and of the parameter blocks, which hold the
  parameter arrays re-laid).  The 128 blocks cover the result array, so after the region it IS the fused array; the
  host lines after the region cut its columns 0..7, 8..15 and 16 and regroup the 262144 rows as 256 x 1024.
-/
import proofs.«100968_j85916525789512_2_alg».proof.Proof.FrameRunKI
import proofs.«100968_j85916525789512_2_alg».proof.Proof.BlockReads
import proofs.«100968_j85916525789512_2_alg».proof.Proof.Payload
import proofs.«100968_j85916525789512_2_alg».proof.Proof.Prefix
import proofs.«100968_j85916525789512_2_alg».proof.Proof.Fused
import proofs.«100968_j85916525789512_2_alg».proof.Proof.LibMidAxis
import proofs.«100968_j85916525789512_2_alg».proof.Proof.LibSliceCols
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem ActorCritic
open Idealize.ShloMosaic.Pipeline (Dat)

variable (m : (ℓ : Loc nD τ sig) → Buf (Elt Ideal) ℓ) (ρ : Dev nD → PrngReg)

/-- The parameter arrays and the activations as launched on core c. -/
abbrev P (c : Dev nD) : Params := Cert.KernelIdeal.Prefix.paramsOf m c
abbrev X (c : Dev nD) : A3 256 1024 64 := m ((c : Thread nD τ).loc main_arg0)

/-- WHAT POINT t WRITES BACK is block t of the fused array. -/
theorem flushed_eq (c : Dev nD) (t : Fin cfg0.N) :
    (dats m 0 c).flushed 15 t = ((cfg0.win 15).blk t).view.read (Elt Ideal) (fused (P m c) (X m c)) := by
  show (cfg0.win 15).cut (grid0.coords t) ((dats m 0 c).after 15 t) = _
  rw [after0_15]
  unfold out0_15
  rw [View.canon_unit_zero hz2]
  simp only [View.ld_unit_zero (S := S2048x64) hz2,
    View.ld_unit_zero (S := S64x256) hz2,
    View.ld_unit_zero (S := S256) hz1,
    View.ld_unit_zero (S := S128x128) hz2,
    View.ld_unit_zero (S := S128) hz1,
    View.ld_unit_zero (S := S128x384) hz2,
    View.ld_unit_zero (S := S384) hz1,
    View.ld_unit_zero (S := S128x16) hz2,
    View.ld_unit_zero (S := S16) hz1,
    View.ld_unit_zero (S := S128x1) hz2,
    View.ld_unit_zero (S := S1) hz1]
  rw [read1 m c t, read2 m c t, read3 m c t, read4 m c t, read5 m c t, read6 m c t, read7 m c t, read8 m c t, read9 m c t, read10 m c t, read11 m c t, read12 m c t, read13 m c t, read14 m c t]
  funext y
  obtain ⟨p, q, rfl⟩ : ∃ (p : Fin 2048) (q : Fin 17), y = ix2 p q := ⟨y 0, y 1, eq_ix2 y⟩
  refine (Payload.block_row (P m c) (iblk m c 0 t) _ _ _ _ _ _ _ _ _ _ _ _ _ _ (Cert.KernelIdeal.Prefix.blocks m c) p q).trans ?_
  rw [View.read_apply, emb15]
  have hN : cfg0.N = 128 := N_0
  have ht := t.isLt
  have hr : t.val * 2048 + p.val = ((t.val * 2048 + p.val) / 1024) * 1024 + (t.val * 2048 + p.val) % 1024 := by omega
  have e := fused_row (P m c) (X m c) ⟨(t.val * 2048 + p.val) / 1024, by omega⟩ ⟨(t.val * 2048 + p.val) % 1024, Nat.mod_lt _ (by norm_num)⟩ q
  have ei : (ix2 ⟨t.val * 2048 + p.val, by omega⟩ q : S262144x17.Idx)
      = ix2 ⟨((t.val * 2048 + p.val) / 1024) * 1024 + (t.val * 2048 + p.val) % 1024, by omega⟩ q :=
    congrArg (fun r => ix2 r q) (Fin.ext hr)
  rw [ei, e]
  refine congrArg (fun z => row17 (P m c) z q) (funext fun l => ?_)
  rw [read0]
  have es := Cert.KernelIdeal.Prefix.state_rows m c ⟨(t.val * 2048 + p.val) / 1024, by omega⟩ ⟨(t.val * 2048 + p.val) % 1024, Nat.mod_lt _ (by norm_num)⟩ l
  refine Eq.trans (congrArg (fun r => (V m c main_v0 : S262144x64.Idx → EReal) (ix2 r l)) (Fin.ext hr)) es

/-- THE RESULT ARRAY after the region is the fused array. -/
theorem final (c : Dev nD) : (dats m 0 c).arrAt 15 cfg0.N = fused (P m c) (X m c) :=
  (dats m 0 c).arrAt_eq_of_cover 15 _ (fun t _ => flushed_eq m c t) cover

/-- The result array as the host lines after the region find it. -/
theorem arr15 (c : Dev nD) :
    Pipeline.withArrays spec0 c (V0 m c) (fun w => (dats m 0 c).arrAt w cfg0.N) (Proc.devRef .tc main_v39)
      = fused (P m c) (X m c) :=
  (Pipeline.withArrays_arr spec0 launch0.win.arr_inj c _ _ 15).trans (final m c)

/-- The first result: columns 0..7 of the fused array, its rows regrouped 256 x 1024. -/
theorem tail_mean (c : Dev nD) :
    Pipeline.afterTail₀ cfgs (dats m) 0 (V0 m) [hostOps1] c main_v41 = meanArr (P m c) (X m c) := by
  unfold Pipeline.afterTail₀
  show StableHlo.after hostOps1 _ (Proc.devRef .tc main_v41) = _
  after_results
  rw [arr15]
  funext i
  obtain ⟨s, b, a, rfl⟩ : ∃ (s : Fin 256) (b : Fin 1024) (a : Fin 8), i = ix3 s b a := ⟨i 0, i 1, i 2, eq_ix3 i⟩
  show shapeCast S256x1024x8 (extractStridedSlice S262144x8 ![0, 0] (fused (P m c) (X m c)) _) _ (ix3 s b a) = _
  rw [meanArr_ix3, MidAxis.cast_nc_abc _ _ s b a (by omega), SliceCols.cols_apply 0 _ _ _ a (by omega)]
  simp only [Nat.zero_add]
  exact fused_mean (P m c) (X m c) s b a

/-- The second result: columns 8..15. -/
theorem tail_std (c : Dev nD) :
    Pipeline.afterTail₀ cfgs (dats m) 0 (V0 m) [hostOps1] c main_v43 = stdArr (P m c) (X m c) := by
  unfold Pipeline.afterTail₀
  show StableHlo.after hostOps1 _ (Proc.devRef .tc main_v43) = _
  after_results
  rw [arr15]
  funext i
  obtain ⟨s, b, a, rfl⟩ : ∃ (s : Fin 256) (b : Fin 1024) (a : Fin 8), i = ix3 s b a := ⟨i 0, i 1, i 2, eq_ix3 i⟩
  show shapeCast S256x1024x8 (extractStridedSlice S262144x8 ![0, 8] (fused (P m c) (X m c)) _) _ (ix3 s b a) = _
  rw [stdArr_ix3, MidAxis.cast_nc_abc _ _ s b a (by omega), SliceCols.cols_apply 8 _ _ _ a (by omega)]
  exact fused_std (P m c) (X m c) s b a

/-- The third result: column 16. -/
theorem tail_val (c : Dev nD) :
    Pipeline.afterTail₀ cfgs (dats m) 0 (V0 m) [hostOps1] c main_v45 = valArr (P m c) (X m c) := by
  unfold Pipeline.afterTail₀
  show StableHlo.after hostOps1 _ (Proc.devRef .tc main_v45) = _
  after_results
  rw [arr15]
  funext i
  obtain ⟨s, b, a, rfl⟩ : ∃ (s : Fin 256) (b : Fin 1024) (a : Fin 1), i = ix3 s b a := ⟨i 0, i 1, i 2, eq_ix3 i⟩
  obtain rfl : a = 0 := Subsingleton.elim _ _
  show shapeCast S256x1024x1 (extractStridedSlice S262144x1 ![0, 16] (fused (P m c) (X m c)) _) _ (ix3 s b 0) = _
  rw [valArr_ix3, MidAxis.cast_nc_abc _ _ s b 0 (by omega), SliceCols.col_apply 16 _ _ _ 0 (by omega)]
  exact fused_val (P m c) (X m c) s b

/-! ## The run, read -/

/-- Every weakly fair execution of the program ends with the three results at the specification's arrays of the
    arguments, and the arguments unchanged. -/
theorem run : θ_run defs (onTc (τ := τ) (main (F := Ideal))) ⟨m, fun _ => 0, ρ⟩ (fun r => ∀ c : Dev nD,
      r.2.mem ((c.tc : Thread nD τ).loc main_v41) = meanArr (P m c) (X m c)
      ∧ r.2.mem ((c.tc : Thread nD τ).loc main_v43) = stdArr (P m c) (X m c)
      ∧ r.2.mem ((c.tc : Thread nD τ).loc main_v45) = valArr (P m c) (X m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
      ⟨((h c).2 main_v41 (Pipeline.mem_restRefs_of main_v41 (by decide) (by decide))).trans (tail_mean m c),
       ((h c).2 main_v43 (Pipeline.mem_restRefs_of main_v43 (by decide) (by decide))).trans (tail_std m c),
       ((h c).2 main_v45 (Pipeline.mem_restRefs_of main_v45 (by decide) (by decide))).trans (tail_val m c),
       kept m r h c⟩)
    (run_main m ρ)

end Cert.KernelIdeal.KValue

end
-- ==== Proof.RefActor.lean ====
/-
  The reference program's actor branch at the ideal values, read stage by stage at the coordinates (s, b, j) of an
  index: the first dense layer with its maximum against zero, the two-layer perceptron, the 512 gate
  pre-activations, and the cell's output.  Each stage is the specification's function of row (s, b) of the input.
  The reference spells the logistic function as 1 / (1 + exp (-g)) with the literal one, and the zero of the
  maximum as the zero word; both are what the specification uses.
-/
import proofs.«100968_j85916525789512_2_alg».proof.Proof.Gen.ReferenceIdeal.Read
import proofs.«100968_j85916525789512_2_alg».proof.Proof.Spec
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

set_option quotPrecheck false in
local notation "T[" s "]" => (⟨s, .f32⟩ : BufTy).Contents (Elt Ideal)

/-- Two index functions of rank three, two or one are equal when they agree at every coordinate. -/
local macro "idx3" : tactic =>
  `(tactic| (funext a; match a with | ⟨0, _⟩ => rfl | ⟨1, _⟩ => rfl | ⟨2, _⟩ => rfl))
local macro "idx2" : tactic => `(tactic| (funext a; match a with | ⟨0, _⟩ => rfl | ⟨1, _⟩ => rfl))
local macro "idx1" : tactic => `(tactic| (funext a; match a with | ⟨0, _⟩ => rfl))

variable (x0 : T[S256x1024x64]) (x1 : T[S128x64]) (x2 : T[S128]) (x3 : T[S128x128]) (x4 : T[S128]) (x9 : T[S512x128]) (x11 : T[S512]) (x12 : T[S512])
  (s : Fin 256) (b : Fin 1024)

/-- First layer: dot with the weight rows, plus the bias, maximum with zero. -/
theorem actor_relu1 (j : Fin 128) :
    Read.val_main_v4 (F := Ideal) x0 x1 x2 (ix3 s b j) = (ActorCritic.reluV (ActorCritic.dense x1 x2 (ActorCritic.inRow x0 s b))) j := by
  rw [Read.val_main_v4_apply, Read.val_main_v3_apply, Read.val_main_v0_apply, Read.val_main_v2_apply, Read.val_main_v1_apply,
    Read.val_main_call0_v0_apply, Read.val_main_call0_cst_apply]
  simp only [Ideal.maximumf_def, Ideal.addf_def, Ideal.ofBits_def]
  have hk : ∀ k : Fin 64, x0 (Read.lidx_main_v0 (ix3 s b j) k) * x1 (Read.ridx_main_v0 (ix3 s b j) k)
      = x0 (ix3 s b k) * x1 (ix2 j k) := fun k => by
    have el : Read.lidx_main_v0 (ix3 s b j) k = ix3 s b k := by idx3
    have er : Read.ridx_main_v0 (ix3 s b j) k = ix2 j k := by idx2
    rw [el, er]
  have eb : Read.idx_main_v1 (Read.idx_main_v2 (ix3 s b j)) = ix1 j := by idx1
  rw [Finset.sum_congr rfl fun k _ => hk k, eb]
  rfl

/-- Second layer on top of the first: the two-layer perceptron. -/
theorem actor_mlp (j : Fin 128) :
    Read.val_main_v9 (F := Ideal) x0 x1 x2 x3 x4 (ix3 s b j) = (ActorCritic.mlp x1 x2 x3 x4 (ActorCritic.inRow x0 s b)) j := by
  rw [Read.val_main_v9_apply, Read.val_main_v8_apply, Read.val_main_v5_apply, Read.val_main_v7_apply, Read.val_main_v6_apply,
    Read.val_main_call1_v0_apply, Read.val_main_call1_cst_apply]
  simp only [Ideal.maximumf_def, Ideal.addf_def, Ideal.ofBits_def]
  have hk : ∀ k : Fin 128, Read.val_main_v4 (F := Ideal) x0 x1 x2 (Read.lidx_main_v5 (ix3 s b j) k) * x3 (Read.ridx_main_v5 (ix3 s b j) k)
      = (ActorCritic.reluV (ActorCritic.dense x1 x2 (ActorCritic.inRow x0 s b))) k * x3 (ix2 j k) := fun k => by
    have el : Read.lidx_main_v5 (ix3 s b j) k = ix3 s b k := by idx3
    have er : Read.ridx_main_v5 (ix3 s b j) k = ix2 j k := by idx2
    rw [el, er, actor_relu1]
  have eb : Read.idx_main_v6 (Read.idx_main_v7 (ix3 s b j)) = ix1 j := by idx1
  rw [Finset.sum_congr rfl fun k _ => hk k, eb]
  rfl

/-- The gate pre-activations: dot with the gate matrix, plus the first bias, plus the second. -/
theorem actor_gates (g : Fin 512) :
    Read.val_main_v16 (F := Ideal) x0 x1 x2 x3 x4 x9 x11 x12 (ix3 s b g) = (ActorCritic.gates x9 x11 x12 (ActorCritic.mlp x1 x2 x3 x4 (ActorCritic.inRow x0 s b))) g := by
  rw [Read.val_main_v16_apply, Read.val_main_v13_apply, Read.val_main_v10_apply, Read.val_main_v12_apply, Read.val_main_v11_apply,
    Read.val_main_v15_apply, Read.val_main_v14_apply]
  simp only [Ideal.addf_def]
  have hk : ∀ k : Fin 128, Read.val_main_v9 (F := Ideal) x0 x1 x2 x3 x4 (Read.lidx_main_v10 (ix3 s b g) k) * x9 (Read.ridx_main_v10 (ix3 s b g) k)
      = (ActorCritic.mlp x1 x2 x3 x4 (ActorCritic.inRow x0 s b)) k * x9 (ix2 g k) := fun k => by
    have el : Read.lidx_main_v10 (ix3 s b g) k = ix3 s b k := by idx3
    have er : Read.ridx_main_v10 (ix3 s b g) k = ix2 g k := by idx2
    rw [el, er, actor_mlp]
  have eb1 : Read.idx_main_v11 (Read.idx_main_v12 (ix3 s b g)) = ix1 g := by idx1
  have eb2 : Read.idx_main_v14 (Read.idx_main_v15 (ix3 s b g)) = ix1 g := by idx1
  rw [Finset.sum_congr rfl fun k _ => hk k, eb1, eb2]
  rfl

/-- The cell's output from the gate array: the first, third and fourth slices are entries j, 256 + j and 384 + j;
    1 / (1 + exp (-g)) is the logistic function. -/
theorem actor_cell_of_gates (j : Fin 128) :
    Read.val_main_v36 (F := Ideal) x0 x1 x2 x3 x4 x9 x11 x12 (ix3 s b j)
      = ActorCritic.cell (fun g => Read.val_main_v16 (F := Ideal) x0 x1 x2 x3 x4 x9 x11 x12 (ix3 s b g)) j := by
  rw [Read.val_main_v36_apply, Read.val_main_v34_apply, Read.val_main_v33_apply, Read.val_main_cst_2_apply, Read.val_main_v32_apply,
    Read.val_main_v31_apply, Read.val_main_cst_1_apply, Read.val_main_v30_apply, Read.val_main_v29_apply, Read.val_main_v20_apply,
    Read.val_main_v35_apply, Read.val_main_v28_apply, Read.val_main_v26_apply, Read.val_main_v25_apply, Read.val_main_cst_0_apply,
    Read.val_main_v24_apply, Read.val_main_v23_apply, Read.val_main_cst_apply, Read.val_main_v22_apply, Read.val_main_v21_apply,
    Read.val_main_v17_apply, Read.val_main_v27_apply, Read.val_main_v19_apply]
  simp only [Ideal.mulf_def, Ideal.addf_def, Ideal.hostDivf_def, Ideal.hostUnary_exp_def, Ideal.hostUnary_tanh_def,
    Ideal.hostNegf_def, Ideal.negf_def, Ideal.ofBits_def, Ideal.ofBits_one_f32]
  have e17 : Read.idx_main_v17 (ix3 s b j) = ix3 s b (⟨j.val, by omega⟩ : Fin 512) := by idx3
  have e19 : Read.idx_main_v19 (ix3 s b j) = ix3 s b (⟨256 + j.val, by omega⟩ : Fin 512) := by idx3
  have e20 : Read.idx_main_v20 (ix3 s b j) = ix3 s b (⟨384 + j.val, by omega⟩ : Fin 512) := by idx3
  rw [e17, e19, e20]
  rfl

/-- The branch's 128 numbers at row (s, b). -/
theorem actor_cell (j : Fin 128) :
    Read.val_main_v36 (F := Ideal) x0 x1 x2 x3 x4 x9 x11 x12 (ix3 s b j) = ActorCritic.cell (ActorCritic.gates x9 x11 x12 (ActorCritic.mlp x1 x2 x3 x4 (ActorCritic.inRow x0 s b))) j := by
  rw [actor_cell_of_gates]
  exact congrArg (fun G => ActorCritic.cell G j) (funext fun g => actor_gates x0 x1 x2 x3 x4 x9 x11 x12 s b g)

end Cert.ReferenceIdeal.RefValue

end
-- ==== Proof.RefCritic.lean ====
/-
  The reference program's critic branch at the ideal values, read stage by stage at the coordinates (s, b, j) of an
  index: the first dense layer with its maximum against zero, the two-layer perceptron, the 512 gate
  pre-activations, and the cell's output.  Each stage is the specification's function of row (s, b) of the input.
  The reference spells the logistic function as 1 / (1 + exp (-g)) with the literal one, and the zero of the
  maximum as the zero word; both are what the specification uses.
-/
import proofs.«100968_j85916525789512_2_alg».proof.Proof.Gen.ReferenceIdeal.Read
import proofs.«100968_j85916525789512_2_alg».proof.Proof.Spec
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

set_option quotPrecheck false in
local notation "T[" s "]" => (⟨s, .f32⟩ : BufTy).Contents (Elt Ideal)

/-- Two index functions of rank three, two or one are equal when they agree at every coordinate. -/
local macro "idx3" : tactic =>
  `(tactic| (funext a; match a with | ⟨0, _⟩ => rfl | ⟨1, _⟩ => rfl | ⟨2, _⟩ => rfl))
local macro "idx2" : tactic => `(tactic| (funext a; match a with | ⟨0, _⟩ => rfl | ⟨1, _⟩ => rfl))
local macro "idx1" : tactic => `(tactic| (funext a; match a with | ⟨0, _⟩ => rfl))

variable (x0 : T[S256x1024x64]) (x5 : T[S128x64]) (x6 : T[S128]) (x7 : T[S128x128]) (x8 : T[S128]) (x13 : T[S512x128]) (x15 : T[S512]) (x16 : T[S512])
  (s : Fin 256) (b : Fin 1024)

/-- First layer: dot with the weight rows, plus the bias, maximum with zero. -/
theorem critic_relu1 (j : Fin 128) :
    Read.val_main_v41 (F := Ideal) x0 x5 x6 (ix3 s b j) = (ActorCritic.reluV (ActorCritic.dense x5 x6 (ActorCritic.inRow x0 s b))) j := by
  rw [Read.val_main_v41_apply, Read.val_main_v40_apply, Read.val_main_v37_apply, Read.val_main_v39_apply, Read.val_main_v38_apply,
    Read.val_main_call2_v0_apply, Read.val_main_call2_cst_apply]
  simp only [Ideal.maximumf_def, Ideal.addf_def, Ideal.ofBits_def]
  have hk : ∀ k : Fin 64, x0 (Read.lidx_main_v37 (ix3 s b j) k) * x5 (Read.ridx_main_v37 (ix3 s b j) k)
      = x0 (ix3 s b k) * x5 (ix2 j k) := fun k => by
    have el : Read.lidx_main_v37 (ix3 s b j) k = ix3 s b k := by idx3
    have er : Read.ridx_main_v37 (ix3 s b j) k = ix2 j k := by idx2
    rw [el, er]
  have eb : Read.idx_main_v38 (Read.idx_main_v39 (ix3 s b j)) = ix1 j := by idx1
  rw [Finset.sum_congr rfl fun k _ => hk k, eb]
  rfl

/-- Second layer on top of the first: the two-layer perceptron. -/
theorem critic_mlp (j : Fin 128) :
    Read.val_main_v46 (F := Ideal) x0 x5 x6 x7 x8 (ix3 s b j) = (ActorCritic.mlp x5 x6 x7 x8 (ActorCritic.inRow x0 s b)) j := by
  rw [Read.val_main_v46_apply, Read.val_main_v45_apply, Read.val_main_v42_apply, Read.val_main_v44_apply, Read.val_main_v43_apply,
    Read.val_main_call3_v0_apply, Read.val_main_call3_cst_apply]
  simp only [Ideal.maximumf_def, Ideal.addf_def, Ideal.ofBits_def]
  have hk : ∀ k : Fin 128, Read.val_main_v41 (F := Ideal) x0 x5 x6 (Read.lidx_main_v42 (ix3 s b j) k) * x7 (Read.ridx_main_v42 (ix3 s b j) k)
      = (ActorCritic.reluV (ActorCritic.dense x5 x6 (ActorCritic.inRow x0 s b))) k * x7 (ix2 j k) := fun k => by
    have el : Read.lidx_main_v42 (ix3 s b j) k = ix3 s b k := by idx3
    have er : Read.ridx_main_v42 (ix3 s b j) k = ix2 j k := by idx2
    rw [el, er, critic_relu1]
  have eb : Read.idx_main_v43 (Read.idx_main_v44 (ix3 s b j)) = ix1 j := by idx1
  rw [Finset.sum_congr rfl fun k _ => hk k, eb]
  rfl

/-- The gate pre-activations: dot with the gate matrix, plus the first bias, plus the second. -/
theorem critic_gates (g : Fin 512) :
    Read.val_main_v53 (F := Ideal) x0 x5 x6 x7 x8 x13 x15 x16 (ix3 s b g) = (ActorCritic.gates x13 x15 x16 (ActorCritic.mlp x5 x6 x7 x8 (ActorCritic.inRow x0 s b))) g := by
  rw [Read.val_main_v53_apply, Read.val_main_v50_apply, Read.val_main_v47_apply, Read.val_main_v49_apply, Read.val_main_v48_apply,
    Read.val_main_v52_apply, Read.val_main_v51_apply]
  simp only [Ideal.addf_def]
  have hk : ∀ k : Fin 128, Read.val_main_v46 (F := Ideal) x0 x5 x6 x7 x8 (Read.lidx_main_v47 (ix3 s b g) k) * x13 (Read.ridx_main_v47 (ix3 s b g) k)
      = (ActorCritic.mlp x5 x6 x7 x8 (ActorCritic.inRow x0 s b)) k * x13 (ix2 g k) := fun k => by
    have el : Read.lidx_main_v47 (ix3 s b g) k = ix3 s b k := by idx3
    have er : Read.ridx_main_v47 (ix3 s b g) k = ix2 g k := by idx2
    rw [el, er, critic_mlp]
  have eb1 : Read.idx_main_v48 (Read.idx_main_v49 (ix3 s b g)) = ix1 g := by idx1
  have eb2 : Read.idx_main_v51 (Read.idx_main_v52 (ix3 s b g)) = ix1 g := by idx1
  rw [Finset.sum_congr rfl fun k _ => hk k, eb1, eb2]
  rfl

/-- The cell's output from the gate array: the first, third and fourth slices are entries j, 256 + j and 384 + j;
    1 / (1 + exp (-g)) is the logistic function. -/
theorem critic_cell_of_gates (j : Fin 128) :
    Read.val_main_v73 (F := Ideal) x0 x5 x6 x7 x8 x13 x15 x16 (ix3 s b j)
      = ActorCritic.cell (fun g => Read.val_main_v53 (F := Ideal) x0 x5 x6 x7 x8 x13 x15 x16 (ix3 s b g)) j := by
  rw [Read.val_main_v73_apply, Read.val_main_v71_apply, Read.val_main_v70_apply, Read.val_main_cst_6_apply, Read.val_main_v69_apply,
    Read.val_main_v68_apply, Read.val_main_cst_5_apply, Read.val_main_v67_apply, Read.val_main_v66_apply, Read.val_main_v57_apply,
    Read.val_main_v72_apply, Read.val_main_v65_apply, Read.val_main_v63_apply, Read.val_main_v62_apply, Read.val_main_cst_4_apply,
    Read.val_main_v61_apply, Read.val_main_v60_apply, Read.val_main_cst_3_apply, Read.val_main_v59_apply, Read.val_main_v58_apply,
    Read.val_main_v54_apply, Read.val_main_v64_apply, Read.val_main_v56_apply]
  simp only [Ideal.mulf_def, Ideal.addf_def, Ideal.hostDivf_def, Ideal.hostUnary_exp_def, Ideal.hostUnary_tanh_def,
    Ideal.hostNegf_def, Ideal.negf_def, Ideal.ofBits_def, Ideal.ofBits_one_f32]
  have e17 : Read.idx_main_v54 (ix3 s b j) = ix3 s b (⟨j.val, by omega⟩ : Fin 512) := by idx3
  have e19 : Read.idx_main_v56 (ix3 s b j) = ix3 s b (⟨256 + j.val, by omega⟩ : Fin 512) := by idx3
  have e20 : Read.idx_main_v57 (ix3 s b j) = ix3 s b (⟨384 + j.val, by omega⟩ : Fin 512) := by idx3
  rw [e17, e19, e20]
  rfl

/-- The branch's 128 numbers at row (s, b). -/
theorem critic_cell (j : Fin 128) :
    Read.val_main_v73 (F := Ideal) x0 x5 x6 x7 x8 x13 x15 x16 (ix3 s b j) = ActorCritic.cell (ActorCritic.gates x13 x15 x16 (ActorCritic.mlp x5 x6 x7 x8 (ActorCritic.inRow x0 s b))) j := by
  rw [critic_cell_of_gates]
  exact congrArg (fun G => ActorCritic.cell G j) (funext fun g => critic_gates x0 x5 x6 x7 x8 x13 x15 x16 s b g)

end Cert.ReferenceIdeal.RefValue

end
-- ==== Proof.RefValue.lean ====
/-
  The reference program's three results at the ideal values are the specification's arrays.

  Each head is a dense layer over a branch's 128 numbers: the mean and the exponent of the standard deviation
  over the actor's, the value over the critic's.  Read at the coordinates (s, b, a) of an index, the dot product is
  the sum over l of the branch's entry l times the head matrix's entry (a, l), the bias is broadcast along the
  last axis, and the standard deviation is the exponential of its head.  With the branches already identified
  stage by stage, each result at (s, b, a) is the specification's row function of input row (s, b) at a.
-/
import proofs.«100968_j85916525789512_2_alg».proof.Proof.RefActor
import proofs.«100968_j85916525789512_2_alg».proof.Proof.RefCritic

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

set_option quotPrecheck false in
local notation "T[" s "]" => (⟨s, .f32⟩ : BufTy).Contents (Elt Ideal)

/-- Two index functions of rank three, two or one are equal when they agree at every coordinate. -/
local macro "idx3" : tactic =>
  `(tactic| (funext a; match a with | ⟨0, _⟩ => rfl | ⟨1, _⟩ => rfl | ⟨2, _⟩ => rfl))
local macro "idx2" : tactic => `(tactic| (funext a; match a with | ⟨0, _⟩ => rfl | ⟨1, _⟩ => rfl))
local macro "idx1" : tactic => `(tactic| (funext a; match a with | ⟨0, _⟩ => rfl))

variable (x0 : T[S256x1024x64]) (x1 : T[S128x64]) (x2 : T[S128]) (x3 : T[S128x128]) (x4 : T[S128])
  (x5 : T[S128x64]) (x6 : T[S128]) (x7 : T[S128x128]) (x8 : T[S128]) (x9 : T[S512x128]) (x11 x12 : T[S512])
  (x13 : T[S512x128]) (x15 x16 : T[S512]) (x17 : T[S8x128]) (x18 : T[S8]) (x19 : T[S8x128]) (x20 : T[S8])
  (x21 : T[S1x128]) (x22 : T[S1])

section heads

variable (s : Fin 256) (b : Fin 1024)

/-- The mean head at (s, b, a). -/
theorem mean_at (a : Fin 8) :
    Read.val_main_v77 (F := Ideal) x0 x1 x2 x3 x4 x9 x11 x12 x17 x18 (ix3 s b a) = ActorCritic.dense x17 x18 (ActorCritic.cell (ActorCritic.gates x9 x11 x12 (ActorCritic.mlp x1 x2 x3 x4 (ActorCritic.inRow x0 s b)))) a := by
  rw [Read.val_main_v77_apply, Read.val_main_v74_apply, Read.val_main_v76_apply, Read.val_main_v75_apply]
  simp only [Ideal.addf_def]
  have hk : ∀ k : Fin 128, Read.val_main_v36 (F := Ideal) x0 x1 x2 x3 x4 x9 x11 x12 (Read.lidx_main_v74 (ix3 s b a) k) * x17 (Read.ridx_main_v74 (ix3 s b a) k)
      = (ActorCritic.cell (ActorCritic.gates x9 x11 x12 (ActorCritic.mlp x1 x2 x3 x4 (ActorCritic.inRow x0 s b)))) k * x17 (ix2 a k) := fun k => by
    have el : Read.lidx_main_v74 (ix3 s b a) k = ix3 s b k := by idx3
    have er : Read.ridx_main_v74 (ix3 s b a) k = ix2 a k := by idx2
    rw [el, er, actor_cell]
  have eb : Read.idx_main_v75 (Read.idx_main_v76 (ix3 s b a)) = ix1 a := by idx1
  rw [Finset.sum_congr rfl fun k _ => hk k, eb]
  rfl

/-- The standard deviation at (s, b, a): the exponential of its head. -/
theorem std_at (a : Fin 8) :
    Read.val_main_v82 (F := Ideal) x0 x1 x2 x3 x4 x9 x11 x12 x19 x20 (ix3 s b a) = Ideal.exp (ActorCritic.dense x19 x20 (ActorCritic.cell (ActorCritic.gates x9 x11 x12 (ActorCritic.mlp x1 x2 x3 x4 (ActorCritic.inRow x0 s b)))) a) := by
  rw [Read.val_main_v82_apply, Read.val_main_v81_apply, Read.val_main_v78_apply, Read.val_main_v80_apply, Read.val_main_v79_apply]
  simp only [Ideal.addf_def, Ideal.hostUnary_exp_def]
  have hk : ∀ k : Fin 128, Read.val_main_v36 (F := Ideal) x0 x1 x2 x3 x4 x9 x11 x12 (Read.lidx_main_v78 (ix3 s b a) k) * x19 (Read.ridx_main_v78 (ix3 s b a) k)
      = (ActorCritic.cell (ActorCritic.gates x9 x11 x12 (ActorCritic.mlp x1 x2 x3 x4 (ActorCritic.inRow x0 s b)))) k * x19 (ix2 a k) := fun k => by
    have el : Read.lidx_main_v78 (ix3 s b a) k = ix3 s b k := by idx3
    have er : Read.ridx_main_v78 (ix3 s b a) k = ix2 a k := by idx2
    rw [el, er, actor_cell]
  have eb : Read.idx_main_v79 (Read.idx_main_v80 (ix3 s b a)) = ix1 a := by idx1
  rw [Finset.sum_congr rfl fun k _ => hk k, eb]
  rfl

/-- The value head at (s, b, a); its last axis has one entry. -/
theorem val_at (a : Fin 1) :
    Read.val_main_v86 (F := Ideal) x0 x5 x6 x7 x8 x13 x15 x16 x21 x22 (ix3 s b a) = ActorCritic.dense x21 x22 (ActorCritic.cell (ActorCritic.gates x13 x15 x16 (ActorCritic.mlp x5 x6 x7 x8 (ActorCritic.inRow x0 s b)))) a := by
  rw [Read.val_main_v86_apply, Read.val_main_v83_apply, Read.val_main_v85_apply, Read.val_main_v84_apply]
  simp only [Ideal.addf_def]
  have hk : ∀ k : Fin 128, Read.val_main_v73 (F := Ideal) x0 x5 x6 x7 x8 x13 x15 x16 (Read.lidx_main_v83 (ix3 s b a) k) * x21 (Read.ridx_main_v83 (ix3 s b a) k)
      = (ActorCritic.cell (ActorCritic.gates x13 x15 x16 (ActorCritic.mlp x5 x6 x7 x8 (ActorCritic.inRow x0 s b)))) k * x21 (ix2 a k) := fun k => by
    have el : Read.lidx_main_v83 (ix3 s b a) k = ix3 s b k := by idx3
    have er : Read.ridx_main_v83 (ix3 s b a) k = ix2 a k := by idx2
    rw [el, er, critic_cell]
  have eb : Read.idx_main_v84 (Read.idx_main_v85 (ix3 s b a)) = ix1 a := by
    funext a'
    match a' with
    | ⟨0, _⟩ => exact Fin.ext (by show (0 : ℕ) = a.val; omega)
  rw [Finset.sum_congr rfl fun k _ => hk k, eb]
  rfl

end heads

/-- The mean result is the specification's mean array. -/
theorem ref_mean :
    Read.val_main_v77 (F := Ideal) x0 x1 x2 x3 x4 x9 x11 x12 x17 x18
      = ActorCritic.meanArr (ActorCritic.Params.mk x1 x2 x3 x4 x5 x6 x7 x8 x9 x11 x12 x13 x15 x16 x17 x18 x19 x20 x21 x22) x0 := by
  funext i
  obtain ⟨s, b, a, rfl⟩ : ∃ (s : Fin 256) (b : Fin 1024) (a : Fin 8), i = ix3 s b a := ⟨i 0, i 1, i 2, eq_ix3 i⟩
  rw [ActorCritic.meanArr_ix3]
  exact mean_at x0 x1 x2 x3 x4 x9 x11 x12 x17 x18 s b a

/-- The standard deviation result is the specification's standard deviation array. -/
theorem ref_std :
    Read.val_main_v82 (F := Ideal) x0 x1 x2 x3 x4 x9 x11 x12 x19 x20
      = ActorCritic.stdArr (ActorCritic.Params.mk x1 x2 x3 x4 x5 x6 x7 x8 x9 x11 x12 x13 x15 x16 x17 x18 x19 x20 x21 x22) x0 := by
  funext i
  obtain ⟨s, b, a, rfl⟩ : ∃ (s : Fin 256) (b : Fin 1024) (a : Fin 8), i = ix3 s b a := ⟨i 0, i 1, i 2, eq_ix3 i⟩
  rw [ActorCritic.stdArr_ix3]
  exact std_at x0 x1 x2 x3 x4 x9 x11 x12 x19 x20 s b a

/-- The value result is the specification's value array. -/
theorem ref_val :
    Read.val_main_v86 (F := Ideal) x0 x5 x6 x7 x8 x13 x15 x16 x21 x22
      = ActorCritic.valArr (ActorCritic.Params.mk x1 x2 x3 x4 x5 x6 x7 x8 x9 x11 x12 x13 x15 x16 x17 x18 x19 x20 x21 x22) x0 := by
  funext i
  obtain ⟨s, b, a, rfl⟩ : ∃ (s : Fin 256) (b : Fin 1024) (a : Fin 1), i = ix3 s b a := ⟨i 0, i 1, i 2, eq_ix3 i⟩
  rw [ActorCritic.valArr_ix3]
  exact val_at x0 x5 x6 x7 x8 x13 x15 x16 x21 x22 s b a

end Cert.ReferenceIdeal.RefValue

end
-- ==== Proof.lean ====
/-
  The certificate's claim: both kernel programs run to the end, fault nowhere and leave their arguments as launched;
  so does the reference; the idealized kernel is the printed kernel read over the extended reals with nothing
  rewritten; and the idealized kernel and the idealized reference, run from memories that agree on the arguments,
  end with the same three results.

  Both sides compute, for every one of the 256 x 1024 input rows, the same network (Proof/Spec.lean): two branches,
  each a two-layer perceptron followed by the gates of a recurrent cell run from the zero state and the cell's
  output, then a mean head, a std head (an exponential) and a value head.  The kernel works on the rows flattened to
  262144 and cut in 128 blocks of 2048, with the parameter matrices transposed and laid side by side beforehand, the
  forget gate's columns dropped and the two gate biases added beforehand; the reference works on the three-axis array
  with the parameters as given.  The two agree entry by entry: the sums are the same sums, the fused matrices read
  back as their parts, and (x + b) + b' = x + (b + b') on the extended reals.  No finiteness is used.
-/
import proofs.«100968_j85916525789512_2_alg».proof.Defs
import proofs.«100968_j85916525789512_2_alg».proof.Proof.Gen.Kernel
import proofs.«100968_j85916525789512_2_alg».proof.Proof.Gen.Kernel.Skeleton
import proofs.«100968_j85916525789512_2_alg».proof.Proof.Gen.Kernel.Launch
import proofs.«100968_j85916525789512_2_alg».proof.Proof.Gen.Kernel.Points
import proofs.«100968_j85916525789512_2_alg».proof.Proof.Gen.KernelIdeal
import proofs.«100968_j85916525789512_2_alg».proof.Proof.Gen.KernelIdeal.Skeleton
import proofs.«100968_j85916525789512_2_alg».proof.Proof.Gen.KernelIdeal.Launch
import proofs.«100968_j85916525789512_2_alg».proof.Proof.Gen.KernelIdeal.Points
import proofs.«100968_j85916525789512_2_alg».proof.Proof.Gen.ReferenceIdeal
import proofs.«100968_j85916525789512_2_alg».proof.Proof.Gen.ReferenceIdeal.Run
import proofs.«100968_j85916525789512_2_alg».proof.Proof.Gen.ReferenceIdeal.Read
import proofs.«100968_j85916525789512_2_alg».proof.Proof.Gen.Pre_finite_inputs
import proofs.«100968_j85916525789512_2_alg».proof.Proof.FrameRunK
import proofs.«100968_j85916525789512_2_alg».proof.Proof.FrameRunKI
import proofs.«100968_j85916525789512_2_alg».proof.Proof.KernelValue
import proofs.«100968_j85916525789512_2_alg».proof.Proof.RefValue
import Idealize.ShloMosaic.Adequacy
import Idealize.ShloMosaic.Init

noncomputable section

namespace Cert.Proof

open Idealize.ShloMosaic Idealize.SL.Sem ActorCritic

/-- The printed kernel runs and keeps its arguments. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference is host operations only: its run, with the results forgotten. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing was rewritten when the kernel was read over the extended reals. -/
theorem preserves : Cert.preserves_Kernel_KernelIdeal := trivial

/-- Both programs end with the specification's three arrays of the (agreeing) arguments. -/
theorem algebraic : Cert.algebraic_KernelIdeal_ReferenceIdeal := by
  intro m ρ m' ρ' _ hagree
  refine ⟨fun c => meanArr (Cert.KernelIdeal.KValue.P m c) (Cert.KernelIdeal.KValue.X m c),
    fun c => stdArr (Cert.KernelIdeal.KValue.P m c) (Cert.KernelIdeal.KValue.X m c),
    fun c => valArr (Cert.KernelIdeal.KValue.P m c) (Cert.KernelIdeal.KValue.X m c),
    Cert.KernelIdeal.KValue.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17, a18, a19, a20, a21, a22⟩ := hagree c
  obtain ⟨h0, h1, h2, hk⟩ := h c
  refine ⟨h0.trans ?_, h1.trans ?_, h2.trans ?_, hk⟩
  · rw [Cert.ReferenceIdeal.Read.val_main_v77_eq, a0, a1, a2, a3, a4, a9, a11, a12, a17, a18]
    exact Cert.ReferenceIdeal.RefValue.ref_mean
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
  · rw [Cert.ReferenceIdeal.Read.val_main_v82_eq, a0, a1, a2, a3, a4, a9, a11, a12, a19, a20]
    exact Cert.ReferenceIdeal.RefValue.ref_std
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
  · rw [Cert.ReferenceIdeal.Read.val_main_v86_eq, a0, a5, a6, a7, a8, a13, a15, a16, a21, a22]
    exact Cert.ReferenceIdeal.RefValue.ref_val
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
